-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x2048 .f32) (main_arg1 : FVec F S2048x2048 .f32) (main_arg2 : FVec F S2048 .f32) (main_arg3 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S1024x1024 : Shape := ⟨2, ![1024, 1024]⟩
abbrev S1x1024 : Shape := ⟨2, ![1, 1024]⟩
abbrev S1024 : Shape := ⟨1, ![1024]⟩
abbrev S1024x2048 : Shape := ⟨2, ![1024, 2048]⟩

abbrev nBuf : Space → Nat
  | .hbm => 9
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x2048, .f32⟩
  | .local _ .vmem, ⟨9, _⟩ => ⟨S1024x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | .local _ .vmem, ⟨14, _⟩ => ⟨S2048x2048, .f32⟩
  | .local _ .vmem, ⟨15, _⟩ => ⟨S1024x2048, .f32⟩
  | .local _ .vmem, ⟨16, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [0] S1024
  shapeCasts_S1024_S1x1024 : S1024.ShapeCasts S1x1024
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  dot_S1024x2048_S2048x2048_S1024x2048_1_1_0_0_n_n_wf : DotDims.WF S1024x2048 S2048x2048 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x2048.size a
  hwx0_0 : ∀ i : grid0.Coords, EltTy.bits .f32 = 32 ∨ (Rect.block (s := S8192x2048) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x2048.size a
  hwx0_1 : ∀ i : grid0.Coords, EltTy.bits .f32 = 32 ∨ (Rect.block (s := S1x2048) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x2048.size a
  hwx0_2 : ∀ i : grid0.Coords, EltTy.bits .f32 = 32 ∨ (Rect.block (s := S1x2048) S1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x2048.size a
  hwx1_0 : ∀ i : grid1.Coords, EltTy.bits .f32 = 32 ∨ (Rect.block (s := S8192x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .f32 = 32 ∨ (Rect.block (s := S2048x2048) S2048x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x2048.size a ≤ S8192x2048.size a
  hwx1_6 : ∀ i : grid1.Coords, EltTy.bits .f32 = 32 ∨ (Rect.block (s := S8192x2048) S1024x2048.size (cc1_transform_6 i) (hinb1_6 i)).WholeWords (EltTy.packing .f32)

variable [Facts₀]

def dot_S1024x2048_S2048x2048_S1024x2048_1_1_0_0_n_n : DotDims S1024x2048 S2048x2048 S1024x2048 where
  lhsContracting := [1]
  rhsContracting := [1]
  lhsNonContracting := [0]
  rhsNonContracting := [0]
  lhsBatch := []
  rhsBatch := []
  wf := dot_S1024x2048_S2048x2048_S1024x2048_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg1) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048x2048, .f32⟩
  | .hbm, ⟨50, _⟩ => ⟨S2048x2048, .i1⟩
  | .hbm, ⟨51, _⟩ => ⟨S_, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S8192x2048, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_cst_3 : Ref sig .tc := ⟨.hbm, 26, rfl⟩
abbrev main_call0_v12 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_cst_3 : Ref sig .tc := ⟨.hbm, 51, rfl⟩
abbrev main_cst_4 : Ref sig .tc := ⟨.hbm, 52, rfl⟩
abbrev main_call1_v0 : Ref sig .tc := ⟨.hbm, 53, rfl⟩
abbrev main_call1_v1 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_5 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v26 : Ref sig .tc := ⟨.hbm, 67, rfl⟩

abbrev nD : Nat := 1
abbrev τ : Topo := Topo.v7x

variable {F : FTy → Type} [FloatOps F]

class Facts₀ : Prop where
  reducesTo_S8192x2048_S2048_d0 : S8192x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S8192x2048_0_1 : S1x2048.BroadcastsInDim S8192x2048 (![0, 1] : Fin 2 → Fin S8192x2048.rank)
  bcast_S_S2048x2048 : S_.BroadcastsInDim S2048x2048 (![] : Fin 0 → Fin S2048x2048.rank)
  bcast_S_S8192x2048 : S_.BroadcastsInDim S8192x2048 (![] : Fin 0 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.K.Whole.lean ====
/-
  The run of the whole program: two kernel regions with two host reshapes between them.

  A region is entered with the core's buffers at some contents `V`; it leaves its windows' arrays at what the
  write-backs of its grid points leave (the inputs as entered, each output block by block) and every other
  buffer as entered. The contents at the four boundaries are therefore one fold from the launch memory:
  as launched; the first region's arrays replaced; the two reshapes applied; the second region's arrays
  replaced. Every weakly fair execution ends with every buffer that outlives a region at the last of these,
  which is stated here once; the frame claim and the value of the result are both read off it.

  What a region's body does is not opened here: each region enters through a record of its proof data at an
  arbitrary entry contents together with the facts the launch needs of it (its arrays are the entry contents,
  full shares, nothing owed, the body's obligation, and its invariant starting from and ending in the
  class's "scoped rest and generator register untouched").
-/
import proofs.«127384_j52072183496926_2_alg».proof.Proof.Gen.Kernel.Launch
import proofs.«127384_j52072183496926_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core's buffers as a region finds them, read at the TensorCore's references. -/
abbrev Entry : Type := (c : Dev nD) → (b : Ref sig .tc) → Buf (Elt F) ((c : Thread nD τ).loc b)

/-- The first region's half: its proof data at any entry contents, and what the launch needs of it. -/
structure Half0 where
  dat : (V : Entry (F := F)) → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec0 c : sProp 𝕄) ⊢ (dat V c).Φ 0
  hout : ∀ V c, (dat V c).Φ (Fin.last cfg0.N) ⊢ (Pipeline.ΦA spec0 c : sProp 𝕄)

/-- The second region's half. -/
structure Half1 where
  dat : (V : Entry (F := F)) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

variable (h0 : Half0 (F := F)) (h1 : Half1 (F := F))
variable (m : (ℓ : Loc nD τ sig) → Buf (Elt F) ℓ) (ρ : Dev nD → PrngReg)

/-! ## The contents at the four boundaries -/

/-- At launch. -/
abbrev W0 : Dev nD → Valuation τ sig (Elt F) := fun c b => m ((c : Dev nD), b)
abbrev V0 : Entry (F := F) := fun c b => W0 m c b
/-- After the first region: its arrays at what its write-backs leave. -/
def W1 (c : Dev nD) : Valuation τ sig (Elt F) :=
  Pipeline.withArrays spec0 c (W0 m c) fun w => (h0.dat (V0 m) c).arrAt w cfg0.N
theorem W1_arr (c : Dev nD) (w : Fin cfg0.W) :
    W1 h0 m c (Proc.devRef .tc (Pipeline.arrRef spec0 w)) = (h0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 h0 m c (Proc.devRef .tc b) = W0 m c (Proc.devRef .tc b) := by
  unfold W1; exact Pipeline.withArrays_of_ne spec0 c _ _ b hb
abbrev V1 : Entry (F := F) := fun c b => W1 h0 m c b
theorem hF0 (c : Dev nD) (w : Fin cfg0.W) : (h0.dat (V0 m) c).arrAt w cfg0.N = V1 h0 m c (Pipeline.arrRef spec0 w) :=
  (W1_arr h0 m c w).symm
theorem hrest0 (c : Dev nD) : ∀ b, b ∉ Finset.univ.image (Pipeline.arrRef spec0) → V1 h0 m c b = V0 m c b :=
  fun b hb => W1_of_ne h0 m c b fun w e => hb (Finset.mem_image.mpr ⟨w, Finset.mem_univ _, e⟩)
/-- After the two reshapes. -/
abbrev W2 : Dev nD → Valuation τ sig (Elt F) := fun c => StableHlo.after hostOps1 (W1 h0 m c)
abbrev V2 : Entry (F := F) := fun c b => W2 h0 m c b
/-- After the second region. -/
def W3 (c : Dev nD) : Valuation τ sig (Elt F) :=
  Pipeline.withArrays spec1 c (W2 h0 m c) fun w => (h1.dat (V2 h0 m) c).arrAt w cfg1.N
theorem W3_arr (c : Dev nD) (w : Fin cfg1.W) :
    W3 h0 h1 m c (Proc.devRef .tc (Pipeline.arrRef spec1 w)) = (h1.dat (V2 h0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 h0 h1 m c (Proc.devRef .tc b) = W2 h0 m c (Proc.devRef .tc b) := by
  unfold W3; exact Pipeline.withArrays_of_ne spec1 c _ _ b hb
abbrev V3 : Entry (F := F) := fun c b => W3 h0 h1 m c b
theorem hF1 (c : Dev nD) (w : Fin cfg1.W) : (h1.dat (V2 h0 m) c).arrAt w cfg1.N = V3 h0 h1 m c (Pipeline.arrRef spec1 w) :=
  (W3_arr h0 h1 m c w).symm
theorem hrest1 (c : Dev nD) : ∀ b, b ∉ Finset.univ.image (Pipeline.arrRef spec1) → V3 h0 h1 m c b = V2 h0 m c b :=
  fun b hb => W3_of_ne h0 h1 m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => h0.dat (V0 m) c
  | ⟨1, _⟩ => fun c => h1.dat (V2 h0 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither reshape allocates a buffer. -/
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 h0 h1 m c) ∗ ∃ r, prngReg c r)

/-! ## The regions as segments -/

set_option backward.isDefEq.respectTransparency.types false in
/-- The first region: entered with every buffer at the launch contents, left with its arrays replaced. Its arrays are
    split out of the buffers and put back at the exit contents; the generator register goes into the region's
    invariant and comes back; nothing is owed; the kernel has no semaphore of its own. -/
def reg0 : Pipeline.RegionSeg (pcfgs (F := F)) adm (pdats h0 h1 m) () defs₀ 𝒱₀ L lv 0 where
  win := launch0.win.to₀
  block_pos := launch0.block_pos
  stage_whole := launch0.stage_whole
  K := PEmpty
  osem k := k.elim
  ho := Pipeline.OwnSemFacts.none _
  hbody c := (h0.body (V0 m) c).loose
  hwaits := Pipeline.hwaits_of_owed_zero _ _ _ _ L lv 0 fun c t => h0.owed_eq (V0 m) c t
  pre c := iprop(StableHlo.held (c : Thread nD τ) (Pipeline.ucRefs τ sig) (W0 m c) ∗ R c)
  post c := iprop(StableHlo.held (c : Thread nD τ) (Pipeline.ucRefs τ sig) (W1 h0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats h0 h1 m) launch0.win launch0.arr_whole c
      ((pdats h0 h1 m 0 c).share_full fun w => h0.q_eq (V0 m) c w) (V0 m c) fun w => h0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m 0 c).owed 0 = 0 from h0.owed_eq (V0 m) c 0]
      icases HO with ⟨%W, HO⟩; iexists W; isplitr; · ipureintro; exact fun _ _ => Or.inl (by rw [show (pdats h0 h1 m 0 c).recorded 0 = Set.univ from h0.rec_eq (V0 m) c 0]; exact Set.mem_univ _)
      iexact HO
    isplitl [Hp]; · iexact Hp
    iexact Hrest
  hin c := by
    refine (?_ : (_ : sProp 𝕄) ⊢ (Pipeline.ΦA spec0 c : sProp 𝕄)).trans (h0.hin (V0 m) c)
    unfold Pipeline.ΦA
    iintro ⟨Hp, -, Hr⟩
    isplitl [Hr]; · iexact Hr
    iexact Hp
  hout c := by
    refine (h0.hout (V0 m) c).trans (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats h0 h1 m) ((pdats h0 h1 m 0 c).share_full fun w => h0.q_eq (V0 m) c w)
      (V0 m c) (V1 h0 m c) ((pdats h0 h1 m 0 c).arrAt · cfg0.N) (hF0 h0 m c) (hrest0 h0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 m 0 c).owed (Fin.last _) = 0 from h0.owed_eq (V0 m) c _]
    icases HO with ⟨%W, -, HO⟩; iexists W; iexact HO

set_option backward.isDefEq.respectTransparency.types false in
/-- The second region: entered with every buffer at the contents after the reshapes, left with its arrays replaced. -/
def reg1 : Pipeline.RegionSeg (pcfgs (F := F)) adm (pdats h0 h1 m) () defs₀ 𝒱₀ L lv 1 where
  win := launch1.win.to₀
  block_pos := launch1.block_pos
  stage_whole := launch1.stage_whole
  K := PEmpty
  osem k := k.elim
  ho := Pipeline.OwnSemFacts.none _
  hbody c := (h1.body (V2 h0 m) c).loose
  hwaits := Pipeline.hwaits_of_owed_zero _ _ _ _ L lv 1 fun c t => h1.owed_eq (V2 h0 m) c t
  pre c := iprop(StableHlo.held (c : Thread nD τ) (Pipeline.ucRefs τ sig) (W2 h0 m c) ∗ R c)
  post c := iprop(Tₙ h0 h1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 h0 m c)
  hentry c := by
    rw [Pipeline.ownSems0_none]
    have hsplit := Pipeline.arrays_of_unscopedBufs (p := 1) (pcfgs (F := F)) adm (pdats h0 h1 m) launch1.win launch1.arr_whole c
      ((pdats h0 h1 m 1 c).share_full fun w => h1.q_eq (V2 h0 m) c w) (V2 h0 m c) fun w => h1.A_eq (V2 h0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m 1 c).owed 0 = 0 from h1.owed_eq (V2 h0 m) c 0]
      icases HO with ⟨%W, HO⟩; iexists W; isplitr; · ipureintro; exact fun _ _ => Or.inl (by rw [show (pdats h0 h1 m 1 c).recorded 0 = Set.univ from h1.rec_eq (V2 h0 m) c 0]; exact Set.mem_univ _)
      iexact HO
    isplitl [Hp]; · iexact Hp
    iexact Hrest
  hin c := by
    refine (?_ : (_ : sProp 𝕄) ⊢ (Pipeline.ΦA spec1 c : sProp 𝕄)).trans (h1.hin (V2 h0 m) c)
    unfold Pipeline.ΦA
    iintro ⟨Hp, -, Hr⟩
    isplitl [Hr]; · iexact Hr
    iexact Hp
  hout c := by
    refine (h1.hout (V2 h0 m) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats h0 h1 m) ((pdats h0 h1 m 1 c).share_full fun w => h1.q_eq (V2 h0 m) c w)
      (V2 h0 m c) (V3 h0 h1 m c) ((pdats h0 h1 m 1 c).arrAt · cfg1.N) (hF1 h0 h1 m c) (hrest1 h0 h1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats h0 h1 m 1 c).owed (Fin.last _) = 0 from h1.owed_eq (V2 h0 m) c _]
    icases HO with ⟨%W, -, HO⟩; iexists W; iexact HO

/-! ## The program as segments, and the run -/

/-- The program's three segments in order: the first region, the two reshapes, the second region. -/
abbrev segs : List (Pipeline.Seg (pcfgs (F := F)) adm (pdats h0 h1 m) () defs₀ 𝒱₀ L lv) :=
  [ .region (reg0 h0 h1 m),
    .host (hseg hostOps1 hostOps1_sub reshapes_fresh (W1 h0 m)),
    .region (reg1 h0 h1 m) ]
theorem main_run (c : Dev nD) : main (F := F) c = Pipeline.Seg.run (segs h0 h1 m) := (main_chain c).trans (by chain_rfl)

set_option backward.isDefEq.respectTransparency.types false in
/-- THE RUN. From any memory with zero counters, every weakly fair execution of the program terminates, nothing
    faulting, and in the final memory every buffer that outlives a region holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 h0 h1 m c b) :=
  Pipeline.θ_run_regions_kit (pcfgs (F := F)) adm (pdats h0 h1 m) () cellOf_inj emb₁ defs₀ 𝒱₀ L lv m ρ main (segs h0 h1 m)
    (fun c Q => by rw [main_run h0 h1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ h0 h1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 h0 h1 m c b)
    (hfin := fun c s' => by
      iintro ⟨⟨Hh, -⟩, HSI⟩
      unfold StableHlo.held
      imodintro
      iapply (pointsTo_read_all (Pipeline.ucRefs τ sig) (fun b => (((c : Thread nD τ)).1, b)) (W3 h0 h1 m c) s')
      isplitl [Hh] <;> iassumption)
    (hQ := fun s h c => h c)

/-! ## The arguments and the result, read off the last boundary

No reshape and no region writes an argument: a region reads it through an input window, whose array the
write-backs leave alone, or does not touch it; the reshapes write two buffers of their own. So the last
boundary's contents at an argument walk back to the launch memory. The result is the second region's output
array. -/

theorem reshapes_keep (W : Valuation τ sig (Elt F)) (b : Ref sig .tc) (h1' : b ≠ main_v1) (h2' : b ≠ main_v2) :
    StableHlo.after (hostOps1 : List (HloOp τ sig (Elt F))) W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1', StableHlo.devRef_ne_of_ne h2'⟩))

theorem W3_main_arg0 (c : Dev nD) : W3 h0 h1 m c (Proc.devRef .tc main_arg0) = m ((c : Thread nD τ).loc main_arg0) :=
  calc W3 h0 h1 m c (Proc.devRef .tc main_arg0)
    _ = W2 h0 m c (Proc.devRef .tc main_arg0) := (W3_arr h0 h1 m c 0).trans (((h1.dat (V2 h0 m) c).arrAt_in 0 rfl _).trans (h1.A_eq (V2 h0 m) c 0))
    _ = W1 h0 m c (Proc.devRef .tc main_arg0) := reshapes_keep _ main_arg0 (by decide) (by decide)
    _ = W0 m c (Proc.devRef .tc main_arg0) := (W1_arr h0 m c 0).trans (((h0.dat (V0 m) c).arrAt_in 0 rfl _).trans (h0.A_eq (V0 m) c 0))
    _ = m ((c : Thread nD τ).loc main_arg0) := rfl

theorem W3_main_arg1 (c : Dev nD) : W3 h0 h1 m c (Proc.devRef .tc main_arg1) = m ((c : Thread nD τ).loc main_arg1) :=
  calc W3 h0 h1 m c (Proc.devRef .tc main_arg1)
    _ = W2 h0 m c (Proc.devRef .tc main_arg1) := (W3_arr h0 h1 m c 5).trans (((h1.dat (V2 h0 m) c).arrAt_in 5 rfl _).trans (h1.A_eq (V2 h0 m) c 5))
    _ = W1 h0 m c (Proc.devRef .tc main_arg1) := reshapes_keep _ main_arg1 (by decide) (by decide)
    _ = W0 m c (Proc.devRef .tc main_arg1) := W1_of_ne h0 m c main_arg1 (by decide)
    _ = m ((c : Thread nD τ).loc main_arg1) := rfl

theorem W3_main_arg2 (c : Dev nD) : W3 h0 h1 m c (Proc.devRef .tc main_arg2) = m ((c : Thread nD τ).loc main_arg2) :=
  calc W3 h0 h1 m c (Proc.devRef .tc main_arg2)
    _ = W2 h0 m c (Proc.devRef .tc main_arg2) := W3_of_ne h0 h1 m c main_arg2 (by decide)
    _ = W1 h0 m c (Proc.devRef .tc main_arg2) := reshapes_keep _ main_arg2 (by decide) (by decide)
    _ = W0 m c (Proc.devRef .tc main_arg2) := W1_of_ne h0 m c main_arg2 (by decide)
    _ = m ((c : Thread nD τ).loc main_arg2) := rfl

theorem W3_main_arg3 (c : Dev nD) : W3 h0 h1 m c (Proc.devRef .tc main_arg3) = m ((c : Thread nD τ).loc main_arg3) :=
  calc W3 h0 h1 m c (Proc.devRef .tc main_arg3)
    _ = W2 h0 m c (Proc.devRef .tc main_arg3) := W3_of_ne h0 h1 m c main_arg3 (by decide)
    _ = W1 h0 m c (Proc.devRef .tc main_arg3) := reshapes_keep _ main_arg3 (by decide) (by decide)
    _ = W0 m c (Proc.devRef .tc main_arg3) := W1_of_ne h0 m c main_arg3 (by decide)
    _ = m ((c : Thread nD τ).loc main_arg3) := rfl

/-- The result buffer ends at the second region's output array after its last point. -/
theorem W3_main_v3 (c : Dev nD) : W3 h0 h1 m c (Proc.devRef .tc main_v3) = (h1.dat (V2 h0 m) c).arrAt 6 cfg1.N :=
  W3_arr h0 h1 m c 6

/-- The run with the result named and the arguments as launched. -/
theorem run_out : θ_run defs (onTc (τ := τ) (main (F := F))) ⟨m, fun _ => 0, ρ⟩ (fun r => ∀ c : Dev nD,
      r.2.mem ((c.tc : Thread nD τ).loc main_v3) = (h1.dat (V2 h0 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_main_v3 h0 h1 m c),
     (h c _ (mem_uc main_arg0 (by decide))).trans (W3_main_arg0 h0 h1 m c),
     (h c _ (mem_uc main_arg1 (by decide))).trans (W3_main_arg1 h0 h1 m c),
     (h c _ (mem_uc main_arg2 (by decide))).trans (W3_main_arg2 h0 h1 m c),
     (h c _ (mem_uc main_arg3 (by decide))).trans (W3_main_arg3 h0 h1 m c)⟩) (run h0 h1 m ρ)

include h0 h1 in
/-- The frame claim: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_out h0 h1 m ρ)

/-! ## What the second region finds: the first region's outputs and the two reshaped rows -/

/-- The first output of the first region (the column means) reaches the second region as the first left it. -/
theorem V2_main_v0_0 (c : Dev nD) : V2 h0 m c main_v0_0 = (h0.dat (V0 m) c).arrAt 1 cfg0.N :=
  (reshapes_keep _ main_v0_0 (by decide) (by decide)).trans (W1_arr h0 m c 1)
theorem V2_main_v0_1 (c : Dev nD) : V2 h0 m c main_v0_1 = (h0.dat (V0 m) c).arrAt 2 cfg0.N :=
  (reshapes_keep _ main_v0_1 (by decide) (by decide)).trans (W1_arr h0 m c 2)
theorem V2_main_arg0 (c : Dev nD) : V2 h0 m c main_arg0 = m ((c : Thread nD τ).loc main_arg0) :=
  (reshapes_keep _ main_arg0 (by decide) (by decide)).trans ((W1_arr h0 m c 0).trans (((h0.dat (V0 m) c).arrAt_in 0 rfl _).trans (h0.A_eq (V0 m) c 0)))
theorem V2_main_arg1 (c : Dev nD) : V2 h0 m c main_arg1 = m ((c : Thread nD τ).loc main_arg1) :=
  (reshapes_keep _ main_arg1 (by decide) (by decide)).trans (W1_of_ne h0 m c main_arg1 (by decide))

end Cert.Kernel.Whole

end
-- ==== Proof.K.StatsRuns.lean ====
/-
  The batch-statistics region (the first pallas_call): what its three control cases share.

  The grid is (2, 8): coordinate 0 is the feature half, coordinate 1 the batch tile b, and the point at
  position t has b = t mod 8. The body first zeroes its two carried rows when b = 0, then adds to them the
  column sums of the block and of its square, and when b = 7 stores mean = sum / 8192 and
  var = sumsq / 8192 - mean * mean to the two outputs. Everything here is stated at a parameter `V`: the
  TensorCore's buffer contents when the region is entered.
-/
import proofs.«127384_j52072183496926_2_alg».proof.Proof.Gen.Kernel.Launch
import proofs.«127384_j52072183496926_2_alg».proof.Proof.Gen.Kernel.Skeleton
import proofs.«127384_j52072183496926_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of x at every point, for any proof data whose
    array is `V`'s and whose body leaves the block in place: the window is fetched at every point, uncut and
    never idle. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Entry

/-! ## The two branch conditions, in closed form -/

/-- "This is the first batch tile": the condition of the body's first conditional, with its scalar chain
    substituted. -/
abbrev isFirst (i : grid0.Coords) : Prop := (Scalar.cmpi .ne (Scalar.extui (Scalar.cmpi .eq (BitVec.ofNat 32 (i 1).val) 0#32)) 0#32) = 1#1
/-- It holds exactly at the points with b = 0 — decided over the sixteen points. -/
theorem isFirst_iff : ∀ t : Fin cfg0.N, isFirst (grid0.coords t) ↔ t.val % 8 = 0 :=
  (by decide +kernel : ∀ t : Fin grid0.N, isFirst (grid0.coords t) ↔ t.val % 8 = 0)

/-- "This is the last batch tile": the condition of the body's second conditional. -/
abbrev isLast (i : grid0.Coords) : Prop := k0_cond2 i = 1#1
/-- It holds exactly at the points with b = 7 — decided over the sixteen points. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The input window is never idle. -/
theorem live_in : ∀ t : Fin cfg0.N, cfg0.idle 0 (grid0.coords t) = false := by decide +kernel
/-- Before the last batch tile the mean's window is idle and not written back. -/
theorem idle_mean : ∀ t : Fin cfg0.N, ¬isLast (grid0.coords t) → cfg0.idle 1 (grid0.coords t) = true := by decide +kernel
theorem noFlush_mean : ∀ t : Fin cfg0.N, ¬isLast (grid0.coords t) → (cfg0.win 1).flush t = false := by decide +kernel
/-- At the last batch tile it is live. -/
theorem live_mean : ∀ t : Fin cfg0.N, isLast (grid0.coords t) → cfg0.idle 1 (grid0.coords t) = false := by decide +kernel
/-- The same for the variance's window. -/
theorem idle_var : ∀ t : Fin cfg0.N, ¬isLast (grid0.coords t) → cfg0.idle 2 (grid0.coords t) = true := by decide +kernel
theorem noFlush_var : ∀ t : Fin cfg0.N, ¬isLast (grid0.coords t) → (cfg0.win 2).flush t = false := by decide +kernel
theorem live_var : ∀ t : Fin cfg0.N, isLast (grid0.coords t) → cfg0.idle 2 (grid0.coords t) = false := by decide +kernel

/-! ## The memrefs the body is called with -/

/-- One staging buffer of each output window, through which its contents are stated (the choice does not
    matter: a row read back through any whole view of its shape is the same row). -/
abbrev VMean : View sig .tc .vmem S1x1024 .f32 := (Memref.whole cc0_stg1_0 : Memref sig .tc .vmem S1x1024 .f32).view
abbrev VVar : View sig .tc .vmem S1x1024 .f32 := (Memref.whole cc0_stg2_0 : Memref sig .tc .vmem S1x1024 .f32).view
/-- Each window's current staging memref at point `t`, spelled as the pipeline passes it, and its wholeness. -/
abbrev mIn (t : Fin cfg0.N) : Memref sig .tc .vmem S1024x1024 .f32 := win0_0.stage (cfg0.slots t 0)
abbrev hIn (t : Fin cfg0.N) : (mIn t).IsWhole := hstage0_0 ((cfg0.slots t 0).cast nbuf0_0)
abbrev mMean (t : Fin cfg0.N) : Memref sig .tc .vmem S1x1024 .f32 := win0_1.stage (cfg0.slots t 1)
abbrev hMean (t : Fin cfg0.N) : (mMean t).IsWhole := hstage0_1 ((cfg0.slots t 1).cast nbuf0_1)
abbrev mVar (t : Fin cfg0.N) : Memref sig .tc .vmem S1x1024 .f32 := win0_2.stage (cfg0.slots t 2)
abbrev hVar (t : Fin cfg0.N) : (mVar t).IsWhole := hstage0_2 ((cfg0.slots t 2).cast nbuf0_2)
/-- The two carried rows: whole scoped buffers of the kernel's own — the running column sums and the running
    column sums of squares. -/
abbrev mSum : Memref sig .tc .vmem S1x1024 .f32 := Memref.whole cc0_scratch0
abbrev mSq : Memref sig .tc .vmem S1x1024 .f32 := Memref.whole cc0_scratch1
abbrev VSum : View sig .tc .vmem S1x1024 .f32 := mSum.view
abbrev VSq : View sig .tc .vmem S1x1024 .f32 := mSq.view

/-- The scoped buffers of the core that belong to neither this region's staging nor its two carried rows
    (the second region's staging buffers), each whole at some contents: they ride through this region
    untouched. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class's region invariant with the two carried rows as memrefs owned at some contents: what the body
    obligation hands a run and takes back. -/
theorem PhiA_eq (c : Dev nD) :
    (Pipeline.ΦA spec0 c : sProp 𝕄)
      = iprop(iprop((∃ d, owns (c : Thread nD τ) mSum fullShare d) ∗ (∃ d, owns (c : Thread nD τ) mSq fullShare d) ∗ others (F := F) c) ∗ (∃ r, prngReg c r)) := by
  unfold Pipeline.ΦA; rw [scopedRest0_eq]; simp only [mSum, mSq, owns_whole]; try rfl

end Cert.Kernel.Stats

end
-- ==== Proof.K.StatsA.lean ====
/-
  The batch-statistics body run once at a point with b = 0 (first batch tile, not the last): both carried
  rows are zeroed, then the block's column sums (and those of its square) are added; nothing is stored to
  the outputs.
-/
import proofs.«127384_j52072183496926_2_alg».proof.Proof.K.StatsRuns

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each carried row, as pieces (last first), at a point of the first batch
    tile, with the proof that on whole memrefs — the input's at its block `x0`, the two outputs' at contents
    handed back untouched, the carried rows at anything — the body runs to the continuation holding the
    input's and the outputs' as they were and each carried row with its pieces written. The pieces are the
    witness the run finds. -/
noncomputable def runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : isFirst i) (hc1 : ¬isLast i)
    (x0 : Vec F S1024x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, fun xi1 xi2 E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Stats

end
-- ==== Proof.K.StatsB.lean ====
/-
  The batch-statistics body run once at a point with 0 < b < 7 (neither the first nor the last batch tile):
  the block's column sums (and those of its square) are added to the carried rows; nothing is stored to the
  outputs.
-/
import proofs.«127384_j52072183496926_2_alg».proof.Proof.K.StatsA

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each carried row, as pieces (last first), at a point in the middle of a
    feature half, with the proof that on whole memrefs — the input's at its block `x0`, the two outputs' at
    contents handed back untouched, the carried rows at what the point before left (`xs0`, `xs1`) — the body
    runs to the continuation holding the input's and the outputs' as they were and each carried row with its
    pieces written. -/
noncomputable def runMiddle (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬isFirst i) (hc1 : ¬isLast i)
    (x0 : Vec F S1024x1024 .f32) (xs0 xs1 : Vec F S1x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, fun xi1 xi2 E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Stats

end
-- ==== Proof.K.StatsC.lean ====
/-
  The batch-statistics body run once at a point with b = 7 (the last batch tile): the block's column sums
  (and those of its square) are added to the carried rows, and then mean = sum / 8192 and
  var = sumsq / 8192 - mean * mean are stored to the two outputs.
-/
import proofs.«127384_j52072183496926_2_alg».proof.Proof.K.StatsB

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref and in each carried row, as pieces (last
    first), at a point of the last batch tile, with the proof that on whole memrefs — the input's at its block
    `x0`, the outputs' at anything, the carried rows at what the point before left (`xs0`, `xs1`) — the body
    runs to the continuation holding the input's as it was and every other buffer with its pieces written. -/
noncomputable def runLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬isFirst i) (hc1 : isLast i)
    (x0 : Vec F S1024x1024 .f32) (xs0 xs1 : Vec F S1x1024 .f32) :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, ?_, ?_, fun E K => ?run⟩
  case run =>
    simp only [cc0__bn_stats_kernel_eq_skeleton]; unfold cc0__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.Kernel.Stats

end
-- ==== Proof.K.Stats.lean ====
/-
  The batch-statistics region as a pipeline with two carried rows: what every point leaves in the two
  output buffers and in the two carried rows (`outsAt`), the invariant that carries the rows from one point
  to the next, the proof data, and the body obligation — all at a parameter `V`, the TensorCore's buffer
  contents when the region is entered.
-/
import proofs.«127384_j52072183496926_2_alg».proof.Proof.K.StatsC

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

section Cases
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)

/-- The row an output's buffer is said to hold after a point that stores nothing into it: a placeholder nothing
    consults (at such a point the window is neither written back nor read at the next point). -/
def idleRow : Vec F S1x1024 .f32 := VMean.read (Elt F) VMean.junk

/-- At a point of the first batch tile the stores into the running column sums cover the row. -/
theorem coverSum_first (hc0 : isFirst i) (hc1 : ¬isLast i) (x0 : Vec F S1024x1024 .f32) (y : S1x1024.Idx) :
    ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S1x1024.size (by sl_kernel_rfl) y
/-- The same for the running column sums of squares. -/
theorem coverSq_first (hc0 : isFirst i) (hc1 : ¬isLast i) (x0 : Vec F S1024x1024 .f32) (y : S1x1024.Idx) :
    ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x1024.size (by sl_kernel_rfl) y
/-- What a point of the first batch tile leaves in the running column sums: its pieces read back. -/
def sumFirst (hc0 : isFirst i) (hc1 : ¬isLast i) (x0 : Vec F S1024x1024 .f32) : Vec F S1x1024 .f32 :=
  VSum.read (Elt F) (VSum.writes (Elt F) VSum.junk (runFirst c i arg2 harg2 arg3 harg3 arg4 harg4 arg5 harg5 arg6 harg6 hc0 hc1 x0).1)
/-- … and in the running column sums of squares. -/
def sqFirst (hc0 : isFirst i) (hc1 : ¬isLast i) (x0 : Vec F S1024x1024 .f32) : Vec F S1x1024 .f32 :=
  VSq.read (Elt F) (VSq.writes (Elt F) VSq.junk (runFirst c i arg2 harg2 arg3 harg3 arg4 harg4 arg5 harg5 arg6 harg6 hc0 hc1 x0).2.1)

/-- At a middle point the stores into each carried row cover it. -/
theorem coverSum_middle (hc0 : ¬isFirst i) (hc1 : ¬isLast i) (x0 : Vec F S1024x1024 .f32) (xs0 xs1 : Vec F S1x1024 .f32) (y : S1x1024.Idx) :
    ∃ pc ∈ (runMiddle c i arg2 harg2 arg3 harg3 arg4 harg4 arg5 harg5 arg6 harg6 hc0 hc1 x0 xs0 xs1).1, y ∈ pc.1.set :=
  View.cover_of_tiledL (runMiddle c i arg2 harg2 arg3 harg3 arg4 harg4 arg5 harg5 arg6 harg6 hc0 hc1 x0 xs0 xs1).1 S1x1024.size (by sl_kernel_rfl) y
theorem coverSq_middle (hc0 : ¬isFirst i) (hc1 : ¬isLast i) (x0 : Vec F S1024x1024 .f32) (xs0 xs1 : Vec F S1x1024 .f32) (y : S1x1024.Idx) :
    ∃ pc ∈ (runMiddle c i arg2 harg2 arg3 harg3 arg4 harg4 arg5 harg5 arg6 harg6 hc0 hc1 x0 xs0 xs1).2.1, y ∈ pc.1.set :=
  View.cover_of_tiledL (runMiddle c i arg2 harg2 arg3 harg3 arg4 harg4 arg5 harg5 arg6 harg6 hc0 hc1 x0 xs0 xs1).2.1 S1x1024.size (by sl_kernel_rfl) y
/-- What a middle point leaves in the two carried rows. -/
def sumMiddle (hc0 : ¬isFirst i) (hc1 : ¬isLast i) (x0 : Vec F S1024x1024 .f32) (xs0 xs1 : Vec F S1x1024 .f32) : Vec F S1x1024 .f32 :=
  VSum.read (Elt F) (VSum.writes (Elt F) VSum.junk (runMiddle c i arg2 harg2 arg3 harg3 arg4 harg4 arg5 harg5 arg6 harg6 hc0 hc1 x0 xs0 xs1).1)
def sqMiddle (hc0 : ¬isFirst i) (hc1 : ¬isLast i) (x0 : Vec F S1024x1024 .f32) (xs0 xs1 : Vec F S1x1024 .f32) : Vec F S1x1024 .f32 :=
  VSq.read (Elt F) (VSq.writes (Elt F) VSq.junk (runMiddle c i arg2 harg2 arg3 harg3 arg4 harg4 arg5 harg5 arg6 harg6 hc0 hc1 x0 xs0 xs1).2.1)

/-- At a point of the last batch tile the stores into each output and each carried row cover it. -/
theorem coverMean_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x1024.size (by sl_kernel_rfl) y
theorem coverVar_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x1024.size (by sl_kernel_rfl) y
theorem coverSum_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S1x1024.size (by sl_kernel_rfl) y
theorem coverSq_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x1024.size (by sl_kernel_rfl) y
/-- What a point of the last batch tile leaves in the mean's buffer, the variance's buffer and the two
    carried rows. -/
def meanLast (hc0 : ¬isFirst i) (hc1 : isLast i) (x0 : Vec F S1024x1024 .f32) (xs0 xs1 : Vec F S1x1024 .f32) : Vec F S1x1024 .f32 :=
  VMean.read (Elt F) (VMean.writes (Elt F) VMean.junk (runLast c i arg2 harg2 arg3 harg3 arg4 harg4 arg5 harg5 arg6 harg6 hc0 hc1 x0 xs0 xs1).1)
def varLast (hc0 : ¬isFirst i) (hc1 : isLast i) (x0 : Vec F S1024x1024 .f32) (xs0 xs1 : Vec F S1x1024 .f32) : Vec F S1x1024 .f32 :=
  VVar.read (Elt F) (VVar.writes (Elt F) VVar.junk (runLast c i arg2 harg2 arg3 harg3 arg4 harg4 arg5 harg5 arg6 harg6 hc0 hc1 x0 xs0 xs1).2.1)
def sumLast (hc0 : ¬isFirst i) (hc1 : isLast i) (x0 : Vec F S1024x1024 .f32) (xs0 xs1 : Vec F S1x1024 .f32) : Vec F S1x1024 .f32 :=
  VSum.read (Elt F) (VSum.writes (Elt F) VSum.junk (runLast c i arg2 harg2 arg3 harg3 arg4 harg4 arg5 harg5 arg6 harg6 hc0 hc1 x0 xs0 xs1).2.2.1)
def sqLast (hc0 : ¬isFirst i) (hc1 : isLast i) (x0 : Vec F S1024x1024 .f32) (xs0 xs1 : Vec F S1x1024 .f32) : Vec F S1x1024 .f32 :=
  VSq.read (Elt F) (VSq.writes (Elt F) VSq.junk (runLast c i arg2 harg2 arg3 harg3 arg4 harg4 arg5 harg5 arg6 harg6 hc0 hc1 x0 xs0 xs1).2.2.2.1)

end Cases

section Entry
variable (V : (c : Dev nD) → (b : Ref sig .tc) → Buf (Elt F) ((c : Thread nD τ).loc b))

/-! ## What the buffers hold after each point -/

theorem not_isLast_of_first (t : Fin cfg0.N) (h0 : t.val % 8 = 0) : ¬isLast (grid0.coords t) :=
  fun h => by have := (isLast_iff t).mp h; omega
theorem not_isFirst_of (t : Fin cfg0.N) (h0 : ¬t.val % 8 = 0) : ¬isFirst (grid0.coords t) :=
  fun h => h0 ((isFirst_iff t).mp h)
theorem not_isLast_of (t : Fin cfg0.N) (h1 : ¬t.val % 8 = 7) : ¬isLast (grid0.coords t) :=
  fun h => h1 ((isLast_iff t).mp h)

/-- After a point of the first batch tile (mean's buffer, variance's buffer, running sums, running sums of
    squares): the outputs untouched, the carried rows at the block's column sums. -/
def atFirst (c : Dev nD) (t : Fin cfg0.N) (h0 : t.val % 8 = 0) : Vec F S1x1024 .f32 × Vec F S1x1024 .f32 × Vec F S1x1024 .f32 × Vec F S1x1024 .f32 :=
  (idleRow, idleRow,
   sumFirst c (grid0.coords t) (mIn t) (hIn t) (mMean t) (hMean t) (mVar t) (hVar t) mSum (Memref.isWhole_whole _) mSq (Memref.isWhole_whole _) ((isFirst_iff t).mpr h0) (not_isLast_of_first t h0) (iblk V c 0 t),
   sqFirst c (grid0.coords t) (mIn t) (hIn t) (mMean t) (hMean t) (mVar t) (hVar t) mSum (Memref.isWhole_whole _) mSq (Memref.isWhole_whole _) ((isFirst_iff t).mpr h0) (not_isLast_of_first t h0) (iblk V c 0 t))
/-- After a middle point, over what the point before left in the carried rows. -/
def atMiddle (c : Dev nD) (t : Fin cfg0.N) (h0 : ¬t.val % 8 = 0) (h1 : ¬t.val % 8 = 7) (xs0 xs1 : Vec F S1x1024 .f32) : Vec F S1x1024 .f32 × Vec F S1x1024 .f32 × Vec F S1x1024 .f32 × Vec F S1x1024 .f32 :=
  (idleRow, idleRow,
   sumMiddle c (grid0.coords t) (mIn t) (hIn t) (mMean t) (hMean t) (mVar t) (hVar t) mSum (Memref.isWhole_whole _) mSq (Memref.isWhole_whole _) (not_isFirst_of t h0) (not_isLast_of t h1) (iblk V c 0 t) xs0 xs1,
   sqMiddle c (grid0.coords t) (mIn t) (hIn t) (mMean t) (hMean t) (mVar t) (hVar t) mSum (Memref.isWhole_whole _) mSq (Memref.isWhole_whole _) (not_isFirst_of t h0) (not_isLast_of t h1) (iblk V c 0 t) xs0 xs1)
/-- After a point of the last batch tile, over what the point before left in the carried rows. -/
def atLast (c : Dev nD) (t : Fin cfg0.N) (h0 : ¬t.val % 8 = 0) (h1 : t.val % 8 = 7) (xs0 xs1 : Vec F S1x1024 .f32) : Vec F S1x1024 .f32 × Vec F S1x1024 .f32 × Vec F S1x1024 .f32 × Vec F S1x1024 .f32 :=
  (meanLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   varLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   sumLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   sqLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1)

/-- THE ACCUMULATION. What the two outputs' staging buffers and the two carried rows hold after the body at
    position `n`: the case b = n mod 8 selects, run at the point's memrefs and its block of x, the carried rows
    taken at what position `n - 1` left. -/
def outsAt (c : Dev nD) : (n : ℕ) → n < cfg0.N → Vec F S1x1024 .f32 × Vec F S1x1024 .f32 × Vec F S1x1024 .f32 × Vec F S1x1024 .f32
  | 0, hn => atFirst V c ⟨0, hn⟩ (Nat.zero_mod 8)
  | n + 1, hn =>
    if h0 : (n + 1) % 8 = 0 then atFirst V c ⟨n + 1, hn⟩ h0
    else if h1 : (n + 1) % 8 = 7 then
      atLast V c ⟨n + 1, hn⟩ h0 h1 (outsAt c n (Nat.lt_of_succ_lt hn)).2.2.1 (outsAt c n (Nat.lt_of_succ_lt hn)).2.2.2
    else
      atMiddle V c ⟨n + 1, hn⟩ h0 h1 (outsAt c n (Nat.lt_of_succ_lt hn)).2.2.1 (outsAt c n (Nat.lt_of_succ_lt hn)).2.2.2

theorem outsAt_first (c : Dev nD) (t : Fin cfg0.N) (h0 : t.val % 8 = 0) :
    outsAt V c t.val t.isLt = atFirst V c t h0 := by
  obtain ⟨n, hn⟩ := t
  cases n with
  | zero => exact rfl
  | succ n => exact (dif_pos h0).trans rfl

theorem outsAt_middle (c : Dev nD) (t : Fin cfg0.N) (h0 : ¬t.val % 8 = 0) (h1 : ¬t.val % 8 = 7) :
    outsAt V c t.val t.isLt = atMiddle V c t h0 h1 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = atLast V c t h0 h1 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no
    staging buffer of this region at anything, the generator register at some state); afterwards the same with
    the two carried rows at what the point before left in them. -/
def PhiS (c : Dev nD) : (n : ℕ) → n ≤ cfg0.N → sProp 𝕄
  | 0, _ => Pipeline.ΦA spec0 c
  | n + 1, hn => iprop(iprop(owns (c : Thread nD τ) mSum fullShare ((outsAt V c n hn).2.2.1) ∗ owns (c : Thread nD τ) mSq fullShare ((outsAt V c n hn).2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) mSum fullShare ((outsAt V c n hn).2.2.1) ∗ owns (c : Thread nD τ) mSq fullShare ((outsAt V c n hn).2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) mSum fullShare ((outsAt V c (n - 1) (by omega)).2.2.1) ∗ owns (c : Thread nD τ) mSq fullShare ((outsAt V c (n - 1) (by omega)).2.2.2) ∗ others (F := F) c) ∗ (∃ r, prngReg c r)) := by
  cases n with
  | zero => exact absurd rfl hz
  | succ n => rfl

/-! ## The pipeline's proof data -/

/-- The proof data of the region on core `c`: the arrays as the region finds them (`V`); after the body at
    point `t` the input's buffer at its block of x and the outputs' at `outsAt`'s first two components; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem after_2 (c : Dev nD) (t : Fin cfg0.N) : (dat V c).after 2 t = (outsAt V c t.val t.isLt).2.1 := by dsimp only [dat]

/-- The input's current staging buffer holds its block of x at every point. -/
theorem before_in (c : Dev nD) (t : Fin cfg0.N) (d) : (dat V c).before 0 t d = iblk V c 0 t :=
  before0_of V (dat V c) (A_eq V c 0) (after_0 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mMean t) fullShare ((dat V c).before 1 t d))
    ∗ (∃ d, owns (c : Thread nD τ) (mVar t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's memref holds its block of x; b = t mod 8 says which case the point is
    in; the invariant hands the body the carried rows at what the point before left (at anything where
    b = 0: they are zeroed first), and takes them back at this point's contents, read back through the covers;
    the outputs are handed back untouched except at b = 7, where they are left at the stored mean and
    variance; the second region's staging buffers, the generator register and the core's debts pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (mIn t) fullShare ((dat V c).after 0 t) from by
    unfold Dat.leavesExact; rw [live_in t], after_0]
  by_cases h0 : t.val % 8 = 0
  · have hL : ¬isLast (grid0.coords t) := not_isLast_of_first t h0
    rw [Dat.leavesExact_idle (dat V c) 1 t (idle_mean t hL) (noFlush_mean t hL)]
    rw [Dat.leavesExact_idle (dat V c) 2 t (idle_var t hL) (noFlush_var t hL)]
    rw [outsAt_first V c t h0]
    unfold atFirst sumFirst sqFirst; (try dsimp only)
    by_cases hz : t.val = 0
    · rw [PhiS_castSucc V c t, PhiS_zero V c _ _ hz, PhiA_eq]
      iintro ⟨⟨⟨HS0, HS1, Hoth⟩, Hg⟩, Ho, ⟨%d0, H0⟩, ⟨%d1, H1⟩, ⟨%d2, H2⟩⟩
      iapply ((runFirst c (grid0.coords t) _ _ _ _ _ _ _ _ _ _ ((isFirst_iff t).mpr h0) hL (iblk V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_first c _ _ _ _ _ _ _ _ _ _ _ _ _ _)
          isplitl [HS1]
          · unfold owns; iexists _; isplitr
            swap; · iexact HS1
            ipureintro; exact View.read_writes_of_cover _ _ _ _ _ (coverSq_first c _ _ _ _ _ _ _ _ _ _ _ _ _ _)
          iexact Hoth
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runFirst c (grid0.coords t) _ _ _ _ _ _ _ _ _ _ ((isFirst_iff t).mpr h0) hL (iblk V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_first c _ _ _ _ _ _ _ _ _ _ _ _ _ _)
          isplitl [HS1]
          · unfold owns; iexists _; isplitr
            swap; · iexact HS1
            ipureintro; exact View.read_writes_of_cover _ _ _ _ _ (coverSq_first c _ _ _ _ _ _ _ _ _ _ _ _ _ _)
          iexact Hoth
        iexact Hg
      isplitl [Ho]; · iexact Ho
      isplitl [H0]; · iexact H0
      isplitl [H1]; · iexists _; iexact H1
      iexists _; iexact H2
  · have hz : t.val ≠ 0 := fun h => h0 (by rw [h])
    have hF : ¬isFirst (grid0.coords t) := not_isFirst_of t h0
    by_cases h1 : t.val % 8 = 7
    · have hL : isLast (grid0.coords t) := (isLast_iff t).mpr h1
      rw [show (dat V c).leavesExact 1 t = owns (c : Thread nD τ) (mMean t) fullShare ((dat V c).after 1 t) from by
        unfold Dat.leavesExact; rw [live_mean t hL], after_1]
      rw [show (dat V c).leavesExact 2 t = owns (c : Thread nD τ) (mVar t) fullShare ((dat V c).after 2 t) from by
        unfold Dat.leavesExact; rw [live_var t hL], after_2]
      rw [outsAt_last V c t h0 h1]
      unfold atLast meanLast varLast sumLast sqLast; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runLast c (grid0.coords t) _ _ _ _ _ _ _ _ _ _ hF hL (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_last c _ _ _ _ _ _ _ _ _ _ _ _ _ _ _ _)
          isplitl [HS1]
          · unfold owns; iexists _; isplitr
            swap; · iexact HS1
            ipureintro; exact View.read_writes_of_cover _ _ _ _ _ (coverSq_last c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverMean_last c _ _ _ _ _ _ _ _ _ _ _ _ _ _ _ _)
      unfold owns; iexists _; isplitr
      swap; · iexact H2
      ipureintro; exact View.read_writes_of_cover _ _ _ _ _ (coverVar_last c _ _ _ _ _ _ _ _ _ _ _ _ _ _ _ _)
    · have hL : ¬isLast (grid0.coords t) := not_isLast_of t h1
      rw [Dat.leavesExact_idle (dat V c) 1 t (idle_mean t hL) (noFlush_mean t hL)]
      rw [Dat.leavesExact_idle (dat V c) 2 t (idle_var t hL) (noFlush_var t hL)]
      rw [outsAt_middle V c t h0 h1]
      unfold atMiddle sumMiddle sqMiddle; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runMiddle c (grid0.coords t) _ _ _ _ _ _ _ _ _ _ hF hL (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_middle c _ _ _ _ _ _ _ _ _ _ _ _ _ _ _ _)
          isplitl [HS1]
          · unfold owns; iexists _; isplitr
            swap; · iexact HS1
            ipureintro; exact View.read_writes_of_cover _ _ _ _ _ (coverSq_middle c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: what the carried rows hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Entry

end Cert.Kernel.Stats

end
-- ==== Proof.K.Layer.lean ====
/-
  The second pipeline of the program (the normalise–binarise–matmul kernel on a grid of 8 batch tiles), stated at
  an arbitrary contents `V` of the core's buffers on entry to the region.

  The pipeline stages seven windows.  Window 0 is the batch tile of `x`: rows 1024·b … 1024·b+1023, all 2048
  columns, a different block at every grid point.  Windows 1–5 (the per-feature mean, variance, scale and shift as
  1×2048 rows, and the 2048×2048 weight) are each the WHOLE of their array at the constant block index (0,0): the
  pipeline copies them in once, before the first point, and the body never writes them, so at every later point the
  staging buffer still holds the same block — which, the index never moving, is also that point's block.  Window 6
  is the output tile, rows 1024·b …, written whole by the body's single store and copied back after every point.

  Hence the body's effect at a point is a pure function of six blocks: it leaves the six inputs where they are and
  leaves in the output buffer the arithmetic `k1_pay1` of the six loaded blocks.  This module names that function
  (`out6`), runs the body symbolically to show it, and packages the result as the pipeline's proof data (`dat`)
  together with the obligation the pipeline's launch theorem asks of the body at every point (`body_obligation`).
  The last lemma (`out6_eq`) removes the bookkeeping: every load and the store go through the rectangle that is the
  whole buffer, so a load reads the buffer itself and the one store leaves exactly its payload.
-/
import proofs.«127384_j52072183496926_2_alg».proof.Proof.Gen.Kernel.Launch
import proofs.«127384_j52072183496926_2_alg».proof.Proof.Gen.Kernel.Skeleton
import proofs.«127384_j52072183496926_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- facts about a rectangle of 1024×2048 or 2048×2048 entries recurse once per coordinate of the long axes
set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The blocks -/

/-- The block of window `w` at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### What the body finds in each input's staging buffer

For any proof data over this pipeline whose arrays are `V`'s and whose body leaves an input's block in place, the
input's current staging buffer holds that block at EVERY point.  Where the pipeline has just copied the block in
this is immediate; where it has not, the block index has not moved since the previous point, so the buffer still
holds the previous point's block and that block is this point's.  For window 0 every point is of the first kind;
for windows 1–5 only the first point is, and all the others are of the second kind. -/

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through

Each is the whole of its buffer: zero offsets, the buffer's own extents, unit strides. -/

/-- The whole of a 1024×2048 buffer (the batch tile of `x`, and the output tile). -/
abbrev rTile : Rect S1024x2048 := Rect.unit (s := S1024x2048) ![0, 0] S1024x2048.size inb_S1024x2048_S1024x2048_0_0
/-- The whole of a 1×2048 buffer (mean, variance, scale, shift). -/
abbrev rRow : Rect S1x2048 := Rect.unit (s := S1x2048) ![0, 0] S1x2048.size inb_S1x2048_S1x2048_0_0
/-- The whole of the 2048×2048 weight buffer. -/
abbrev rSq : Rect S2048x2048 := Rect.unit (s := S2048x2048) ![0, 0] S2048x2048.size inb_S2048x2048_S2048x2048_0_0

/-- The offsets of all three are zero on both axes. -/
theorem off_zero : (![0, 0] : Fin 2 → Nat) = fun _ => 0 := funext fun a => by fin_cases a <;> rfl

/-! ## What the body leaves in the output's staging buffer -/

/-- The output tile's staging buffer after the body, as a function of the six input blocks: the body's one store,
    through the whole-buffer rectangle, of the arithmetic `k1_pay1` of its six loads. -/
def out6 (x0 : Vec F S1024x2048 .f32) (x1 x2 x3 x4 : Vec F S1x2048 .f32) (x5 : Vec F S2048x2048 .f32) : Vec F S1024x2048 .f32 :=
  View.canon [⟨rTile, k1_pay1 (View.ld x0 rTile) (View.ld x1 rRow) (View.ld x2 rRow) (View.ld x3 rRow) (View.ld x4 rRow) (View.ld x5 rSq)⟩]

/-- That one store reaches every entry of the buffer: its rectangle is the whole buffer. -/
theorem cover6 (p0 : Vec F S1024x2048 .f32) (y : S1024x2048.Idx) :
    ∃ pc ∈ ([⟨rTile, p0⟩] : List (View.Piece (Elt F) S1024x2048 .f32)), y ∈ pc.1.set :=
  ⟨_, List.mem_singleton_self _, View.mem_set_unit_zero off_zero inb_S1024x2048_S1024x2048_0_0 y⟩

/-! ## The body run -/

set_option maxHeartbeats 1000000 in
/-- The body on whole staging memrefs — the six inputs' at read contents `x0 … x5`, the output's at anything — runs
    to the continuation with the inputs' as they were and the output's at `out6` of them.  The printed functions
    are rewritten to their memory-operation skeletons (the called part included) and executed symbolically: six
    loads, the pure payload, a load of the output buffer whose value is dropped, and the store. -/
theorem sound_kernel (c : Dev nD) (E : Set ℕ) (i : grid1.Coords)
    (arg1 : Memref sig .tc .vmem S1024x2048 .f32) (harg1 : arg1.IsWhole)
    (arg2 : Memref sig .tc .vmem S1x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S2048x2048 .f32) (harg6 : arg6.IsWhole)
    (arg7 : Memref sig .tc .vmem S1024x2048 .f32) (harg7 : arg7.IsWhole)
    (x0 : Vec F S1024x2048 .f32) (x1 x2 x3 x4 : Vec F S1x2048 .f32) (x5 : Vec F S2048x2048 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of this pipeline on core `c`: the arrays as the region finds them; after the body at point `t`
    each input's buffer still at its block and the output's at `out6` of the six blocks; the invariant that of a
    body touching nothing but its windows' buffers (the core's other scoped buffers and the generator register
    stay as they are); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) :
    (dat V c).after 6 t = out6 (iblk V c 0 t) (iblk V c 1 t) (iblk V c 2 t) (iblk V c 3 t) (iblk V c 4 t) (iblk V c 5 t) := by
  dsimp only [dat]

/-- Each input's current staging buffer holds its block at every point. -/
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d

/-! ## The body obligation at a generic point -/

/-- What the body is called with at point `t`: the invariant, what is owed, and each window's current staging
    buffer at what the pipeline left in it, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the body run applies; the invariant and what is
    owed pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point. -/
theorem body_obligation (c : Dev nD) : BodyObligation (dat (F := F) V c) (defs₀ (F := F)) Variants.none () Set.univ := fun t => by
  rw [bigSep_W1, bigSep_W1]
  exact sound_body V c t

/-! ## The output buffer in closed form -/

/-- Read back, the one whole-buffer store is its payload, and each load through a whole-buffer rectangle is the
    buffer it reads: the output tile after the body IS the arithmetic of the six blocks. -/
theorem out6_eq (x0 : Vec F S1024x2048 .f32) (x1 x2 x3 x4 : Vec F S1x2048 .f32) (x5 : Vec F S2048x2048 .f32) :
    out6 x0 x1 x2 x3 x4 x5 = k1_pay1 x0 x1 x2 x3 x4 x5 := by
  unfold out6
  rw [View.canon_unit_zero off_zero]
  rw [View.ld_unit_zero (S := S1024x2048) off_zero, View.ld_unit_zero (S := S1x2048) off_zero,
    View.ld_unit_zero (S := S1x2048) off_zero, View.ld_unit_zero (S := S1x2048) off_zero,
    View.ld_unit_zero (S := S1x2048) off_zero, View.ld_unit_zero (S := S2048x2048) off_zero]

end Cert.Kernel.Layer

end
-- ==== Proof.K.Halves.lean ====
/-
  The two regions' halves put into the run of the whole program: the batch-statistics region (its invariant
  carries the two running rows between grid points) and the layer region (its invariant is the class's, untouched).
-/
import proofs.«127384_j52072183496926_2_alg».proof.Proof.K.Whole
import proofs.«127384_j52072183496926_2_alg».proof.Proof.K.Stats
import proofs.«127384_j52072183496926_2_alg».proof.Proof.K.Layer

noncomputable section

namespace Cert.Kernel.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

/-- The batch-statistics region as the run takes it. -/
def stats : Half0 (F := F) where
  dat := Stats.dat
  A_eq := Stats.A_eq
  q_eq _ _ _ := rfl
  owed_eq _ _ _ := rfl
  rec_eq _ _ _ := rfl
  body := Stats.body_obligation
  hin := Stats.hin
  hout := Stats.hout

/-- The layer region as the run takes it. -/
def layer : Half1 (F := F) where
  dat := Layer.dat
  A_eq := Layer.A_eq
  q_eq _ _ _ := rfl
  owed_eq _ _ _ := rfl
  rec_eq _ _ _ := rfl
  body := Layer.body_obligation
  hin _ _ := .rfl
  hout _ _ := .rfl

end Cert.Kernel.Whole

end
-- ==== Proof.KI.Whole.lean ====
/-
  The run of the whole program: two kernel regions with two host reshapes between them.

  A region is entered with the core's buffers at some contents `V`; it leaves its windows' arrays at what the
  write-backs of its grid points leave (the inputs as entered, each output block by block) and every other
  buffer as entered. The contents at the four boundaries are therefore one fold from the launch memory:
  as launched; the first region's arrays replaced; the two reshapes applied; the second region's arrays
  replaced. Every weakly fair execution ends with every buffer that outlives a region at the last of these,
  which is stated here once; the frame claim and the value of the result are both read off it.

  What a region's body does is not opened here: each region enters through a record of its proof data at an
  arbitrary entry contents together with the facts the launch needs of it (its arrays are the entry contents,
  full shares, nothing owed, the body's obligation, and its invariant starting from and ending in the
  class's "scoped rest and generator register untouched").
-/
import proofs.«127384_j52072183496926_2_alg».proof.Proof.Gen.KernelIdeal.Launch
import proofs.«127384_j52072183496926_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core's buffers as a region finds them, read at the TensorCore's references. -/
abbrev Entry : Type := (c : Dev nD) → (b : Ref sig .tc) → Buf (Elt F) ((c : Thread nD τ).loc b)

/-- The first region's half: its proof data at any entry contents, and what the launch needs of it. -/
structure Half0 where
  dat : (V : Entry (F := F)) → (c : Dev nD) → Dat τ (Elt F) Unit ℕ (UR sig nD τ) ℕ cfg0 c
  A_eq : ∀ V c w, (dat V c).A w = V c (Pipeline.arrRef spec0 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec0 c : sProp 𝕄) ⊢ (dat V c).Φ 0
  hout : ∀ V c, (dat V c).Φ (Fin.last cfg0.N) ⊢ (Pipeline.ΦA spec0 c : sProp 𝕄)

/-- The second region's half. -/
structure Half1 where
  dat : (V : Entry (F := F)) → (c : Dev nD) → Dat τ (Elt F) Unit ℕ (UR sig nD τ) ℕ cfg1 c
  A_eq : ∀ V c w, (dat V c).A w = V c (Pipeline.arrRef spec1 w)
  q_eq : ∀ V c w, (dat V c).q w = fullShare
  owed_eq : ∀ V c t, (dat V c).owed t = 0
  rec_eq : ∀ V c t, (dat V c).recorded t = Set.univ
  body : ∀ V c, BodyObligation (dat V c) (defs₀ (F := F)) Variants.none () Set.univ
  hin : ∀ V c, (Pipeline.ΦA spec1 c : sProp 𝕄) ⊢ (dat V c).Φ 0
  hout : ∀ V c, (dat V c).Φ (Fin.last cfg1.N) ⊢ (Pipeline.ΦA spec1 c : sProp 𝕄)

variable (h0 : Half0 (F := F)) (h1 : Half1 (F := F))
variable (m : (ℓ : Loc nD τ sig) → Buf (Elt F) ℓ) (ρ : Dev nD → PrngReg)

/-! ## The contents at the four boundaries -/

/-- At launch. -/
abbrev W0 : Dev nD → Valuation τ sig (Elt F) := fun c b => m ((c : Dev nD), b)
abbrev V0 : Entry (F := F) := fun c b => W0 m c b
/-- After the first region: its arrays at what its write-backs leave. -/
def W1 (c : Dev nD) : Valuation τ sig (Elt F) :=
  Pipeline.withArrays spec0 c (W0 m c) fun w => (h0.dat (V0 m) c).arrAt w cfg0.N
theorem W1_arr (c : Dev nD) (w : Fin cfg0.W) :
    W1 h0 m c (Proc.devRef .tc (Pipeline.arrRef spec0 w)) = (h0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 h0 m c (Proc.devRef .tc b) = W0 m c (Proc.devRef .tc b) := by
  unfold W1; exact Pipeline.withArrays_of_ne spec0 c _ _ b hb
abbrev V1 : Entry (F := F) := fun c b => W1 h0 m c b
theorem hF0 (c : Dev nD) (w : Fin cfg0.W) : (h0.dat (V0 m) c).arrAt w cfg0.N = V1 h0 m c (Pipeline.arrRef spec0 w) :=
  (W1_arr h0 m c w).symm
theorem hrest0 (c : Dev nD) : ∀ b, b ∉ Finset.univ.image (Pipeline.arrRef spec0) → V1 h0 m c b = V0 m c b :=
  fun b hb => W1_of_ne h0 m c b fun w e => hb (Finset.mem_image.mpr ⟨w, Finset.mem_univ _, e⟩)
/-- After the two reshapes. -/
abbrev W2 : Dev nD → Valuation τ sig (Elt F) := fun c => StableHlo.after hostOps1 (W1 h0 m c)
abbrev V2 : Entry (F := F) := fun c b => W2 h0 m c b
/-- After the second region. -/
def W3 (c : Dev nD) : Valuation τ sig (Elt F) :=
  Pipeline.withArrays spec1 c (W2 h0 m c) fun w => (h1.dat (V2 h0 m) c).arrAt w cfg1.N
theorem W3_arr (c : Dev nD) (w : Fin cfg1.W) :
    W3 h0 h1 m c (Proc.devRef .tc (Pipeline.arrRef spec1 w)) = (h1.dat (V2 h0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 h0 h1 m c (Proc.devRef .tc b) = W2 h0 m c (Proc.devRef .tc b) := by
  unfold W3; exact Pipeline.withArrays_of_ne spec1 c _ _ b hb
abbrev V3 : Entry (F := F) := fun c b => W3 h0 h1 m c b
theorem hF1 (c : Dev nD) (w : Fin cfg1.W) : (h1.dat (V2 h0 m) c).arrAt w cfg1.N = V3 h0 h1 m c (Pipeline.arrRef spec1 w) :=
  (W3_arr h0 h1 m c w).symm
theorem hrest1 (c : Dev nD) : ∀ b, b ∉ Finset.univ.image (Pipeline.arrRef spec1) → V3 h0 h1 m c b = V2 h0 m c b :=
  fun b hb => W3_of_ne h0 h1 m c b fun w e => hb (Finset.mem_image.mpr ⟨w, Finset.mem_univ _, e⟩)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => h0.dat (V0 m) c
  | ⟨1, _⟩ => fun c => h1.dat (V2 h0 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- Neither reshape allocates a buffer. -/
theorem reshapes_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 h0 h1 m c) ∗ ∃ r, prngReg c r)

/-! ## The regions as segments -/

set_option backward.isDefEq.respectTransparency.types false in
/-- The first region: entered with every buffer at the launch contents, left with its arrays replaced. Its arrays are
    split out of the buffers and put back at the exit contents; the generator register goes into the region's
    invariant and comes back; nothing is owed; the kernel has no semaphore of its own. -/
def reg0 : Pipeline.RegionSeg (pcfgs (F := F)) adm (pdats h0 h1 m) () defs₀ 𝒱₀ L lv 0 where
  win := launch0.win.to₀
  block_pos := launch0.block_pos
  stage_whole := launch0.stage_whole
  K := PEmpty
  osem k := k.elim
  ho := Pipeline.OwnSemFacts.none _
  hbody c := (h0.body (V0 m) c).loose
  hwaits := Pipeline.hwaits_of_owed_zero _ _ _ _ L lv 0 fun c t => h0.owed_eq (V0 m) c t
  pre c := iprop(StableHlo.held (c : Thread nD τ) (Pipeline.ucRefs τ sig) (W0 m c) ∗ R c)
  post c := iprop(StableHlo.held (c : Thread nD τ) (Pipeline.ucRefs τ sig) (W1 h0 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats h0 h1 m) launch0.win launch0.arr_whole c
      ((pdats h0 h1 m 0 c).share_full fun w => h0.q_eq (V0 m) c w) (V0 m c) fun w => h0.A_eq (V0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m 0 c).owed 0 = 0 from h0.owed_eq (V0 m) c 0]
      icases HO with ⟨%W, HO⟩; iexists W; isplitr; · ipureintro; exact fun _ _ => Or.inl (by rw [show (pdats h0 h1 m 0 c).recorded 0 = Set.univ from h0.rec_eq (V0 m) c 0]; exact Set.mem_univ _)
      iexact HO
    isplitl [Hp]; · iexact Hp
    iexact Hrest
  hin c := by
    refine (?_ : (_ : sProp 𝕄) ⊢ (Pipeline.ΦA spec0 c : sProp 𝕄)).trans (h0.hin (V0 m) c)
    unfold Pipeline.ΦA
    iintro ⟨Hp, -, Hr⟩
    isplitl [Hr]; · iexact Hr
    iexact Hp
  hout c := by
    refine (h0.hout (V0 m) c).trans (?_ : (Pipeline.ΦA spec0 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats h0 h1 m) ((pdats h0 h1 m 0 c).share_full fun w => h0.q_eq (V0 m) c w)
      (V0 m c) (V1 h0 m c) ((pdats h0 h1 m 0 c).arrAt · cfg0.N) (hF0 h0 m c) (hrest0 h0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats h0 h1 m 0 c).owed (Fin.last _) = 0 from h0.owed_eq (V0 m) c _]
    icases HO with ⟨%W, -, HO⟩; iexists W; iexact HO

set_option backward.isDefEq.respectTransparency.types false in
/-- The second region: entered with every buffer at the contents after the reshapes, left with its arrays replaced. -/
def reg1 : Pipeline.RegionSeg (pcfgs (F := F)) adm (pdats h0 h1 m) () defs₀ 𝒱₀ L lv 1 where
  win := launch1.win.to₀
  block_pos := launch1.block_pos
  stage_whole := launch1.stage_whole
  K := PEmpty
  osem k := k.elim
  ho := Pipeline.OwnSemFacts.none _
  hbody c := (h1.body (V2 h0 m) c).loose
  hwaits := Pipeline.hwaits_of_owed_zero _ _ _ _ L lv 1 fun c t => h1.owed_eq (V2 h0 m) c t
  pre c := iprop(StableHlo.held (c : Thread nD τ) (Pipeline.ucRefs τ sig) (W2 h0 m c) ∗ R c)
  post c := iprop(Tₙ h0 h1 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 h0 m c)
  hentry c := by
    rw [Pipeline.ownSems0_none]
    have hsplit := Pipeline.arrays_of_unscopedBufs (p := 1) (pcfgs (F := F)) adm (pdats h0 h1 m) launch1.win launch1.arr_whole c
      ((pdats h0 h1 m 1 c).share_full fun w => h1.q_eq (V2 h0 m) c w) (V2 h0 m c) fun w => h1.A_eq (V2 h0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats h0 h1 m 1 c).owed 0 = 0 from h1.owed_eq (V2 h0 m) c 0]
      icases HO with ⟨%W, HO⟩; iexists W; isplitr; · ipureintro; exact fun _ _ => Or.inl (by rw [show (pdats h0 h1 m 1 c).recorded 0 = Set.univ from h1.rec_eq (V2 h0 m) c 0]; exact Set.mem_univ _)
      iexact HO
    isplitl [Hp]; · iexact Hp
    iexact Hrest
  hin c := by
    refine (?_ : (_ : sProp 𝕄) ⊢ (Pipeline.ΦA spec1 c : sProp 𝕄)).trans (h1.hin (V2 h0 m) c)
    unfold Pipeline.ΦA
    iintro ⟨Hp, -, Hr⟩
    isplitl [Hr]; · iexact Hr
    iexact Hp
  hout c := by
    refine (h1.hout (V2 h0 m) c).trans (?_ : (Pipeline.ΦA spec1 c : sProp 𝕄) ⊢ _)
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats h0 h1 m) ((pdats h0 h1 m 1 c).share_full fun w => h1.q_eq (V2 h0 m) c w)
      (V2 h0 m c) (V3 h0 h1 m c) ((pdats h0 h1 m 1 c).arrAt · cfg1.N) (hF1 h0 h1 m c) (hrest1 h0 h1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats h0 h1 m 1 c).owed (Fin.last _) = 0 from h1.owed_eq (V2 h0 m) c _]
    icases HO with ⟨%W, -, HO⟩; iexists W; iexact HO

/-! ## The program as segments, and the run -/

/-- The program's three segments in order: the first region, the two reshapes, the second region. -/
abbrev segs : List (Pipeline.Seg (pcfgs (F := F)) adm (pdats h0 h1 m) () defs₀ 𝒱₀ L lv) :=
  [ .region (reg0 h0 h1 m),
    .host (hseg hostOps1 hostOps1_sub reshapes_fresh (W1 h0 m)),
    .region (reg1 h0 h1 m) ]
theorem main_run (c : Dev nD) : main (F := F) c = Pipeline.Seg.run (segs h0 h1 m) := (main_chain c).trans (by chain_rfl)

set_option backward.isDefEq.respectTransparency.types false in
/-- THE RUN. From any memory with zero counters, every weakly fair execution of the program terminates, nothing
    faulting, and in the final memory every buffer that outlives a region holds the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 h0 h1 m c b) :=
  Pipeline.θ_run_regions_kit (pcfgs (F := F)) adm (pdats h0 h1 m) () cellOf_inj emb₁ defs₀ 𝒱₀ L lv m ρ main (segs h0 h1 m)
    (fun c Q => by rw [main_run h0 h1 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ h0 h1 m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 h0 h1 m c b)
    (hfin := fun c s' => by
      iintro ⟨⟨Hh, -⟩, HSI⟩
      unfold StableHlo.held
      imodintro
      iapply (pointsTo_read_all (Pipeline.ucRefs τ sig) (fun b => (((c : Thread nD τ)).1, b)) (W3 h0 h1 m c) s')
      isplitl [Hh] <;> iassumption)
    (hQ := fun s h c => h c)

/-! ## The arguments and the result, read off the last boundary

No reshape and no region writes an argument: a region reads it through an input window, whose array the
write-backs leave alone, or does not touch it; the reshapes write two buffers of their own. So the last
boundary's contents at an argument walk back to the launch memory. The result is the second region's output
array. -/

theorem reshapes_keep (W : Valuation τ sig (Elt F)) (b : Ref sig .tc) (h1' : b ≠ main_v1) (h2' : b ≠ main_v2) :
    StableHlo.after (hostOps1 : List (HloOp τ sig (Elt F))) W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1', StableHlo.devRef_ne_of_ne h2'⟩))

theorem W3_main_arg0 (c : Dev nD) : W3 h0 h1 m c (Proc.devRef .tc main_arg0) = m ((c : Thread nD τ).loc main_arg0) :=
  calc W3 h0 h1 m c (Proc.devRef .tc main_arg0)
    _ = W2 h0 m c (Proc.devRef .tc main_arg0) := (W3_arr h0 h1 m c 0).trans (((h1.dat (V2 h0 m) c).arrAt_in 0 rfl _).trans (h1.A_eq (V2 h0 m) c 0))
    _ = W1 h0 m c (Proc.devRef .tc main_arg0) := reshapes_keep _ main_arg0 (by decide) (by decide)
    _ = W0 m c (Proc.devRef .tc main_arg0) := (W1_arr h0 m c 0).trans (((h0.dat (V0 m) c).arrAt_in 0 rfl _).trans (h0.A_eq (V0 m) c 0))
    _ = m ((c : Thread nD τ).loc main_arg0) := rfl

theorem W3_main_arg1 (c : Dev nD) : W3 h0 h1 m c (Proc.devRef .tc main_arg1) = m ((c : Thread nD τ).loc main_arg1) :=
  calc W3 h0 h1 m c (Proc.devRef .tc main_arg1)
    _ = W2 h0 m c (Proc.devRef .tc main_arg1) := (W3_arr h0 h1 m c 5).trans (((h1.dat (V2 h0 m) c).arrAt_in 5 rfl _).trans (h1.A_eq (V2 h0 m) c 5))
    _ = W1 h0 m c (Proc.devRef .tc main_arg1) := reshapes_keep _ main_arg1 (by decide) (by decide)
    _ = W0 m c (Proc.devRef .tc main_arg1) := W1_of_ne h0 m c main_arg1 (by decide)
    _ = m ((c : Thread nD τ).loc main_arg1) := rfl

theorem W3_main_arg2 (c : Dev nD) : W3 h0 h1 m c (Proc.devRef .tc main_arg2) = m ((c : Thread nD τ).loc main_arg2) :=
  calc W3 h0 h1 m c (Proc.devRef .tc main_arg2)
    _ = W2 h0 m c (Proc.devRef .tc main_arg2) := W3_of_ne h0 h1 m c main_arg2 (by decide)
    _ = W1 h0 m c (Proc.devRef .tc main_arg2) := reshapes_keep _ main_arg2 (by decide) (by decide)
    _ = W0 m c (Proc.devRef .tc main_arg2) := W1_of_ne h0 m c main_arg2 (by decide)
    _ = m ((c : Thread nD τ).loc main_arg2) := rfl

theorem W3_main_arg3 (c : Dev nD) : W3 h0 h1 m c (Proc.devRef .tc main_arg3) = m ((c : Thread nD τ).loc main_arg3) :=
  calc W3 h0 h1 m c (Proc.devRef .tc main_arg3)
    _ = W2 h0 m c (Proc.devRef .tc main_arg3) := W3_of_ne h0 h1 m c main_arg3 (by decide)
    _ = W1 h0 m c (Proc.devRef .tc main_arg3) := reshapes_keep _ main_arg3 (by decide) (by decide)
    _ = W0 m c (Proc.devRef .tc main_arg3) := W1_of_ne h0 m c main_arg3 (by decide)
    _ = m ((c : Thread nD τ).loc main_arg3) := rfl

/-- The result buffer ends at the second region's output array after its last point. -/
theorem W3_main_v3 (c : Dev nD) : W3 h0 h1 m c (Proc.devRef .tc main_v3) = (h1.dat (V2 h0 m) c).arrAt 6 cfg1.N :=
  W3_arr h0 h1 m c 6

/-- The run with the result named and the arguments as launched. -/
theorem run_out : θ_run defs (onTc (τ := τ) (main (F := F))) ⟨m, fun _ => 0, ρ⟩ (fun r => ∀ c : Dev nD,
      r.2.mem ((c.tc : Thread nD τ).loc main_v3) = (h1.dat (V2 h0 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W3_main_v3 h0 h1 m c),
     (h c _ (mem_uc main_arg0 (by decide))).trans (W3_main_arg0 h0 h1 m c),
     (h c _ (mem_uc main_arg1 (by decide))).trans (W3_main_arg1 h0 h1 m c),
     (h c _ (mem_uc main_arg2 (by decide))).trans (W3_main_arg2 h0 h1 m c),
     (h c _ (mem_uc main_arg3 (by decide))).trans (W3_main_arg3 h0 h1 m c)⟩) (run h0 h1 m ρ)

include h0 h1 in
/-- The frame claim: the program runs and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_out h0 h1 m ρ)

/-! ## What the second region finds: the first region's outputs and the two reshaped rows -/

/-- The first output of the first region (the column means) reaches the second region as the first left it. -/
theorem V2_main_v0_0 (c : Dev nD) : V2 h0 m c main_v0_0 = (h0.dat (V0 m) c).arrAt 1 cfg0.N :=
  (reshapes_keep _ main_v0_0 (by decide) (by decide)).trans (W1_arr h0 m c 1)
theorem V2_main_v0_1 (c : Dev nD) : V2 h0 m c main_v0_1 = (h0.dat (V0 m) c).arrAt 2 cfg0.N :=
  (reshapes_keep _ main_v0_1 (by decide) (by decide)).trans (W1_arr h0 m c 2)
theorem V2_main_arg0 (c : Dev nD) : V2 h0 m c main_arg0 = m ((c : Thread nD τ).loc main_arg0) :=
  (reshapes_keep _ main_arg0 (by decide) (by decide)).trans ((W1_arr h0 m c 0).trans (((h0.dat (V0 m) c).arrAt_in 0 rfl _).trans (h0.A_eq (V0 m) c 0)))
theorem V2_main_arg1 (c : Dev nD) : V2 h0 m c main_arg1 = m ((c : Thread nD τ).loc main_arg1) :=
  (reshapes_keep _ main_arg1 (by decide) (by decide)).trans (W1_of_ne h0 m c main_arg1 (by decide))

end Cert.KernelIdeal.Whole

end
-- ==== Proof.KI.StatsRuns.lean ====
/-
  The batch-statistics region (the first pallas_call): what its three control cases share.

  The grid is (2, 8): coordinate 0 is the feature half, coordinate 1 the batch tile b, and the point at
  position t has b = t mod 8. The body first zeroes its two carried rows when b = 0, then adds to them the
  column sums of the block and of its square, and when b = 7 stores mean = sum / 8192 and
  var = sumsq / 8192 - mean * mean to the two outputs. Everything here is stated at a parameter `V`: the
  TensorCore's buffer contents when the region is entered.
-/
import proofs.«127384_j52072183496926_2_alg».proof.Proof.Gen.KernelIdeal.Launch
import proofs.«127384_j52072183496926_2_alg».proof.Proof.Gen.KernelIdeal.Skeleton
import proofs.«127384_j52072183496926_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Entry
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of x at every point, for any proof data whose
    array is `V`'s and whose body leaves the block in place: the window is fetched at every point, uncut and
    never idle. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

end Entry

/-! ## The two branch conditions, in closed form -/

/-- "This is the first batch tile": the condition of the body's first conditional, with its scalar chain
    substituted. -/
abbrev isFirst (i : grid0.Coords) : Prop := (Scalar.cmpi .ne (Scalar.extui (Scalar.cmpi .eq (BitVec.ofNat 32 (i 1).val) 0#32)) 0#32) = 1#1
/-- It holds exactly at the points with b = 0 — decided over the sixteen points. -/
theorem isFirst_iff : ∀ t : Fin cfg0.N, isFirst (grid0.coords t) ↔ t.val % 8 = 0 :=
  (by decide +kernel : ∀ t : Fin grid0.N, isFirst (grid0.coords t) ↔ t.val % 8 = 0)

/-- "This is the last batch tile": the condition of the body's second conditional. -/
abbrev isLast (i : grid0.Coords) : Prop := k0_cond2 i = 1#1
/-- It holds exactly at the points with b = 7 — decided over the sixteen points. -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

/-- The input window is never idle. -/
theorem live_in : ∀ t : Fin cfg0.N, cfg0.idle 0 (grid0.coords t) = false := by decide +kernel
/-- Before the last batch tile the mean's window is idle and not written back. -/
theorem idle_mean : ∀ t : Fin cfg0.N, ¬isLast (grid0.coords t) → cfg0.idle 1 (grid0.coords t) = true := by decide +kernel
theorem noFlush_mean : ∀ t : Fin cfg0.N, ¬isLast (grid0.coords t) → (cfg0.win 1).flush t = false := by decide +kernel
/-- At the last batch tile it is live. -/
theorem live_mean : ∀ t : Fin cfg0.N, isLast (grid0.coords t) → cfg0.idle 1 (grid0.coords t) = false := by decide +kernel
/-- The same for the variance's window. -/
theorem idle_var : ∀ t : Fin cfg0.N, ¬isLast (grid0.coords t) → cfg0.idle 2 (grid0.coords t) = true := by decide +kernel
theorem noFlush_var : ∀ t : Fin cfg0.N, ¬isLast (grid0.coords t) → (cfg0.win 2).flush t = false := by decide +kernel
theorem live_var : ∀ t : Fin cfg0.N, isLast (grid0.coords t) → cfg0.idle 2 (grid0.coords t) = false := by decide +kernel

/-! ## The memrefs the body is called with -/

/-- One staging buffer of each output window, through which its contents are stated (the choice does not
    matter: a row read back through any whole view of its shape is the same row). -/
abbrev VMean : View sig .tc .vmem S1x1024 .f32 := (Memref.whole cc0_stg1_0 : Memref sig .tc .vmem S1x1024 .f32).view
abbrev VVar : View sig .tc .vmem S1x1024 .f32 := (Memref.whole cc0_stg2_0 : Memref sig .tc .vmem S1x1024 .f32).view
/-- Each window's current staging memref at point `t`, spelled as the pipeline passes it, and its wholeness. -/
abbrev mIn (t : Fin cfg0.N) : Memref sig .tc .vmem S1024x1024 .f32 := win0_0.stage (cfg0.slots t 0)
abbrev hIn (t : Fin cfg0.N) : (mIn t).IsWhole := hstage0_0 ((cfg0.slots t 0).cast nbuf0_0)
abbrev mMean (t : Fin cfg0.N) : Memref sig .tc .vmem S1x1024 .f32 := win0_1.stage (cfg0.slots t 1)
abbrev hMean (t : Fin cfg0.N) : (mMean t).IsWhole := hstage0_1 ((cfg0.slots t 1).cast nbuf0_1)
abbrev mVar (t : Fin cfg0.N) : Memref sig .tc .vmem S1x1024 .f32 := win0_2.stage (cfg0.slots t 2)
abbrev hVar (t : Fin cfg0.N) : (mVar t).IsWhole := hstage0_2 ((cfg0.slots t 2).cast nbuf0_2)
/-- The two carried rows: whole scoped buffers of the kernel's own — the running column sums and the running
    column sums of squares. -/
abbrev mSum : Memref sig .tc .vmem S1x1024 .f32 := Memref.whole cc0_scratch0
abbrev mSq : Memref sig .tc .vmem S1x1024 .f32 := Memref.whole cc0_scratch1
abbrev VSum : View sig .tc .vmem S1x1024 .f32 := mSum.view
abbrev VSq : View sig .tc .vmem S1x1024 .f32 := mSq.view

/-- The scoped buffers of the core that belong to neither this region's staging nor its two carried rows
    (the second region's staging buffers), each whole at some contents: they ride through this region
    untouched. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The class's region invariant with the two carried rows as memrefs owned at some contents: what the body
    obligation hands a run and takes back. -/
theorem PhiA_eq (c : Dev nD) :
    (Pipeline.ΦA spec0 c : sProp 𝕄)
      = iprop(iprop((∃ d, owns (c : Thread nD τ) mSum fullShare d) ∗ (∃ d, owns (c : Thread nD τ) mSq fullShare d) ∗ others (F := F) c) ∗ (∃ r, prngReg c r)) := by
  unfold Pipeline.ΦA; rw [scopedRest0_eq]; simp only [mSum, mSq, owns_whole]; try rfl

end Cert.KernelIdeal.Stats

end
-- ==== Proof.KI.StatsA.lean ====
/-
  The batch-statistics body run once at a point with b = 0 (first batch tile, not the last): both carried
  rows are zeroed, then the block's column sums (and those of its square) are added; nothing is stored to
  the outputs.
-/
import proofs.«127384_j52072183496926_2_alg».proof.Proof.KI.StatsRuns

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each carried row, as pieces (last first), at a point of the first batch
    tile, with the proof that on whole memrefs — the input's at its block `x0`, the two outputs' at contents
    handed back untouched, the carried rows at anything — the body runs to the continuation holding the
    input's and the outputs' as they were and each carried row with its pieces written. The pieces are the
    witness the run finds. -/
noncomputable def runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : isFirst i) (hc1 : ¬isLast i)
    (x0 : Vec F S1024x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, fun xi1 xi2 E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Stats

end
-- ==== Proof.KI.StatsB.lean ====
/-
  The batch-statistics body run once at a point with 0 < b < 7 (neither the first nor the last batch tile):
  the block's column sums (and those of its square) are added to the carried rows; nothing is stored to the
  outputs.
-/
import proofs.«127384_j52072183496926_2_alg».proof.Proof.KI.StatsA

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each carried row, as pieces (last first), at a point in the middle of a
    feature half, with the proof that on whole memrefs — the input's at its block `x0`, the two outputs' at
    contents handed back untouched, the carried rows at what the point before left (`xs0`, `xs1`) — the body
    runs to the continuation holding the input's and the outputs' as they were and each carried row with its
    pieces written. -/
noncomputable def runMiddle (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬isFirst i) (hc1 : ¬isLast i)
    (x0 : Vec F S1024x1024 .f32) (xs0 xs1 : Vec F S1x1024 .f32) :
    Σ' (LS0 : List (View.Piece (Elt F) S1x1024 .f32)), { LS1 : List (View.Piece (Elt F) S1x1024 .f32) //
      ∀ (xi1 xi2 : Vec F S1x1024 .f32) (E : Set ℕ) (K : PUnit → sProp 𝕄),
        iprop(owns (c : Thread nD τ) arg2 fullShare x0 ∗ owns (c : Thread nD τ) arg3 fullShare xi1 ∗ owns (c : Thread nD τ) arg4 fullShare xi2 ∗ owns (c : Thread nD τ) arg5 fullShare xs0 ∗ owns (c : Thread nD τ) arg6 fullShare xs1
            ∗ (iprop(owns (c : Thread nD τ) arg2 fullShare x0 ∗ owns (c : Thread nD τ) arg3 fullShare xi1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, fun xi1 xi2 E K => ?run⟩
  case run =>
    simp only [cc0__bn_stats_kernel_eq_skeleton]; unfold cc0__bn_stats_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Stats

end
-- ==== Proof.KI.StatsC.lean ====
/-
  The batch-statistics body run once at a point with b = 7 (the last batch tile): the block's column sums
  (and those of its square) are added to the carried rows, and then mean = sum / 8192 and
  var = sumsq / 8192 - mean * mean are stored to the two outputs.
-/
import proofs.«127384_j52072183496926_2_alg».proof.Proof.KI.StatsB

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in each output's staging memref and in each carried row, as pieces (last
    first), at a point of the last batch tile, with the proof that on whole memrefs — the input's at its block
    `x0`, the outputs' at anything, the carried rows at what the point before left (`xs0`, `xs1`) — the body
    runs to the continuation holding the input's as it was and every other buffer with its pieces written. -/
noncomputable def runLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (hc0 : ¬isFirst i) (hc1 : isLast i)
    (x0 : Vec F S1024x1024 .f32) (xs0 xs1 : Vec F S1x1024 .f32) :
    Σ' (L1 : List (View.Piece (Elt F) S1x1024 .f32)) (L2 : List (View.Piece (Elt F) S1x1024 .f32)) (LS0 : List (View.Piece (Elt F) S1x1024 .f32)), { LS1 : List (View.Piece (Elt F) S1x1024 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__bn_stats_kernel i arg2 harg2 arg3 harg3 arg4 harg4 arg5 harg5 arg6 harg6) K } := by
  refine ⟨?_, ?_, ?_, ?_, fun E K => ?run⟩
  case run =>
    simp only [cc0__bn_stats_kernel_eq_skeleton]; unfold cc0__bn_stats_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg2.eq_unread hf0
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    isplitl [HS0]; · iexists _; iexact HS0
    iexists _; iexact HS1

end Cert.KernelIdeal.Stats

end
-- ==== Proof.KI.Stats.lean ====
/-
  The batch-statistics region as a pipeline with two carried rows: what every point leaves in the two
  output buffers and in the two carried rows (`outsAt`), the invariant that carries the rows from one point
  to the next, the proof data, and the body obligation — all at a parameter `V`, the TensorCore's buffer
  contents when the region is entered.
-/
import proofs.«127384_j52072183496926_2_alg».proof.Proof.KI.StatsC

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, read back -/

section Cases
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)

/-- The row an output's buffer is said to hold after a point that stores nothing into it: a placeholder nothing
    consults (at such a point the window is neither written back nor read at the next point). -/
def idleRow : Vec F S1x1024 .f32 := VMean.read (Elt F) VMean.junk

/-- At a point of the first batch tile the stores into the running column sums cover the row. -/
theorem coverSum_first (hc0 : isFirst i) (hc1 : ¬isLast i) (x0 : Vec F S1024x1024 .f32) (y : S1x1024.Idx) :
    ∃ pc ∈ (runFirst c i arg2 harg2 arg3 harg3 arg4 harg4 arg5 harg5 arg6 harg6 hc0 hc1 x0).1, y ∈ pc.1.set :=
  View.cover_of_tiledL (runFirst c i arg2 harg2 arg3 harg3 arg4 harg4 arg5 harg5 arg6 harg6 hc0 hc1 x0).1 S1x1024.size (by sl_kernel_rfl) y
/-- The same for the running column sums of squares. -/
theorem coverSq_first (hc0 : isFirst i) (hc1 : ¬isLast i) (x0 : Vec F S1024x1024 .f32) (y : S1x1024.Idx) :
    ∃ pc ∈ (runFirst c i arg2 harg2 arg3 harg3 arg4 harg4 arg5 harg5 arg6 harg6 hc0 hc1 x0).2.1, y ∈ pc.1.set :=
  View.cover_of_tiledL (runFirst c i arg2 harg2 arg3 harg3 arg4 harg4 arg5 harg5 arg6 harg6 hc0 hc1 x0).2.1 S1x1024.size (by sl_kernel_rfl) y
/-- What a point of the first batch tile leaves in the running column sums: its pieces read back. -/
def sumFirst (hc0 : isFirst i) (hc1 : ¬isLast i) (x0 : Vec F S1024x1024 .f32) : Vec F S1x1024 .f32 :=
  VSum.read (Elt F) (VSum.writes (Elt F) VSum.junk (runFirst c i arg2 harg2 arg3 harg3 arg4 harg4 arg5 harg5 arg6 harg6 hc0 hc1 x0).1)
/-- … and in the running column sums of squares. -/
def sqFirst (hc0 : isFirst i) (hc1 : ¬isLast i) (x0 : Vec F S1024x1024 .f32) : Vec F S1x1024 .f32 :=
  VSq.read (Elt F) (VSq.writes (Elt F) VSq.junk (runFirst c i arg2 harg2 arg3 harg3 arg4 harg4 arg5 harg5 arg6 harg6 hc0 hc1 x0).2.1)

/-- At a middle point the stores into each carried row cover it. -/
theorem coverSum_middle (hc0 : ¬isFirst i) (hc1 : ¬isLast i) (x0 : Vec F S1024x1024 .f32) (xs0 xs1 : Vec F S1x1024 .f32) (y : S1x1024.Idx) :
    ∃ pc ∈ (runMiddle c i arg2 harg2 arg3 harg3 arg4 harg4 arg5 harg5 arg6 harg6 hc0 hc1 x0 xs0 xs1).1, y ∈ pc.1.set :=
  View.cover_of_tiledL (runMiddle c i arg2 harg2 arg3 harg3 arg4 harg4 arg5 harg5 arg6 harg6 hc0 hc1 x0 xs0 xs1).1 S1x1024.size (by sl_kernel_rfl) y
theorem coverSq_middle (hc0 : ¬isFirst i) (hc1 : ¬isLast i) (x0 : Vec F S1024x1024 .f32) (xs0 xs1 : Vec F S1x1024 .f32) (y : S1x1024.Idx) :
    ∃ pc ∈ (runMiddle c i arg2 harg2 arg3 harg3 arg4 harg4 arg5 harg5 arg6 harg6 hc0 hc1 x0 xs0 xs1).2.1, y ∈ pc.1.set :=
  View.cover_of_tiledL (runMiddle c i arg2 harg2 arg3 harg3 arg4 harg4 arg5 harg5 arg6 harg6 hc0 hc1 x0 xs0 xs1).2.1 S1x1024.size (by sl_kernel_rfl) y
/-- What a middle point leaves in the two carried rows. -/
def sumMiddle (hc0 : ¬isFirst i) (hc1 : ¬isLast i) (x0 : Vec F S1024x1024 .f32) (xs0 xs1 : Vec F S1x1024 .f32) : Vec F S1x1024 .f32 :=
  VSum.read (Elt F) (VSum.writes (Elt F) VSum.junk (runMiddle c i arg2 harg2 arg3 harg3 arg4 harg4 arg5 harg5 arg6 harg6 hc0 hc1 x0 xs0 xs1).1)
def sqMiddle (hc0 : ¬isFirst i) (hc1 : ¬isLast i) (x0 : Vec F S1024x1024 .f32) (xs0 xs1 : Vec F S1x1024 .f32) : Vec F S1x1024 .f32 :=
  VSq.read (Elt F) (VSq.writes (Elt F) VSq.junk (runMiddle c i arg2 harg2 arg3 harg3 arg4 harg4 arg5 harg5 arg6 harg6 hc0 hc1 x0 xs0 xs1).2.1)

/-- At a point of the last batch tile the stores into each output and each carried row cover it. -/
theorem coverMean_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).1, y ∈ pc.1.set :=
  View.cover_of_tiledL (runLast c i arg2 harg2 arg3 harg3 arg4 harg4 arg5 harg5 arg6 harg6 hc0 hc1 x0 xs0 xs1).1 S1x1024.size (by sl_kernel_rfl) y
theorem coverVar_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.1, y ∈ pc.1.set :=
  View.cover_of_tiledL (runLast c i arg2 harg2 arg3 harg3 arg4 harg4 arg5 harg5 arg6 harg6 hc0 hc1 x0 xs0 xs1).2.1 S1x1024.size (by sl_kernel_rfl) y
theorem coverSum_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.2.1, y ∈ pc.1.set :=
  View.cover_of_tiledL (runLast c i arg2 harg2 arg3 harg3 arg4 harg4 arg5 harg5 arg6 harg6 hc0 hc1 x0 xs0 xs1).2.2.1 S1x1024.size (by sl_kernel_rfl) y
theorem coverSq_last (hc0 : ¬isFirst i) (hc1 : isLast i) (x0 : Vec F S1024x1024 .f32) (xs0 xs1 : Vec F S1x1024 .f32) (y : S1x1024.Idx) :
    ∃ pc ∈ (runLast c i arg2 harg2 arg3 harg3 arg4 harg4 arg5 harg5 arg6 harg6 hc0 hc1 x0 xs0 xs1).2.2.2.1, y ∈ pc.1.set :=
  View.cover_of_tiledL (runLast c i arg2 harg2 arg3 harg3 arg4 harg4 arg5 harg5 arg6 harg6 hc0 hc1 x0 xs0 xs1).2.2.2.1 S1x1024.size (by sl_kernel_rfl) y
/-- What a point of the last batch tile leaves in the mean's buffer, the variance's buffer and the two
    carried rows. -/
def meanLast (hc0 : ¬isFirst i) (hc1 : isLast i) (x0 : Vec F S1024x1024 .f32) (xs0 xs1 : Vec F S1x1024 .f32) : Vec F S1x1024 .f32 :=
  VMean.read (Elt F) (VMean.writes (Elt F) VMean.junk (runLast c i arg2 harg2 arg3 harg3 arg4 harg4 arg5 harg5 arg6 harg6 hc0 hc1 x0 xs0 xs1).1)
def varLast (hc0 : ¬isFirst i) (hc1 : isLast i) (x0 : Vec F S1024x1024 .f32) (xs0 xs1 : Vec F S1x1024 .f32) : Vec F S1x1024 .f32 :=
  VVar.read (Elt F) (VVar.writes (Elt F) VVar.junk (runLast c i arg2 harg2 arg3 harg3 arg4 harg4 arg5 harg5 arg6 harg6 hc0 hc1 x0 xs0 xs1).2.1)
def sumLast (hc0 : ¬isFirst i) (hc1 : isLast i) (x0 : Vec F S1024x1024 .f32) (xs0 xs1 : Vec F S1x1024 .f32) : Vec F S1x1024 .f32 :=
  VSum.read (Elt F) (VSum.writes (Elt F) VSum.junk (runLast c i arg2 harg2 arg3 harg3 arg4 harg4 arg5 harg5 arg6 harg6 hc0 hc1 x0 xs0 xs1).2.2.1)
def sqLast (hc0 : ¬isFirst i) (hc1 : isLast i) (x0 : Vec F S1024x1024 .f32) (xs0 xs1 : Vec F S1x1024 .f32) : Vec F S1x1024 .f32 :=
  VSq.read (Elt F) (VSq.writes (Elt F) VSq.junk (runLast c i arg2 harg2 arg3 harg3 arg4 harg4 arg5 harg5 arg6 harg6 hc0 hc1 x0 xs0 xs1).2.2.2.1)

end Cases

section Entry
variable (V : (c : Dev nD) → (b : Ref sig .tc) → Buf (Elt F) ((c : Thread nD τ).loc b))

/-! ## What the buffers hold after each point -/

theorem not_isLast_of_first (t : Fin cfg0.N) (h0 : t.val % 8 = 0) : ¬isLast (grid0.coords t) :=
  fun h => by have := (isLast_iff t).mp h; omega
theorem not_isFirst_of (t : Fin cfg0.N) (h0 : ¬t.val % 8 = 0) : ¬isFirst (grid0.coords t) :=
  fun h => h0 ((isFirst_iff t).mp h)
theorem not_isLast_of (t : Fin cfg0.N) (h1 : ¬t.val % 8 = 7) : ¬isLast (grid0.coords t) :=
  fun h => h1 ((isLast_iff t).mp h)

/-- After a point of the first batch tile (mean's buffer, variance's buffer, running sums, running sums of
    squares): the outputs untouched, the carried rows at the block's column sums. -/
def atFirst (c : Dev nD) (t : Fin cfg0.N) (h0 : t.val % 8 = 0) : Vec F S1x1024 .f32 × Vec F S1x1024 .f32 × Vec F S1x1024 .f32 × Vec F S1x1024 .f32 :=
  (idleRow, idleRow,
   sumFirst c (grid0.coords t) (mIn t) (hIn t) (mMean t) (hMean t) (mVar t) (hVar t) mSum (Memref.isWhole_whole _) mSq (Memref.isWhole_whole _) ((isFirst_iff t).mpr h0) (not_isLast_of_first t h0) (iblk V c 0 t),
   sqFirst c (grid0.coords t) (mIn t) (hIn t) (mMean t) (hMean t) (mVar t) (hVar t) mSum (Memref.isWhole_whole _) mSq (Memref.isWhole_whole _) ((isFirst_iff t).mpr h0) (not_isLast_of_first t h0) (iblk V c 0 t))
/-- After a middle point, over what the point before left in the carried rows. -/
def atMiddle (c : Dev nD) (t : Fin cfg0.N) (h0 : ¬t.val % 8 = 0) (h1 : ¬t.val % 8 = 7) (xs0 xs1 : Vec F S1x1024 .f32) : Vec F S1x1024 .f32 × Vec F S1x1024 .f32 × Vec F S1x1024 .f32 × Vec F S1x1024 .f32 :=
  (idleRow, idleRow,
   sumMiddle c (grid0.coords t) (mIn t) (hIn t) (mMean t) (hMean t) (mVar t) (hVar t) mSum (Memref.isWhole_whole _) mSq (Memref.isWhole_whole _) (not_isFirst_of t h0) (not_isLast_of t h1) (iblk V c 0 t) xs0 xs1,
   sqMiddle c (grid0.coords t) (mIn t) (hIn t) (mMean t) (hMean t) (mVar t) (hVar t) mSum (Memref.isWhole_whole _) mSq (Memref.isWhole_whole _) (not_isFirst_of t h0) (not_isLast_of t h1) (iblk V c 0 t) xs0 xs1)
/-- After a point of the last batch tile, over what the point before left in the carried rows. -/
def atLast (c : Dev nD) (t : Fin cfg0.N) (h0 : ¬t.val % 8 = 0) (h1 : t.val % 8 = 7) (xs0 xs1 : Vec F S1x1024 .f32) : Vec F S1x1024 .f32 × Vec F S1x1024 .f32 × Vec F S1x1024 .f32 × Vec F S1x1024 .f32 :=
  (meanLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   varLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   sumLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1,
   sqLast c (grid0.coords t) (mIn t) (hIn t) (mMean t) (hMean t) (mVar t) (hVar t) mSum (Memref.isWhole_whole _) mSq (Memref.isWhole_whole _) (not_isFirst_of t h0) ((isLast_iff t).mpr h1) (iblk V c 0 t) xs0 xs1)

/-- THE ACCUMULATION. What the two outputs' staging buffers and the two carried rows hold after the body at
    position `n`: the case b = n mod 8 selects, run at the point's memrefs and its block of x, the carried rows
    taken at what position `n - 1` left. -/
def outsAt (c : Dev nD) : (n : ℕ) → n < cfg0.N → Vec F S1x1024 .f32 × Vec F S1x1024 .f32 × Vec F S1x1024 .f32 × Vec F S1x1024 .f32
  | 0, hn => atFirst V c ⟨0, hn⟩ (Nat.zero_mod 8)
  | n + 1, hn =>
    if h0 : (n + 1) % 8 = 0 then atFirst V c ⟨n + 1, hn⟩ h0
    else if h1 : (n + 1) % 8 = 7 then
      atLast V c ⟨n + 1, hn⟩ h0 h1 (outsAt c n (Nat.lt_of_succ_lt hn)).2.2.1 (outsAt c n (Nat.lt_of_succ_lt hn)).2.2.2
    else
      atMiddle V c ⟨n + 1, hn⟩ h0 h1 (outsAt c n (Nat.lt_of_succ_lt hn)).2.2.1 (outsAt c n (Nat.lt_of_succ_lt hn)).2.2.2

theorem outsAt_first (c : Dev nD) (t : Fin cfg0.N) (h0 : t.val % 8 = 0) :
    outsAt V c t.val t.isLt = atFirst V c t h0 := by
  obtain ⟨n, hn⟩ := t
  cases n with
  | zero => exact rfl
  | succ n => exact (dif_pos h0).trans rfl

theorem outsAt_middle (c : Dev nD) (t : Fin cfg0.N) (h0 : ¬t.val % 8 = 0) (h1 : ¬t.val % 8 = 7) :
    outsAt V c t.val t.isLt = atMiddle V c t h0 h1 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 8 = 0) (h1 : t.val % 8 = 7) :
    outsAt V c t.val t.isLt = atLast V c t h0 h1 (outsAt V c (t.val - 1) (Nat.lt_of_le_of_lt (Nat.sub_le _ _) t.isLt)).2.2.1
      (outsAt V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer that is no
    staging buffer of this region at anything, the generator register at some state); afterwards the same with
    the two carried rows at what the point before left in them. -/
def PhiS (c : Dev nD) : (n : ℕ) → n ≤ cfg0.N → sProp 𝕄
  | 0, _ => Pipeline.ΦA spec0 c
  | n + 1, hn => iprop(iprop(owns (c : Thread nD τ) mSum fullShare ((outsAt V c n hn).2.2.1) ∗ owns (c : Thread nD τ) mSq fullShare ((outsAt V c n hn).2.2.2) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) mSum fullShare ((outsAt V c n hn).2.2.1) ∗ owns (c : Thread nD τ) mSq fullShare ((outsAt V c n hn).2.2.2) ∗ others (F := F) c) ∗ (∃ r, prngReg c r)) := rfl

theorem PhiS_pos (c : Dev nD) (n : ℕ) (h : n ≤ cfg0.N) (hz : n ≠ 0) :
    PhiS V c n h = iprop(iprop(owns (c : Thread nD τ) mSum fullShare ((outsAt V c (n - 1) (by omega)).2.2.1) ∗ owns (c : Thread nD τ) mSq fullShare ((outsAt V c (n - 1) (by omega)).2.2.2) ∗ others (F := F) c) ∗ (∃ r, prngReg c r)) := by
  cases n with
  | zero => exact absurd rfl hz
  | succ n => rfl

/-! ## The pipeline's proof data -/

/-- The proof data of the region on core `c`: the arrays as the region finds them (`V`); after the body at
    point `t` the input's buffer at its block of x and the outputs' at `outsAt`'s first two components; the
    invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem after_2 (c : Dev nD) (t : Fin cfg0.N) : (dat V c).after 2 t = (outsAt V c t.val t.isLt).2.1 := by dsimp only [dat]

/-- The input's current staging buffer holds its block of x at every point. -/
theorem before_in (c : Dev nD) (t : Fin cfg0.N) (d) : (dat V c).before 0 t d = iblk V c 0 t :=
  before0_of V (dat V c) (A_eq V c 0) (after_0 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mMean t) fullShare ((dat V c).before 1 t d))
    ∗ (∃ d, owns (c : Thread nD τ) (mVar t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input's memref holds its block of x; b = t mod 8 says which case the point is
    in; the invariant hands the body the carried rows at what the point before left (at anything where
    b = 0: they are zeroed first), and takes them back at this point's contents, read back through the covers;
    the outputs are handed back untouched except at b = 7, where they are left at the stored mean and
    variance; the second region's staging buffers, the generator register and the core's debts pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg0.N = 16 from N_0)
  rw [show (dat V c).leavesExact 0 t = owns (c : Thread nD τ) (mIn t) fullShare ((dat V c).after 0 t) from by
    unfold Dat.leavesExact; rw [live_in t], after_0]
  by_cases h0 : t.val % 8 = 0
  · have hL : ¬isLast (grid0.coords t) := not_isLast_of_first t h0
    rw [Dat.leavesExact_idle (dat V c) 1 t (idle_mean t hL) (noFlush_mean t hL)]
    rw [Dat.leavesExact_idle (dat V c) 2 t (idle_var t hL) (noFlush_var t hL)]
    rw [outsAt_first V c t h0]
    unfold atFirst sumFirst sqFirst; (try dsimp only)
    by_cases hz : t.val = 0
    · rw [PhiS_castSucc V c t, PhiS_zero V c _ _ hz, PhiA_eq]
      iintro ⟨⟨⟨HS0, HS1, Hoth⟩, Hg⟩, Ho, ⟨%d0, H0⟩, ⟨%d1, H1⟩, ⟨%d2, H2⟩⟩
      iapply ((runFirst c (grid0.coords t) _ _ _ _ _ _ _ _ _ _ ((isFirst_iff t).mpr h0) hL (iblk V c 0 t)).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_first c _ _ _ _ _ _ _ _ _ _ _ _ _ _)
          isplitl [HS1]
          · unfold owns; iexists _; isplitr
            swap; · iexact HS1
            ipureintro; exact View.read_writes_of_cover _ _ _ _ _ (coverSq_first c _ _ _ _ _ _ _ _ _ _ _ _ _ _)
          iexact Hoth
        iexact Hg
      isplitl [Ho]; · iexact Ho
      isplitl [H0]; · iexact H0
      isplitl [H1]; · iexists _; iexact H1
      iexists _; iexact H2
    · rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runFirst c (grid0.coords t) _ _ _ _ _ _ _ _ _ _ ((isFirst_iff t).mpr h0) hL (iblk V c 0 t)).2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_first c _ _ _ _ _ _ _ _ _ _ _ _ _ _)
          isplitl [HS1]
          · unfold owns; iexists _; isplitr
            swap; · iexact HS1
            ipureintro; exact View.read_writes_of_cover _ _ _ _ _ (coverSq_first c _ _ _ _ _ _ _ _ _ _ _ _ _ _)
          iexact Hoth
        iexact Hg
      isplitl [Ho]; · iexact Ho
      isplitl [H0]; · iexact H0
      isplitl [H1]; · iexists _; iexact H1
      iexists _; iexact H2
  · have hz : t.val ≠ 0 := fun h => h0 (by rw [h])
    have hF : ¬isFirst (grid0.coords t) := not_isFirst_of t h0
    by_cases h1 : t.val % 8 = 7
    · have hL : isLast (grid0.coords t) := (isLast_iff t).mpr h1
      rw [show (dat V c).leavesExact 1 t = owns (c : Thread nD τ) (mMean t) fullShare ((dat V c).after 1 t) from by
        unfold Dat.leavesExact; rw [live_mean t hL], after_1]
      rw [show (dat V c).leavesExact 2 t = owns (c : Thread nD τ) (mVar t) fullShare ((dat V c).after 2 t) from by
        unfold Dat.leavesExact; rw [live_var t hL], after_2]
      rw [outsAt_last V c t h0 h1]
      unfold atLast meanLast varLast sumLast sqLast; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runLast c (grid0.coords t) _ _ _ _ _ _ _ _ _ _ hF hL (iblk V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_last c _ _ _ _ _ _ _ _ _ _ _ _ _ _ _ _)
          isplitl [HS1]
          · unfold owns; iexists _; isplitr
            swap; · iexact HS1
            ipureintro; exact View.read_writes_of_cover _ _ _ _ _ (coverSq_last c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (coverMean_last c _ _ _ _ _ _ _ _ _ _ _ _ _ _ _ _)
      unfold owns; iexists _; isplitr
      swap; · iexact H2
      ipureintro; exact View.read_writes_of_cover _ _ _ _ _ (coverVar_last c _ _ _ _ _ _ _ _ _ _ _ _ _ _ _ _)
    · have hL : ¬isLast (grid0.coords t) := not_isLast_of t h1
      rw [Dat.leavesExact_idle (dat V c) 1 t (idle_mean t hL) (noFlush_mean t hL)]
      rw [Dat.leavesExact_idle (dat V c) 2 t (idle_var t hL) (noFlush_var t hL)]
      rw [outsAt_middle V c t h0 h1]
      unfold atMiddle sumMiddle sqMiddle; (try dsimp only)
      rw [PhiS_castSucc V c t, PhiS_pos V c _ _ hz]
      iintro ⟨⟨⟨HS0, HS1, Hoth⟩, Hg⟩, Ho, ⟨%d0, H0⟩, ⟨%d1, H1⟩, ⟨%d2, H2⟩⟩
      iapply ((runMiddle c (grid0.coords t) _ _ _ _ _ _ _ _ _ _ hF hL (iblk V c 0 t) _ _).2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverSum_middle c _ _ _ _ _ _ _ _ _ _ _ _ _ _ _ _)
          isplitl [HS1]
          · unfold owns; iexists _; isplitr
            swap; · iexact HS1
            ipureintro; exact View.read_writes_of_cover _ _ _ _ _ (coverSq_middle c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: what the carried rows hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout (c : Dev nD) : (dat V c).Φ (Fin.last cfg0.N) ⊢ Pipeline.ΦA spec0 c :=
  Phi_out V c _ (by rw [Fin.val_last]; have : cfg0.N = 16 := N_0; omega)

end Entry

end Cert.KernelIdeal.Stats

end
-- ==== Proof.KI.Layer.lean ====
/-
  The second pipeline of the program (the normalise–binarise–matmul kernel on a grid of 8 batch tiles), stated at
  an arbitrary contents `V` of the core's buffers on entry to the region.

  The pipeline stages seven windows.  Window 0 is the batch tile of `x`: rows 1024·b … 1024·b+1023, all 2048
  columns, a different block at every grid point.  Windows 1–5 (the per-feature mean, variance, scale and shift as
  1×2048 rows, and the 2048×2048 weight) are each the WHOLE of their array at the constant block index (0,0): the
  pipeline copies them in once, before the first point, and the body never writes them, so at every later point the
  staging buffer still holds the same block — which, the index never moving, is also that point's block.  Window 6
  is the output tile, rows 1024·b …, written whole by the body's single store and copied back after every point.

  Hence the body's effect at a point is a pure function of six blocks: it leaves the six inputs where they are and
  leaves in the output buffer the arithmetic `k1_pay1` of the six loaded blocks.  This module names that function
  (`out6`), runs the body symbolically to show it, and packages the result as the pipeline's proof data (`dat`)
  together with the obligation the pipeline's launch theorem asks of the body at every point (`body_obligation`).
  The last lemma (`out6_eq`) removes the bookkeeping: every load and the store go through the rectangle that is the
  whole buffer, so a load reads the buffer itself and the one store leaves exactly its payload.
-/
import proofs.«127384_j52072183496926_2_alg».proof.Proof.Gen.KernelIdeal.Launch
import proofs.«127384_j52072183496926_2_alg».proof.Proof.Gen.KernelIdeal.Skeleton
import proofs.«127384_j52072183496926_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- facts about a rectangle of 1024×2048 or 2048×2048 entries recurse once per coordinate of the long axes
set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the core's buffers hold when the region is entered
variable (V : (c : Dev nD) → (b : Ref sig .tc) → Buf (Elt F) ((c : Thread nD τ).loc b))

/-! ## The blocks -/

/-- The block of window `w` at grid point `t`, read off the window's array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ### What the body finds in each input's staging buffer

For any proof data over this pipeline whose arrays are `V`'s and whose body leaves an input's block in place, the
input's current staging buffer holds that block at EVERY point.  Where the pipeline has just copied the block in
this is immediate; where it has not, the block index has not moved since the previous point, so the buffer still
holds the previous point's block and that block is this point's.  For window 0 every point is of the first kind;
for windows 1–5 only the first point is, and all the others are of the second kind. -/

theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The rectangles the body reads and writes through

Each is the whole of its buffer: zero offsets, the buffer's own extents, unit strides. -/

/-- The whole of a 1024×2048 buffer (the batch tile of `x`, and the output tile). -/
abbrev rTile : Rect S1024x2048 := Rect.unit (s := S1024x2048) ![0, 0] S1024x2048.size inb_S1024x2048_S1024x2048_0_0
/-- The whole of a 1×2048 buffer (mean, variance, scale, shift). -/
abbrev rRow : Rect S1x2048 := Rect.unit (s := S1x2048) ![0, 0] S1x2048.size inb_S1x2048_S1x2048_0_0
/-- The whole of the 2048×2048 weight buffer. -/
abbrev rSq : Rect S2048x2048 := Rect.unit (s := S2048x2048) ![0, 0] S2048x2048.size inb_S2048x2048_S2048x2048_0_0

/-- The offsets of all three are zero on both axes. -/
theorem off_zero : (![0, 0] : Fin 2 → Nat) = fun _ => 0 := funext fun a => by fin_cases a <;> rfl

/-! ## What the body leaves in the output's staging buffer -/

/-- The output tile's staging buffer after the body, as a function of the six input blocks: the body's one store,
    through the whole-buffer rectangle, of the arithmetic `k1_pay1` of its six loads. -/
def out6 (x0 : Vec F S1024x2048 .f32) (x1 x2 x3 x4 : Vec F S1x2048 .f32) (x5 : Vec F S2048x2048 .f32) : Vec F S1024x2048 .f32 :=
  View.canon [⟨rTile, k1_pay1 (View.ld x0 rTile) (View.ld x1 rRow) (View.ld x2 rRow) (View.ld x3 rRow) (View.ld x4 rRow) (View.ld x5 rSq)⟩]

/-- That one store reaches every entry of the buffer: its rectangle is the whole buffer. -/
theorem cover6 (p0 : Vec F S1024x2048 .f32) (y : S1024x2048.Idx) :
    ∃ pc ∈ ([⟨rTile, p0⟩] : List (View.Piece (Elt F) S1024x2048 .f32)), y ∈ pc.1.set :=
  ⟨_, List.mem_singleton_self _, View.mem_set_unit_zero off_zero inb_S1024x2048_S1024x2048_0_0 y⟩

/-! ## The body run -/

set_option maxHeartbeats 1000000 in
/-- The body on whole staging memrefs — the six inputs' at read contents `x0 … x5`, the output's at anything — runs
    to the continuation with the inputs' as they were and the output's at `out6` of them.  The printed functions
    are rewritten to their memory-operation skeletons (the called part included) and executed symbolically: six
    loads, the pure payload, a load of the output buffer whose value is dropped, and the store. -/
theorem sound_kernel (c : Dev nD) (E : Set ℕ) (i : grid1.Coords)
    (arg1 : Memref sig .tc .vmem S1024x2048 .f32) (harg1 : arg1.IsWhole)
    (arg2 : Memref sig .tc .vmem S1x2048 .f32) (harg2 : arg2.IsWhole)
    (arg3 : Memref sig .tc .vmem S1x2048 .f32) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S2048x2048 .f32) (harg6 : arg6.IsWhole)
    (arg7 : Memref sig .tc .vmem S1024x2048 .f32) (harg7 : arg7.IsWhole)
    (x0 : Vec F S1024x2048 .f32) (x1 x2 x3 x4 : Vec F S1x2048 .f32) (x5 : Vec F S2048x2048 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out6 x0 x1 x2 x3 x4 x5)) -∗ K ⟨⟩))
      ⊢ wp frame (wpE (defs₀ (F := F)) Variants.none c none) E
          (cc1__main_kernel i arg1 harg1 arg2 harg2 arg3 harg3 arg4 harg4 arg5 harg5 arg6 harg6 arg7 harg7) K := by
  simp only [cc1__main_kernel_eq_skeleton]; unfold cc1__main_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6 _)

/-! ## The pipeline's proof data -/

/-- The proof data of this pipeline on core `c`: the arrays as the region finds them; after the body at point `t`
    each input's buffer still at its block and the output's at `out6` of the six blocks; the invariant that of a
    body touching nothing but its windows' buffers (the core's other scoped buffers and the generator register
    stay as they are); nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t) (iblk V c 4 t) (iblk V c 5 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) :
    (dat V c).after 6 t = out6 (iblk V c 0 t) (iblk V c 1 t) (iblk V c 2 t) (iblk V c 3 t) (iblk V c 4 t) (iblk V c 5 t) := by
  dsimp only [dat]

/-- Each input's current staging buffer holds its block at every point. -/
theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d
theorem before_4 (c : Dev nD) (t : Fin cfg1.N) (d) : (dat V c).before 4 t d = iblk V c 4 t :=
  before_of_4 V (dat V c) (A_eq V c 4) (after_4 V c) t d
theorem before_5 (c : Dev nD) (t : Fin cfg1.N) (d) : (dat V c).before 5 t d = iblk V c 5 t :=
  before_of_5 V (dat V c) (A_eq V c 5) (after_5 V c) t d

/-! ## The body obligation at a generic point -/

/-- What the body is called with at point `t`: the invariant, what is owed, and each window's current staging
    buffer at what the pipeline left in it, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it hands back. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' buffers hold their blocks, so the body run applies; the invariant and what is
    owed pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation the launch theorem asks of the body, at every point. -/
theorem body_obligation (c : Dev nD) : BodyObligation (dat (F := F) V c) (defs₀ (F := F)) Variants.none () Set.univ := fun t => by
  rw [bigSep_W1, bigSep_W1]
  exact sound_body V c t

/-! ## The output buffer in closed form -/

/-- Read back, the one whole-buffer store is its payload, and each load through a whole-buffer rectangle is the
    buffer it reads: the output tile after the body IS the arithmetic of the six blocks. -/
theorem out6_eq (x0 : Vec F S1024x2048 .f32) (x1 x2 x3 x4 : Vec F S1x2048 .f32) (x5 : Vec F S2048x2048 .f32) :
    out6 x0 x1 x2 x3 x4 x5 = k1_pay1 x0 x1 x2 x3 x4 x5 := by
  unfold out6
  rw [View.canon_unit_zero off_zero]
  rw [View.ld_unit_zero (S := S1024x2048) off_zero, View.ld_unit_zero (S := S1x2048) off_zero,
    View.ld_unit_zero (S := S1x2048) off_zero, View.ld_unit_zero (S := S1x2048) off_zero,
    View.ld_unit_zero (S := S1x2048) off_zero, View.ld_unit_zero (S := S2048x2048) off_zero]

end Cert.KernelIdeal.Layer

end
-- ==== Proof.KI.Halves.lean ====
/-
  The two regions' halves put into the run of the whole program: the batch-statistics region (its invariant
  carries the two running rows between grid points) and the layer region (its invariant is the class's, untouched).
-/
import proofs.«127384_j52072183496926_2_alg».proof.Proof.KI.Whole
import proofs.«127384_j52072183496926_2_alg».proof.Proof.KI.Stats
import proofs.«127384_j52072183496926_2_alg».proof.Proof.KI.Layer

noncomputable section

namespace Cert.KernelIdeal.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

/-- The batch-statistics region as the run takes it. -/
def stats : Half0 (F := F) where
  dat := Stats.dat
  A_eq := Stats.A_eq
  q_eq _ _ _ := rfl
  owed_eq _ _ _ := rfl
  rec_eq _ _ _ := rfl
  body := Stats.body_obligation
  hin := Stats.hin
  hout := Stats.hout

/-- The layer region as the run takes it. -/
def layer : Half1 (F := F) where
  dat := Layer.dat
  A_eq := Layer.A_eq
  q_eq _ _ _ := rfl
  owed_eq _ _ _ := rfl
  rec_eq _ _ _ := rfl
  body := Layer.body_obligation
  hin _ _ := .rfl
  hout _ _ := .rfl

end Cert.KernelIdeal.Whole

end
-- ==== Proof.KI.Reshaped.lean ====
/-
  What the second region finds in the two rows the host reshapes write: the scale and shift vectors, each
  recast from [2048] to [1, 2048]. A reshape moves no entry; it reads its operand after the first region,
  which does not touch the two vectors.
-/
import proofs.«127384_j52072183496926_2_alg».proof.Proof.KI.Whole
import Idealize.ShloMosaic.Lib.StableHlo.Run

set_option maxRecDepth 16384

noncomputable section

namespace Cert.KernelIdeal.Whole

open Idealize.ShloMosaic Idealize.ShloMosaic.TcCoe Idealize.SL.Sem
open Cert.KernelIdeal Cert.KernelIdeal.Gen

variable {F : FTy → Type} [FloatOps F]
variable (h0 : Half0 (F := F)) (m : (ℓ : Loc nD τ sig) → Buf (Elt F) ℓ)

/-- The scale row is the scale vector recast. -/
theorem V2_main_v1 (c : Dev nD) :
    (V2 h0 m c main_v1 : FVec F S1x2048 .f32) = shapeCast S1x2048 (m ((c : Thread nD τ).loc main_arg2) : FVec F S2048 .f32) shapeCasts_S2048_S1x2048 := by
  show StableHlo.after (hostOps1 : List (HloOp τ sig (Elt F))) (W1 h0 m c) (Proc.devRef .tc main_v1) = _
  after_results
  rw [W1_of_ne h0 m c main_arg2 (by decide)]
  rfl

/-- The shift row is the shift vector recast. -/
theorem V2_main_v2 (c : Dev nD) :
    (V2 h0 m c main_v2 : FVec F S1x2048 .f32) = shapeCast S1x2048 (m ((c : Thread nD τ).loc main_arg3) : FVec F S2048 .f32) shapeCasts_S2048_S1x2048 := by
  show StableHlo.after (hostOps1 : List (HloOp τ sig (Elt F))) (W1 h0 m c) (Proc.devRef .tc main_v2) = _
  after_results
  rw [W1_of_ne h0 m c main_arg3 (by decide)]
  rfl

end Cert.KernelIdeal.Whole

end
-- ==== Proof.KI.LayerValue.lean ====
/-
  The second pipeline's result as ONE function of the arrays it reads.

  The output array has 8192 rows and 2048 columns; the grid's point `b` (of 8) writes back rows 1024·b … 1024·b+1023.
  What it writes is the body's arithmetic `k1_pay1` of six blocks: the batch tile `b` of `x` (the same rows of `x`) and
  the five arrays that are staged whole (their one block, at index (0,0), is the array).  So the entry at row `r`,
  column `o` of the output is the arithmetic of tile `r / 1024` of `x` and the five whole arrays, read at row
  `r % 1024`, column `o` — the function `whole` below.  Each point writes back block `b` of `whole` (`flushed_eq`), the
  eight blocks tile the array (`cover`), hence after the last point the array IS `whole` (`arrAt_out`).
  `whole_apply` and `tile_apply` restate it over plain coordinates, so that nothing later looks at a block view.
-/
import proofs.«127384_j52072183496926_2_alg».proof.Proof.KI.Layer
import Idealize.ShloMosaic.Lib.Pipeline.Value
import Idealize.ShloMosaic.Lib.ValueIdx

set_option maxRecDepth 16384

noncomputable section

namespace Cert.KernelIdeal.Layer

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The function -/

/-- Batch tile `b` of `x`: its rows 1024·b … 1024·b + 1023, all columns. -/
def tile (x : Vec F S8192x2048 .f32) (b : Fin 8) : Vec F S1024x2048 .f32 :=
  fun y => x (ix2 (n0 := 8192) (n1 := 2048) ⟨1024 * b.val + (y 0).val, by have := idx2_lt0 y; omega⟩ (y 1))

/-- A tile at plain coordinates. -/
theorem tile_apply (x : Vec F S8192x2048 .f32) (b : Fin 8) (p : Fin 1024) (k : Fin 2048) :
    tile x b (ix2 p k) = x (ix2 (n0 := 8192) (n1 := 2048) ⟨1024 * b.val + p.val, by omega⟩ k) := rfl

/-- The output array as a function of the six arrays: at row `r`, column `o`, the body's arithmetic of the tile of
    `x` holding row `r` and of the five whole arrays, at row `r % 1024`, column `o`. -/
def whole (x : Vec F S8192x2048 .f32) (mu va g2 b2 : Vec F S1x2048 .f32) (w : Vec F S2048x2048 .f32) : Vec F S8192x2048 .f32 :=
  fun i => k1_pay1 (tile x ⟨(i 0).val / 1024, by have := idx2_lt0 i; omega⟩) mu va g2 b2 w
    (ix2 (n0 := 1024) (n1 := 2048) ⟨(i 0).val % 1024, Nat.mod_lt _ (by decide)⟩ (i 1))

/-- `whole` at an index known by its tile `b` and its position `y` inside the tile. -/
theorem whole_at (x : Vec F S8192x2048 .f32) (mu va g2 b2 : Vec F S1x2048 .f32) (w : Vec F S2048x2048 .f32)
    (b : Fin 8) (y : S1024x2048.Idx) (i : S8192x2048.Idx)
    (h0 : (i 0).val = 1024 * b.val + (y 0).val) (h1 : (i 1).val = (y 1).val) :
    whole x mu va g2 b2 w i = k1_pay1 (tile x b) mu va g2 b2 w y := by
  have hy0 := idx2_lt0 y
  have key : ∀ (b' : Fin 8) (y' : S1024x2048.Idx), b' = b → y' = y →
      k1_pay1 (tile x b') mu va g2 b2 w y' = k1_pay1 (tile x b) mu va g2 b2 w y := by
    rintro _ _ rfl rfl; rfl
  refine key _ _ (Fin.ext ?_) (funext fun a => ?_)
  · show (i 0).val / 1024 = b.val
    omega
  · match a with
    | ⟨0, _⟩ => exact Fin.ext (by show (i 0).val % 1024 = (y 0).val; omega)
    | ⟨1, _⟩ => exact Fin.ext h1

/-- `whole` at plain coordinates: tile `b`, row `p` of the tile, column `o`. -/
theorem whole_apply (x : Vec F S8192x2048 .f32) (mu va g2 b2 : Vec F S1x2048 .f32) (w : Vec F S2048x2048 .f32)
    (b : Fin 8) (p : Fin 1024) (o : Fin 2048) :
    whole x mu va g2 b2 w (ix2 (n0 := 8192) (n1 := 2048) ⟨1024 * b.val + p.val, by omega⟩ o)
      = k1_pay1 (tile x b) mu va g2 b2 w (ix2 p o) :=
  whole_at x mu va g2 b2 w b (ix2 p o) _ rfl rfl

/-! ## The blocks in coordinates -/

/-- A grid point as a number below 8. -/
def pt (t : Fin cfg1.N) : Fin 8 := ⟨t.val, by have := t.isLt; have h : cfg1.N = 8 := N_1; omega⟩

/-- The printed index maps, decided over the 8 points: windows 0 and 6 sit at block (t, 0), windows 1–5 at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt F) ((c : Thread nD τ).loc b))

/-- Window 0's block at point `t` is tile `t` of `x`. -/
theorem iblk_0 (c : Dev nD) (t : Fin cfg1.N) :
    (iblk V c 0 t : Vec F S1024x2048 .f32) = tile (V c main_arg0 : Vec F S8192x2048 .f32) (pt t) := by
  obtain ⟨e0, e1, -⟩ := idx_facts t
  funext y
  unfold iblk
  rw [View.read_apply]
  show (V c main_arg0 : Vec F S8192x2048 .f32) _ = (V c main_arg0 : Vec F S8192x2048 .f32) _
  congr 1
  funext a
  apply Fin.ext
  match a with
  | ⟨0, _⟩ => show win1_0.index t (0 : Fin 2) * 1024 + 1 * (y 0).val = 1024 * t.val + (y 0).val; rw [e0]; omega
  | ⟨1, _⟩ => show win1_0.index t (1 : Fin 2) * 2048 + 1 * (y 1).val = (y 1).val; rw [e1]; omega

/-- Windows 1–4's one block is their whole row. -/
theorem iblk_1 (c : Dev nD) (t : Fin cfg1.N) : (iblk V c 1 t : Vec F S1x2048 .f32) = (V c main_v0_0 : Vec F S1x2048 .f32) := by
  obtain ⟨-, -, e0, e1, -⟩ := idx_facts t
  funext y
  unfold iblk
  rw [View.read_apply]
  show (V c main_v0_0 : Vec F S1x2048 .f32) _ = (V c main_v0_0 : Vec F S1x2048 .f32) _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 2048 + 1 * (y 1).val = (y 1).val; rw [e1]; omega

theorem iblk_2 (c : Dev nD) (t : Fin cfg1.N) : (iblk V c 2 t : Vec F S1x2048 .f32) = (V c main_v0_1 : Vec F S1x2048 .f32) := by
  obtain ⟨-, -, -, -, e0, e1, -⟩ := idx_facts t
  funext y
  unfold iblk
  rw [View.read_apply]
  show (V c main_v0_1 : Vec F S1x2048 .f32) _ = (V c main_v0_1 : Vec F S1x2048 .f32) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 2048 + 1 * (y 1).val = (y 1).val; rw [e1]; omega

theorem iblk_3 (c : Dev nD) (t : Fin cfg1.N) : (iblk V c 3 t : Vec F S1x2048 .f32) = (V c main_v1 : Vec F S1x2048 .f32) := by
  obtain ⟨-, -, -, -, -, -, e0, e1, -⟩ := idx_facts t
  funext y
  unfold iblk
  rw [View.read_apply]
  show (V c main_v1 : Vec F S1x2048 .f32) _ = (V c main_v1 : Vec F S1x2048 .f32) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 2048 + 1 * (y 1).val = (y 1).val; rw [e1]; omega

theorem iblk_4 (c : Dev nD) (t : Fin cfg1.N) : (iblk V c 4 t : Vec F S1x2048 .f32) = (V c main_v2 : Vec F S1x2048 .f32) := by
  obtain ⟨-, -, -, -, -, -, -, -, e0, e1, -⟩ := idx_facts t
  funext y
  unfold iblk
  rw [View.read_apply]
  show (V c main_v2 : Vec F S1x2048 .f32) _ = (V c main_v2 : Vec F S1x2048 .f32) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 2048 + 1 * (y 1).val = (y 1).val; rw [e1]; omega

/-- Window 5's one block is the whole weight. -/
theorem iblk_5 (c : Dev nD) (t : Fin cfg1.N) : (iblk V c 5 t : Vec F S2048x2048 .f32) = (V c main_arg1 : Vec F S2048x2048 .f32) := by
  obtain ⟨-, -, -, -, -, -, -, -, -, -, e0, e1, -⟩ := idx_facts t
  funext y
  unfold iblk
  rw [View.read_apply]
  show (V c main_arg1 : Vec F S2048x2048 .f32) _ = (V c main_arg1 : Vec F S2048x2048 .f32) _
  congr 1
  funext a
  apply Fin.ext
  match a with
  | ⟨0, _⟩ => show win1_5.index t (0 : Fin 2) * 2048 + 1 * (y 0).val = (y 0).val; rw [e0]; omega
  | ⟨1, _⟩ => show win1_5.index t (1 : Fin 2) * 2048 + 1 * (y 1).val = (y 1).val; rw [e1]; omega

/-! ## What each point writes back, and the array after the last point -/

/-- Point `t` writes back block `t` of `whole` of the arrays as the region finds them. -/
theorem flushed_eq (c : Dev nD) (t : Fin cfg1.N) :
    (dat V c).flushed 6 t = ((cfg1.win 6).blk t).view.read (Elt F)
      (whole (V c main_arg0) (V c main_v0_0) (V c main_v0_1) (V c main_v1) (V c main_v2) (V c main_arg1)) := by
  obtain ⟨-, -, -, -, -, -, -, -, -, -, -, -, e0, e1⟩ := idx_facts t
  show (cfg1.win 6).cut (grid1.coords t) ((dat V c).after 6 t) = _
  rw [after_6, out6_eq, iblk_0 V c t, iblk_1 V c t, iblk_2 V c t, iblk_3 V c t, iblk_4 V c t, iblk_5 V c t]
  funext y
  rw [View.read_apply]
  refine (whole_at _ _ _ _ _ _ (pt t) y _ ?_ ?_).symm
  · show win1_6.index t (0 : Fin 2) * 1024 + 1 * (y 0).val = 1024 * t.val + (y 0).val
    rw [e0]; omega
  · show win1_6.index t (1 : Fin 2) * 2048 + 1 * (y 1).val = (y 1).val
    rw [e1]; omega

/-- An index of the output array is in point `t`'s block iff each coordinate is in the block's range on its axis. -/
theorem mem_blk (t : Fin cfg1.N) (i : S8192x2048.Idx) :
    i ∈ ((cfg1.win 6).blk t).view.set ↔ ∀ a : Fin 2, win1_6.index t a * S1024x2048.size a ≤ (i a).val ∧ (i a).val < win1_6.index t a * S1024x2048.size a + S1024x2048.size a := by
  show i ∈ ((View.whole main_v3).slice (win1_6.rect t)).set ↔ _
  rw [View.set_slice_whole, Rect.mem_set_unit]
  exact Iff.rfl

/-- The eight blocks tile the output array: row `r` lies in the block of point `r / 1024`. -/
theorem cover (i : S8192x2048.Idx) :
    ∃ t : Fin cfg1.N, (cfg1.win 6).flush t = true ∧ i ∈ ((cfg1.win 6).blk t).view.set := by
  have hi0 := idx2_lt0 i
  have hi1 := idx2_lt1 i
  have hN : cfg1.N = 8 := N_1
  refine ⟨⟨(i 0).val / 1024, by omega⟩, flush1_6 _, ?_⟩
  obtain ⟨-, -, -, -, -, -, -, -, -, -, -, -, e0, e1⟩ := idx_facts ⟨(i 0).val / 1024, by omega⟩
  rw [mem_blk]
  intro a
  match a with
  | ⟨0, _⟩ =>
    show win1_6.index _ (0 : Fin 2) * 1024 ≤ (i 0).val ∧ (i 0).val < win1_6.index _ (0 : Fin 2) * 1024 + 1024
    rw [e0]; show (i 0).val / 1024 * 1024 ≤ (i 0).val ∧ (i 0).val < (i 0).val / 1024 * 1024 + 1024; omega
  | ⟨1, _⟩ =>
    show win1_6.index _ (1 : Fin 2) * 2048 ≤ (i 1).val ∧ (i 1).val < win1_6.index _ (1 : Fin 2) * 2048 + 2048
    rw [e1]; omega

/-- After the last point the output array is `whole` of the six arrays as the region finds them. -/
theorem arrAt_out (c : Dev nD) :
    (dat V c).arrAt 6 cfg1.N
      = whole (V c main_arg0) (V c main_v0_0) (V c main_v0_1) (V c main_v1) (V c main_v2) (V c main_arg1) :=
  (dat V c).arrAt_eq_of_cover 6 _ (fun t _ => flushed_eq V c t) cover

end Cert.KernelIdeal.Layer

end
-- ==== Proof.KI.LayerEntry.lean ====
/-
  One entry of the second kernel's arithmetic, over the extended reals and in plain coordinates.

  The body's payload is a tree of whole-block operations.  Read at row `p`, column `o` of the output tile it is
      min(1, max(−1,  Σₖ xn(p,k)·wbin(o,k)  +  Σₖ (xn(p,k) − xn(p,k))·wbin(o,k) )),
  where `xn(p,k) = (x(p,k) − mean(k)) · rsqrt(var(k) + ε) · scale(k) + shift(k)` is the normalised activation and
  `wbin(o,k)` is +1 or −1 according to the sign test `w(o,k) ≥ 0`.  Both matrix products contract the SECOND axis of
  both operands (the weight is used transposed), each accumulates into zeros, and over the extended reals the
  narrowing to a 16-bit format in front of them changes nothing.  The second product is the kernel's split of the
  activation into a 16-bit part and a remainder; over the extended reals the remainder is `xn − xn`.  Nothing here
  simplifies that: the statement keeps the sum as the kernel forms it.
-/
import proofs.«127384_j52072183496926_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Layer

open Cert.KernelIdeal Cert.KernelIdeal.Gen
open Idealize.ShloMosaic Idealize.ShloMosaic.ValueIdx

/-! ## The two factors of a product's term -/

/-- The normalised activation at row `p`, feature `k`: subtract the mean, multiply by the reciprocal square root
    of the variance plus ε (the word 0x3727C5AC), scale, shift. -/
def xn (x0 : Vec Ideal S1024x2048 .f32) (x1 x2 x3 x4 : Vec Ideal S1x2048 .f32) (p : Fin 1024) (k : Fin 2048) : EReal :=
  (x0 (ix2 p k) - x1 (ix2 (0 : Fin 1) k)) * Ideal.rsqrt (x2 (ix2 (0 : Fin 1) k) + Ideal.ofBits .f32 0x3727C5AC#32)
    * x3 (ix2 (0 : Fin 1) k) + x4 (ix2 (0 : Fin 1) k)

/-- The binarised weight at output feature `o`, input feature `k`: the word of 1 where `w ≥ 0`, of −1 elsewhere. -/
def wbin (x5 : Vec Ideal S2048x2048 .f32) (o k : Fin 2048) : EReal :=
  Scalar.select (Ideal.cmp .oge (x5 (ix2 o k)) (Ideal.ofBits .f32 0x00000000#32))
    (Ideal.ofBits .f32 0x3F800000#32) (Ideal.ofBits .f32 0xBF800000#32)

/-! ## The matrix product at an entry -/

/-- On the left operand's row axis the product's index is the output's row, -/
theorem lhs_row (i : S1024x2048.Idx) (q : dot_S1024x2048_S2048x2048_S1024x2048_1_1_0_0_n_n.contr.Idx) :
    (dot_S1024x2048_S2048x2048_S1024x2048_1_1_0_0_n_n.lhsIdx i q 0).val = (i 0).val := by
  unfold DotDims.lhsIdx
  rw [dif_neg (show ¬(0 : Fin S1024x2048.rank) ∈ dot_S1024x2048_S2048x2048_S1024x2048_1_1_0_0_n_n.lhsBatch by decide),
    dif_pos (show (0 : Fin S1024x2048.rank) ∈ dot_S1024x2048_S2048x2048_S1024x2048_1_1_0_0_n_n.lhsNonContracting by decide)]
  rfl

/-- on its column axis the contraction position; -/
theorem lhs_col (i : S1024x2048.Idx) (q : dot_S1024x2048_S2048x2048_S1024x2048_1_1_0_0_n_n.contr.Idx) :
    (dot_S1024x2048_S2048x2048_S1024x2048_1_1_0_0_n_n.lhsIdx i q 1).val = (q ⟨0, by decide⟩).val :=
  dot_S1024x2048_S2048x2048_S1024x2048_1_1_0_0_n_n.lhsIdx_val_of_single rfl i q

/-- on the right operand's row axis it is the output's COLUMN, -/
theorem rhs_row (i : S1024x2048.Idx) (q : dot_S1024x2048_S2048x2048_S1024x2048_1_1_0_0_n_n.contr.Idx) :
    (dot_S1024x2048_S2048x2048_S1024x2048_1_1_0_0_n_n.rhsIdx i q 0).val = (i 1).val := by
  unfold DotDims.rhsIdx
  rw [dif_neg (show ¬(0 : Fin S2048x2048.rank) ∈ dot_S1024x2048_S2048x2048_S1024x2048_1_1_0_0_n_n.rhsBatch by decide),
    dif_pos (show (0 : Fin S2048x2048.rank) ∈ dot_S1024x2048_S2048x2048_S1024x2048_1_1_0_0_n_n.rhsNonContracting by decide)]
  rfl

/-- and on its column axis the contraction position again. -/
theorem rhs_col (i : S1024x2048.Idx) (q : dot_S1024x2048_S2048x2048_S1024x2048_1_1_0_0_n_n.contr.Idx) :
    (dot_S1024x2048_S2048x2048_S1024x2048_1_1_0_0_n_n.rhsIdx i q 1).val = (q ⟨0, by decide⟩).val :=
  dot_S1024x2048_S2048x2048_S1024x2048_1_1_0_0_n_n.rhsIdx_val_of_single rfl i q

/-- The kernel's matrix product into a zero accumulator, at row `p`, column `o`: the sum over the shared feature
    axis of left(p,k) · right(o,k). -/
theorem matmul_entry {φ₁ φ₂ : FTy} (A : FVec Ideal S1024x2048 φ₁) (B : FVec Ideal S2048x2048 φ₂) (p : Fin 1024) (o : Fin 2048) :
    matmul dot_S1024x2048_S2048x2048_S1024x2048_1_1_0_0_n_n none A B (constant (F := Ideal) S1024x2048 .f32 0x00000000#32) (ix2 p o)
      = ∑ k : Fin 2048, A (ix2 p k) * B (ix2 o k) := by
  simp only [matmul]
  rw [Ideal.matmul_constant_zero_apply,
    ← Equiv.sum_comp (contrEquiv1 dot_S1024x2048_S2048x2048_S1024x2048_1_1_0_0_n_n 2048 rfl rfl).symm]
  refine Finset.sum_congr rfl fun k _ => ?_
  have hk := contrEquiv1_symm_val dot_S1024x2048_S2048x2048_S1024x2048_1_1_0_0_n_n 2048 rfl rfl k
  have el : dot_S1024x2048_S2048x2048_S1024x2048_1_1_0_0_n_n.lhsIdx (ix2 p o)
      ((contrEquiv1 dot_S1024x2048_S2048x2048_S1024x2048_1_1_0_0_n_n 2048 rfl rfl).symm k) = ix2 p k :=
    funext fun a => Fin.ext (by
      match a with
      | ⟨0, _⟩ => exact lhs_row _ _
      | ⟨1, _⟩ => exact (lhs_col _ _).trans hk)
  have er : dot_S1024x2048_S2048x2048_S1024x2048_1_1_0_0_n_n.rhsIdx (ix2 p o)
      ((contrEquiv1 dot_S1024x2048_S2048x2048_S1024x2048_1_1_0_0_n_n 2048 rfl rfl).symm k) = ix2 o k :=
    funext fun a => Fin.ext (by
      match a with
      | ⟨0, _⟩ => exact rhs_row _ _
      | ⟨1, _⟩ => exact (rhs_col _ _).trans hk)
  rw [el, er]

/-! ## The two operands as whole blocks -/

/-- The normalised activation block, as the payload builds it. -/
def xnV (x0 : Vec Ideal S1024x2048 .f32) (x1 x2 x3 x4 : Vec Ideal S1x2048 .f32) : FVec Ideal S1024x2048 .f32 :=
  addf (mulf (mulf (subf x0 (broadcastTo S1024x2048 (shapeCast S1x2048 x1 shapeCasts_S1x2048_S1x2048) broadcasts_S1x2048_S1024x2048))
        (broadcastTo S1024x2048 (rsqrt (addf (shapeCast S1x2048 x2 shapeCasts_S1x2048_S1x2048)
          (broadcast S1x2048 (Scalar.ofBits (F := Ideal) .f32 0x3727C5AC#32)))) broadcasts_S1x2048_S1024x2048))
      (broadcastTo S1024x2048 (shapeCast S1x2048 x3 shapeCasts_S1x2048_S1x2048) broadcasts_S1x2048_S1024x2048))
    (broadcastTo S1024x2048 (shapeCast S1x2048 x4 shapeCasts_S1x2048_S1x2048) broadcasts_S1x2048_S1024x2048)

/-- The binarised weight block, as the payload builds it. -/
def wbV (x5 : Vec Ideal S2048x2048 .f32) : FVec Ideal S2048x2048 .f32 :=
  select (cmpf .oge x5 (broadcast S2048x2048 (Scalar.ofBits (F := Ideal) .f32 0x00000000#32)))
    (broadcast S2048x2048 (Scalar.ofBits (F := Ideal) .f32 0x3F800000#32))
    (broadcast S2048x2048 (Scalar.ofBits (F := Ideal) .f32 0xBF800000#32))

/-- The payload is the clamp of the two products of those blocks (its bindings substituted, nothing computed). -/
theorem pay_blocks (x0 : Vec Ideal S1024x2048 .f32) (x1 x2 x3 x4 : Vec Ideal S1x2048 .f32) (x5 : Vec Ideal S2048x2048 .f32) :
    k1_pay1 (F := Ideal) x0 x1 x2 x3 x4 x5
      = minimumf (broadcast S1024x2048 (Scalar.ofBits (F := Ideal) .f32 0x3F800000#32))
          (maximumf (broadcast S1024x2048 (Scalar.ofBits (F := Ideal) .f32 0xBF800000#32))
            (addf
              (matmul dot_S1024x2048_S2048x2048_S1024x2048_1_1_0_0_n_n none
                (truncf .bf16 (xnV x0 x1 x2 x3 x4) bitsLt_bf16_f32) (truncf .bf16 (wbV x5) bitsLt_bf16_f32)
                (constant (F := Ideal) S1024x2048 .f32 0x00000000#32))
              (matmul dot_S1024x2048_S2048x2048_S1024x2048_1_1_0_0_n_n none
                (truncf .bf16 (subf (xnV x0 x1 x2 x3 x4) (xnV x0 x1 x2 x3 x4)) bitsLt_bf16_f32) (truncf .bf16 (wbV x5) bitsLt_bf16_f32)
                (constant (F := Ideal) S1024x2048 .f32 0x00000000#32)))) := rfl

/-- The activation block at an entry. -/
theorem xnV_apply (x0 : Vec Ideal S1024x2048 .f32) (x1 x2 x3 x4 : Vec Ideal S1x2048 .f32) (p : Fin 1024) (k : Fin 2048) :
    xnV x0 x1 x2 x3 x4 (ix2 p k) = xn x0 x1 x2 x3 x4 p k := by
  unfold xnV xn
  simp only [shapeCast_self]
  show (x0 (ix2 p k) - broadcastTo S1024x2048 x1 broadcasts_S1x2048_S1024x2048 (ix2 p k))
      * broadcastTo S1024x2048 (rsqrt (addf x2 (broadcast S1x2048 (Scalar.ofBits (F := Ideal) .f32 0x3727C5AC#32)))) broadcasts_S1x2048_S1024x2048 (ix2 p k)
      * broadcastTo S1024x2048 x3 broadcasts_S1x2048_S1024x2048 (ix2 p k)
      + broadcastTo S1024x2048 x4 broadcasts_S1x2048_S1024x2048 (ix2 p k) = _
  rw [broadcastTo_1b_ab_apply, broadcastTo_1b_ab_apply, broadcastTo_1b_ab_apply, broadcastTo_1b_ab_apply]
  rfl

/-- The weight block at an entry. -/
theorem wbV_apply (x5 : Vec Ideal S2048x2048 .f32) (o k : Fin 2048) : wbV x5 (ix2 o k) = wbin x5 o k := rfl

/-! ## The payload at an entry -/

theorem pay_apply (x0 : Vec Ideal S1024x2048 .f32) (x1 x2 x3 x4 : Vec Ideal S1x2048 .f32) (x5 : Vec Ideal S2048x2048 .f32)
    (p : Fin 1024) (o : Fin 2048) :
    k1_pay1 (F := Ideal) x0 x1 x2 x3 x4 x5 (ix2 p o)
      = min (Ideal.ofBits .f32 0x3F800000#32) (max (Ideal.ofBits .f32 0xBF800000#32)
          ((∑ k : Fin 2048, xn x0 x1 x2 x3 x4 p k * wbin x5 o k)
            + ∑ k : Fin 2048, (xn x0 x1 x2 x3 x4 p k - xn x0 x1 x2 x3 x4 p k) * wbin x5 o k)) := by
  rw [pay_blocks]
  show min (Ideal.ofBits .f32 0x3F800000#32) (max (Ideal.ofBits .f32 0xBF800000#32)
      (matmul dot_S1024x2048_S2048x2048_S1024x2048_1_1_0_0_n_n none
          (truncf .bf16 (xnV x0 x1 x2 x3 x4) bitsLt_bf16_f32) (truncf .bf16 (wbV x5) bitsLt_bf16_f32)
          (constant (F := Ideal) S1024x2048 .f32 0x00000000#32) (ix2 p o)
        + matmul dot_S1024x2048_S2048x2048_S1024x2048_1_1_0_0_n_n none
          (truncf .bf16 (subf (xnV x0 x1 x2 x3 x4) (xnV x0 x1 x2 x3 x4)) bitsLt_bf16_f32) (truncf .bf16 (wbV x5) bitsLt_bf16_f32)
          (constant (F := Ideal) S1024x2048 .f32 0x00000000#32) (ix2 p o))) = _
  rw [matmul_entry, matmul_entry]
  refine congrArg (fun s => min (Ideal.ofBits .f32 0x3F800000#32) (max (Ideal.ofBits .f32 0xBF800000#32) s)) ?_
  refine congrArg₂ (· + ·) (Finset.sum_congr rfl fun k _ => ?_) (Finset.sum_congr rfl fun k _ => ?_)
  · show xnV x0 x1 x2 x3 x4 (ix2 p k) * wbV x5 (ix2 o k) = _
    rw [xnV_apply, wbV_apply]
  · show (xnV x0 x1 x2 x3 x4 (ix2 p k) - xnV x0 x1 x2 x3 x4 (ix2 p k)) * wbV x5 (ix2 o k) = _
    rw [xnV_apply, wbV_apply]

end Cert.KernelIdeal.Layer

end
-- ==== Proof.LibBatchNormSign.lean ====
import Idealize.ShloMosaic.PureOps.Ideal
import Idealize.ShloMosaic.PureOps.Ideal.Laws

/-!
# Batch normalisation followed by a binarised linear map: the mathematics

A batch of rows `x r` (features `k`) is normalised feature by feature with the batch mean and
the batch variance, scaled and shifted, multiplied by the sign pattern of a weight matrix and
clipped to `[-1, 1]`. Two ways of writing this down differ only in

* how the variance is taken: the mean of the squared deviations, or the mean of the squares
  minus the square of the mean;
* how the sign pattern is spelt: `s` itself, or `w + (s - w)`;
* a second product with the zero matrix `a - a`, added to the first;
* a guard `N - 0 > 0` around the quotient by the batch size `N`;
* the order in which a column of the batch is summed: row by row, or tile by tile with a
  running total.

Each difference is one law below. The values are extended reals; the laws that move a factor
across a sum, or cancel, hold for real numbers only, and say so by an `IsReal` hypothesis.
Nothing here mentions a program or a shape: index sets are arbitrary finite types.
-/

noncomputable section

namespace Cert.Spec

open Idealize.ShloMosaic
open scoped BigOperators

/-! ## Real values among the extended reals -/

/-- An extended real that is a real number: neither of the two infinities. -/
def IsReal (a : EReal) : Prop := ∃ r : ℝ, a = (r : EReal)

/-- Every real number is one. -/
theorem isReal_coe (r : ℝ) : IsReal (r : EReal) := ⟨r, rfl⟩

/-- Zero is real. -/
theorem isReal_zero : IsReal 0 := ⟨0, EReal.coe_zero.symm⟩

/-- One is real. -/
theorem isReal_one : IsReal 1 := ⟨1, EReal.coe_one.symm⟩

/-- The sum of two reals is real. -/
theorem IsReal.add {a b : EReal} (ha : IsReal a) (hb : IsReal b) : IsReal (a + b) := by
  obtain ⟨r, rfl⟩ := ha; obtain ⟨s, rfl⟩ := hb; exact ⟨r + s, (EReal.coe_add r s).symm⟩

/-- The difference of two reals is real. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The product of two reals is real. -/
theorem IsReal.mul {a b : EReal} (ha : IsReal a) (hb : IsReal b) : IsReal (a * b) := by
  obtain ⟨r, rfl⟩ := ha; obtain ⟨s, rfl⟩ := hb; exact ⟨r * s, (EReal.coe_mul r s).symm⟩

/-- The negative of a real is real. -/
theorem IsReal.neg {a : EReal} (ha : IsReal a) : IsReal (-a) := by
  obtain ⟨r, rfl⟩ := ha; exact ⟨-r, (EReal.coe_neg r).symm⟩

/-- Minus one is real. -/
theorem isReal_neg_one : IsReal (-1) := isReal_one.neg

/-- The coercion of the reals into the extended reals commutes with finite sums. -/
theorem coe_sum {α : Type} (s : Finset α) (f : α → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {α : Type} (s : Finset α) (f : α → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The quotient of a real by a nonzero real, in the extended reals' division, is the real
    quotient. -/
theorem div_coe_coe (a n : ℝ) (hn : n ≠ 0) : Ideal.div (a : EReal) (n : EReal) = ((a / n : ℝ) : EReal) := by
  rw [Ideal.div_coe hn, ← EReal.coe_mul, mul_one_div]

/-- The quotient of a real by a nonzero real is real. -/
theorem IsReal.div {a b : EReal} (ha : IsReal a) {n : ℝ} (hb : b = (n : EReal)) (hn : n ≠ 0) :
    IsReal (Ideal.div a b) := by
  obtain ⟨r, rfl⟩ := ha; subst hb; exact ⟨r / n, div_coe_coe r n hn⟩

/-! ## The float literals -/

/-- The word `0x46000000` is the float 8192, the batch size. -/
theorem ofBits_8192 : Ideal.ofBits .f32 0x46000000#32 = ((8192 : ℝ) : EReal) := by
  simp [Ideal.ofBits, Ideal.ieee, -EReal.coe_mul]; norm_num

/-- The word `0x3F800000` is the float 1. -/
theorem ofBits_one : Ideal.ofBits .f32 0x3F800000#32 = 1 := by
  simp [Ideal.ofBits, Ideal.ieee, -EReal.coe_mul]; norm_num

/-- The word `0xBF800000` is the float -1. -/
theorem ofBits_neg_one : Ideal.ofBits .f32 0xBF800000#32 = -1 := by
  simp [Ideal.ofBits, Ideal.ieee, -EReal.coe_mul]; norm_num

/-- The all-zero word is the float 0. -/
theorem ofBits_zero : Ideal.ofBits .f32 0x00000000#32 = 0 := Ideal.ofBits_zero_f32

/-- The word `0x3727C5AC` (the float nearest to one hundred-thousandth, the stabiliser under the
    square root) is a positive real number: `10995116 · 2⁻⁴⁰`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The stabiliser is real. -/
theorem isReal_eps : IsReal (Ideal.ofBits .f32 0x3727C5AC#32) := by
  obtain ⟨e, _, h⟩ := ofBits_eps; exact ⟨e, h⟩

/-- The stabiliser is positive. -/
theorem eps_pos : (0 : EReal) < Ideal.ofBits .f32 0x3727C5AC#32 := by
  obtain ⟨e, he, h⟩ := ofBits_eps; rw [h]; exact_mod_cast he

/-- The batch size is real. -/
theorem isReal_N : IsReal (Ideal.ofBits .f32 0x46000000#32) := ⟨8192, ofBits_8192⟩

/-- The batch size is positive. -/
theorem N_pos : (0 : EReal) < Ideal.ofBits .f32 0x46000000#32 := by
  rw [ofBits_8192]; exact_mod_cast (by norm_num : (0 : ℝ) < 8192)

/-! ## The variance, two ways -/

/-- In the reals: the mean of the squared deviations from the mean is the mean of the squares
    minus the square of the mean. -/
theorem variance_real {ι : Type} [Fintype ι] (r : ι → ℝ) (n : ℝ) (hn : n ≠ 0)
    (hcard : (Fintype.card ι : ℝ) = n) :
    (∑ b, (r b - (∑ b, r b) / n) * (r b - (∑ b, r b) / n)) / n
      = (∑ b, r b * r b) / n - ((∑ b, r b) / n) * ((∑ b, r b) / n) := by
  generalize hS : (∑ b, r b) = S
  generalize hm : S / n = m
  have h1 : ∑ b, (r b - m) * (r b - m) = ∑ b, r b * r b - 2 * m * S + n * (m * m) := by
    have h : ∀ b, (r b - m) * (r b - m) = r b * r b - 2 * m * r b + m * m := fun b => by ring
    simp only [h]
    rw [Finset.sum_add_distrib, Finset.sum_sub_distrib, ← Finset.mul_sum, hS, Finset.sum_const,
      Finset.card_univ, nsmul_eq_mul, hcard]
  rw [h1, ← hm]
  field_simp
  ring

/-- The batch statistics of a real column `x` of `n` entries, with real witnesses: the mean
    `mu = (∑ x) / n` is a real `m`; the mean of the squared deviations and the mean of the squares
    minus `mu²` are one real `v`, and `v` is not negative. -/
theorem variance_spec {ι : Type} [Fintype ι] (x : ι → EReal) (hx : ∀ b, IsReal (x b))
    (Nn : EReal) (n : ℝ) (hN : Nn = (n : EReal)) (hn : 0 < n) (hcard : (Fintype.card ι : ℝ) = n)
    (mu : EReal) (hmu : mu = Ideal.div (∑ b, x b) Nn) :
    ∃ m v : ℝ, 0 ≤ v ∧ mu = (m : EReal)
      ∧ Ideal.div (∑ b, (x b - mu) * (x b - mu)) Nn = (v : EReal)
      ∧ Ideal.div (∑ b, x b * x b) Nn - mu * mu = (v : EReal) := by
  choose r hr using hx
  obtain rfl : x = fun b => (r b : EReal) := funext hr
  subst hN
  have hmu' : mu = (((∑ b, r b) / n : ℝ) : EReal) := by
    rw [hmu, ← coe_sum, div_coe_coe _ _ hn.ne']
  refine ⟨(∑ b, r b) / n, (∑ b, (r b - (∑ b, r b) / n) * (r b - (∑ b, r b) / n)) / n,
    div_nonneg (Finset.sum_nonneg fun b _ => mul_self_nonneg _) hn.le, hmu', ?_, ?_⟩
  · rw [hmu']
    simp only [← EReal.coe_sub, ← EReal.coe_mul, ← coe_sum]
    rw [div_coe_coe _ _ hn.ne']
  · rw [hmu']
    simp only [← EReal.coe_mul, ← coe_sum]
    rw [div_coe_coe _ _ hn.ne', ← EReal.coe_sub, variance_real r n hn.ne' hcard]

/-- The variance, two ways: for a real column of `n` entries, the mean of the squared deviations
    from the mean equals the mean of the squares minus the square of the mean. -/
theorem variance_two_ways {ι : Type} [Fintype ι] (x : ι → EReal) (hx : ∀ b, IsReal (x b))
    (Nn : EReal) (n : ℝ) (hN : Nn = (n : EReal)) (hn : 0 < n) (hcard : (Fintype.card ι : ℝ) = n)
    (mu : EReal) (hmu : mu = Ideal.div (∑ b, x b) Nn) :
    Ideal.div (∑ b, (x b - mu) * (x b - mu)) Nn = Ideal.div (∑ b, x b * x b) Nn - mu * mu := by
  obtain ⟨m, v, _, _, h1, h2⟩ := variance_spec x hx Nn n hN hn hcard mu hmu
  rw [h1, h2]

/-- The mean of a real column is real. -/
theorem isReal_mean {ι : Type} [Fintype ι] (x : ι → EReal) (hx : ∀ b, IsReal (x b))
    (Nn : EReal) (n : ℝ) (hN : Nn = (n : EReal)) (hn : n ≠ 0) : IsReal (Ideal.div (∑ b, x b) Nn) :=
  (isReal_sum _ _ fun b _ => hx b).div hN hn

/-- The variance of a real column (mean of the squares minus the square of the mean) is real. -/
theorem isReal_variance {ι : Type} [Fintype ι] (x : ι → EReal) (hx : ∀ b, IsReal (x b))
    (Nn : EReal) (n : ℝ) (hN : Nn = (n : EReal)) (hn : 0 < n) (hcard : (Fintype.card ι : ℝ) = n)
    (mu : EReal) (hmu : mu = Ideal.div (∑ b, x b) Nn) :
    IsReal (Ideal.div (∑ b, x b * x b) Nn - mu * mu) := by
  obtain ⟨m, v, _, _, _, h2⟩ := variance_spec x hx Nn n hN hn hcard mu hmu
  exact ⟨v, h2⟩

/-- The variance of a real column is not negative: it is a mean of squares of reals. -/
theorem variance_nonneg {ι : Type} [Fintype ι] (x : ι → EReal) (hx : ∀ b, IsReal (x b))
    (Nn : EReal) (n : ℝ) (hN : Nn = (n : EReal)) (hn : 0 < n) (hcard : (Fintype.card ι : ℝ) = n)
    (mu : EReal) (hmu : mu = Ideal.div (∑ b, x b) Nn) :
    0 ≤ Ideal.div (∑ b, x b * x b) Nn - mu * mu := by
  obtain ⟨m, v, hv, _, _, h2⟩ := variance_spec x hx Nn n hN hn hcard mu hmu
  rw [h2]; exact_mod_cast hv

/-! ## The reciprocal square root of a positive real is real -/

/-- At a positive real the reciprocal square root is the real `(√a)⁻¹`. -/
theorem isReal_rsqrt_of_pos {a : EReal} (ha : IsReal a) (hpos : 0 < a) : IsReal (Ideal.rsqrt a) := by
  obtain ⟨r, rfl⟩ := ha
  have hr : 0 < r := by exact_mod_cast hpos
  rw [Ideal.rsqrt_coe, if_neg (not_lt.mpr hr.le), if_neg hr.ne']
  exact ⟨_, rfl⟩

/-- A real that is not negative plus a positive real is positive. -/
theorem real_add_pos {v e : EReal} (hv : IsReal v) (h0 : 0 ≤ v) (he : IsReal e) (hpos : 0 < e) :
    0 < v + e := by
  obtain ⟨r, rfl⟩ := hv; obtain ⟨s, rfl⟩ := he
  have hr : 0 ≤ r := by exact_mod_cast h0
  have hs : 0 < s := by exact_mod_cast hpos
  rw [← EReal.coe_add]; exact_mod_cast add_pos_of_nonneg_of_pos hr hs

/-- The reciprocal square root of a variance plus the stabiliser is real. -/
theorem isReal_rsqrt_add_eps {v : EReal} (hv : IsReal v) (h0 : 0 ≤ v) :
    IsReal (Ideal.rsqrt (v + Ideal.ofBits .f32 0x3727C5AC#32)) :=
  isReal_rsqrt_of_pos (hv.add isReal_eps) (real_add_pos hv h0 isReal_eps eps_pos)

/-! ## The normalised entry is real -/

/-- Centred, scaled by the reciprocal standard deviation and by `g`, shifted by `be`: real
    operands give a real entry. -/
theorem isReal_normalised {x mu rs g be : EReal} (hx : IsReal x) (hmu : IsReal mu) (hrs : IsReal rs)
    (hg : IsReal g) (hbe : IsReal be) : IsReal ((x - mu) * rs * g + be) :=
  (((hx.sub hmu).mul hrs).mul hg).add hbe

/-! ## The sign pattern written as `w + (s - w)` -/

/-- For reals, `w + (s - w) = s`. -/
theorem add_sub_cancel_real {w s : EReal} (hw : IsReal w) (hs : IsReal s) : w + (s - w) = s := by
  obtain ⟨a, rfl⟩ := hw; obtain ⟨b, rfl⟩ := hs
  rw [← EReal.coe_sub, ← EReal.coe_add, add_sub_cancel]

/-- A choice between two reals is real. -/
theorem isReal_select {a b : EReal} (c : BitVec 1) (ha : IsReal a) (hb : IsReal b) :
    IsReal (Scalar.select c a b) := by
  unfold Scalar.select; split <;> assumption

/-- The sign pattern of a real weight, written as `w + (s - w)` with `s` the choice between one and
    minus one, is the choice itself. -/
theorem add_select_sub_cancel {w : EReal} (hw : IsReal w) (c : BitVec 1) :
    w + (Scalar.select c (1 : EReal) (-1) - w) = Scalar.select c (1 : EReal) (-1) :=
  add_sub_cancel_real hw (isReal_select c isReal_one isReal_neg_one)

/-! ## A product with the zero matrix `a - a` vanishes -/

/-- A real minus itself is zero (at an infinity it is not). -/
theorem sub_self_real {a : EReal} (ha : IsReal a) : a - a = 0 := by
  obtain ⟨r, rfl⟩ := ha; rw [← EReal.coe_sub, sub_self, EReal.coe_zero]

/-- The dot product of the zero row `a - a` (with `a` real) with ANY row of extended reals is zero:
    zero times an infinity is zero. -/
theorem sum_sub_self_mul {κ : Type} [Fintype κ] (a c : κ → EReal) (ha : ∀ k, IsReal (a k)) :
    ∑ k, (a k - a k) * c k = 0 :=
  Finset.sum_eq_zero fun k _ => by rw [sub_self_real (ha k), zero_mul]

/-- Adding the dot product with the zero row changes nothing. -/
theorem dot_add_dot_sub_self {κ : Type} [Fintype κ] (a c : κ → EReal) (ha : ∀ k, IsReal (a k)) :
    (∑ k, a k * c k) + (∑ k, (a k - a k) * c k) = ∑ k, a k * c k := by
  rw [sum_sub_self_mul a c ha, add_zero]

/-- The same with each product accumulated onto a zero. -/
theorem zero_add_dot_add_dot_sub_self {κ : Type} [Fintype κ] (a c : κ → EReal) (ha : ∀ k, IsReal (a k)) :
    (0 + ∑ k, a k * c k) + (0 + ∑ k, (a k - a k) * c k) = ∑ k, a k * c k := by
  rw [sum_sub_self_mul a c ha, add_zero, add_zero, zero_add]

/-- The same with the second product accumulated onto any value. -/
theorem acc_add_dot_sub_self {κ : Type} [Fintype κ] (acc : EReal) (a c : κ → EReal) (ha : ∀ k, IsReal (a k)) :
    acc + ∑ k, (a k - a k) * c k = acc := by
  rw [sum_sub_self_mul a c ha, add_zero]

/-! ## The guard around the quotient by the batch size -/

/-- The integer zero converted to a float is zero. -/
theorem sitofp_zero : (((0#32 : BitVec 32).toInt : ℝ) : EReal) = 0 := by
  simp

/-- The batch size minus a zero is the batch size. -/
theorem N_sub_zero (z : EReal) (hz : z = 0) :
    Ideal.ofBits .f32 0x46000000#32 - z = Ideal.ofBits .f32 0x46000000#32 := by
  rw [hz, sub_zero]

/-- The comparison "batch size minus zero is greater than zero" holds. -/
theorem cmp_ogt_N_sub_zero (z z' : EReal) (hz : z = 0) (hz' : z' = 0) :
    Ideal.cmp .ogt (Ideal.ofBits .f32 0x46000000#32 - z) z' = 1#1 := by
  rw [hz, hz', sub_zero]
  simp only [Ideal.cmp, decide_eq_true N_pos]
  rfl

/-- So a choice guarded by that comparison is its first branch. -/
theorem select_guard {α : Type} (z z' : EReal) (hz : z = 0) (hz' : z' = 0) (a b : α) :
    Scalar.select (Ideal.cmp .ogt (Ideal.ofBits .f32 0x46000000#32 - z) z') a b = a := by
  rw [cmp_ogt_N_sub_zero z z' hz hz']; rfl

/-! ## A column summed tile by tile -/

/-- A sum over `a * b` rows, taken as `a` tiles of `b` consecutive rows each: row `r` of tile `h` is
    row `b * h + r`. -/
theorem sum_tiles {M : Type} [AddCommMonoid M] (a b : ℕ) (f : Fin (a * b) → M)
    (e : Fin a → Fin b → Fin (a * b)) (he : ∀ h r, (e h r).val = b * h.val + r.val) :
    ∑ h : Fin a, ∑ r : Fin b, f (e h r) = ∑ i, f i := by
  have key : ∀ h r, e h r = finProdFinEquiv (h, r) := fun h r =>
    Fin.ext (by rw [he, finProdFinEquiv_apply_val]; exact Nat.add_comm _ _)
  calc ∑ h : Fin a, ∑ r : Fin b, f (e h r)
      = ∑ p : Fin a × Fin b, f (finProdFinEquiv p) := by
        rw [Fintype.sum_prod_type]; simp only [key]
    _ = ∑ i, f i := Equiv.sum_comp finProdFinEquiv f

/-- A running total: starting from `z + s 0` and adding `s (t + 1)` at step `t + 1`, the total after
    step `t` is `z` plus the sum of `s 0, …, s t`. The recurrence is asked only below a bound `T`. -/
theorem acc_eq_sum {M : Type} [AddCommMonoid M] (T : ℕ) (z : M) (s acc : ℕ → M)
    (h0 : acc 0 = z + s 0) (hs : ∀ t, t + 1 < T → acc (t + 1) = acc t + s (t + 1)) (t : ℕ) (ht : t < T) :
    acc t = z + ∑ i ∈ Finset.range (t + 1), s i := by
  induction t with
  | zero => rw [h0]; simp
  | succ t ih => rw [hs t ht, ih (Nat.lt_of_succ_lt ht), Finset.sum_range_succ _ (t + 1), add_assoc]

/-- The running total over the tiles of a column is the sum of the whole column: if step `t`
    contributes the sum of tile `t`, the steps `0, …, a - 1` contribute the sum over all `a * b` rows. -/
theorem sum_range_tiles {M : Type} [AddCommMonoid M] (a b : ℕ) (f : Fin (a * b) → M)
    (e : Fin a → Fin b → Fin (a * b)) (he : ∀ h r, (e h r).val = b * h.val + r.val)
    (s : ℕ → M) (hs : ∀ h : Fin a, s h.val = ∑ r : Fin b, f (e h r)) :
    ∑ i ∈ Finset.range a, s i = ∑ i, f i := by
  rw [Finset.sum_range]; simp only [hs]; exact sum_tiles a b f e he

/-! ## The laws at the batch size 8192 -/

/-- The variance, two ways, for a real column of 8192 entries and the float 8192 as divisor. -/
theorem variance_two_ways_8192 {ι : Type} [Fintype ι] (hι : Fintype.card ι = 8192) (x : ι → EReal)
    (hx : ∀ b, IsReal (x b)) (mu : EReal)
    (hmu : mu = Ideal.div (∑ b, x b) (Ideal.ofBits .f32 0x46000000#32)) :
    Ideal.div (∑ b, (x b - mu) * (x b - mu)) (Ideal.ofBits .f32 0x46000000#32)
      = Ideal.div (∑ b, x b * x b) (Ideal.ofBits .f32 0x46000000#32) - mu * mu :=
  variance_two_ways x hx _ 8192 ofBits_8192 (by norm_num) (by rw [hι]; norm_num) mu hmu

/-- The mean of a real column over the float 8192 is real. -/
theorem isReal_mean_8192 {ι : Type} [Fintype ι] (x : ι → EReal) (hx : ∀ b, IsReal (x b)) :
    IsReal (Ideal.div (∑ b, x b) (Ideal.ofBits .f32 0x46000000#32)) :=
  isReal_mean x hx _ 8192 ofBits_8192 (by norm_num)

/-- The variance of a real column of 8192 entries is real. -/
theorem isReal_variance_8192 {ι : Type} [Fintype ι] (hι : Fintype.card ι = 8192) (x : ι → EReal)
    (hx : ∀ b, IsReal (x b)) (mu : EReal)
    (hmu : mu = Ideal.div (∑ b, x b) (Ideal.ofBits .f32 0x46000000#32)) :
    IsReal (Ideal.div (∑ b, x b * x b) (Ideal.ofBits .f32 0x46000000#32) - mu * mu) :=
  isReal_variance x hx _ 8192 ofBits_8192 (by norm_num) (by rw [hι]; norm_num) mu hmu

/-- The variance of a real column of 8192 entries is not negative. -/
theorem variance_nonneg_8192 {ι : Type} [Fintype ι] (hι : Fintype.card ι = 8192) (x : ι → EReal)
    (hx : ∀ b, IsReal (x b)) (mu : EReal)
    (hmu : mu = Ideal.div (∑ b, x b) (Ideal.ofBits .f32 0x46000000#32)) :
    0 ≤ Ideal.div (∑ b, x b * x b) (Ideal.ofBits .f32 0x46000000#32) - mu * mu :=
  variance_nonneg x hx _ 8192 ofBits_8192 (by norm_num) (by rw [hι]; norm_num) mu hmu

/-! ## A column of 8192 rows in eight tiles of 1024 -/

/-- The sum over 8192 rows taken as eight tiles of 1024 consecutive rows: row `p` of tile `t` is row
    `1024 * t + p`. -/
theorem sum_tiles_8_1024 {M : Type} [AddCommMonoid M] (f : Fin 8192 → M)
    (e : Fin 8 → Fin 1024 → Fin 8192) (he : ∀ t p, (e t p).val = 1024 * t.val + p.val) :
    ∑ t : Fin 8, ∑ p : Fin 1024, f (e t p) = ∑ i, f i :=
  sum_tiles 8 1024 f e he

/-- A running total over the eight tiles of a column of 8192 rows: it starts from `z` plus the sum
    of tile 0 and adds the sum of tile `t + 1` at step `t + 1`; after the last step it is `z` plus the
    sum of the whole column. -/
theorem column_total_8_1024 {M : Type} [AddCommMonoid M] (f : Fin 8192 → M)
    (e : Fin 8 → Fin 1024 → Fin 8192) (he : ∀ t p, (e t p).val = 1024 * t.val + p.val)
    (z : M) (acc : ℕ → M) (h0 : acc 0 = z + ∑ p : Fin 1024, f (e 0 p))
    (hs : ∀ t (ht : t + 1 < 8), acc (t + 1) = acc t + ∑ p : Fin 1024, f (e ⟨t + 1, ht⟩ p)) :
    acc 7 = z + ∑ i, f i := by
  let s : ℕ → M := fun t => if ht : t < 8 then ∑ p : Fin 1024, f (e ⟨t, ht⟩ p) else 0
  have hs0 : acc 0 = z + s 0 := by rw [h0]; rfl
  have hss : ∀ t, t + 1 < 8 → acc (t + 1) = acc t + s (t + 1) := fun t ht => by
    rw [hs t ht]; simp only [s, dif_pos ht]
  rw [acc_eq_sum 8 z s acc hs0 hss 7 (by norm_num)]
  congr 1
  refine sum_range_tiles 8 1024 f e he s fun t => ?_
  simp only [s, dif_pos t.isLt]

/-- A zero word in front of a sum (the value a running total, or a host reduction, starts from)
    adds nothing. -/
theorem zero_word_add (a : EReal) : Ideal.ofBits .f32 0x00000000#32 + a = a := by
  rw [ofBits_zero, zero_add]

/-! ## The result, entry by entry

Rows `r : ι` (the batch, 8192 of them), input features `k : κ`, output features `o : ω`. -/

section Result

variable {ι κ ω : Type} [Fintype ι] [Fintype κ]

/-- The batch mean of feature `k`: the column sum over the batch size. -/
def muE (x : ι → κ → EReal) (k : κ) : EReal :=
  Ideal.div (∑ b, x b k) (Ideal.ofBits .f32 0x46000000#32)

/-- The batch variance of feature `k`: the mean of the squares minus the square of the mean. -/
def varE (x : ι → κ → EReal) (k : κ) : EReal :=
  Ideal.div (∑ b, x b k * x b k) (Ideal.ofBits .f32 0x46000000#32) - muE x k * muE x k

/-- The normalised entry: centred, divided by the stabilised standard deviation, scaled by `g`,
    shifted by `be`. -/
def xnE (x : ι → κ → EReal) (g be : κ → EReal) (r : ι) (k : κ) : EReal :=
  (x r k - muE x k) * Ideal.rsqrt (varE x k + Ideal.ofBits .f32 0x3727C5AC#32) * g k + be k

/-- The sign pattern of the weights: one where the weight is not negative, minus one elsewhere. -/
def wbin (w : ω → κ → EReal) (o : ω) (k : κ) : EReal :=
  Scalar.select (Ideal.cmp .oge (w o k) (Ideal.ofBits .f32 0x00000000#32))
    (Ideal.ofBits .f32 0x3F800000#32) (Ideal.ofBits .f32 0xBF800000#32)

/-- The result at row `r`, output feature `o`: the normalised row times the sign pattern of the
    weights' row `o`, clipped to `[-1, 1]`. -/
def G (x : ι → κ → EReal) (w : ω → κ → EReal) (g be : κ → EReal) (r : ι) (o : ω) : EReal :=
  min (Ideal.ofBits .f32 0x3F800000#32)
    (max (Ideal.ofBits .f32 0xBF800000#32) (∑ k, xnE x g be r k * wbin w o k))

/-- Every entry of the sign pattern is real (it is one or minus one). -/
theorem isReal_wbin (w : ω → κ → EReal) (o : ω) (k : κ) : IsReal (wbin w o k) := by
  unfold wbin
  exact isReal_select _ (by rw [ofBits_one]; exact isReal_one) (by rw [ofBits_neg_one]; exact isReal_neg_one)

/-- The batch mean of a real batch is real. -/
theorem isReal_muE (x : ι → κ → EReal) (hx : ∀ b k, IsReal (x b k)) (k : κ) : IsReal (muE x k) :=
  isReal_mean_8192 (fun b => x b k) (fun b => hx b k)

/-- The batch variance of a real batch of 8192 rows is real. -/
theorem isReal_varE (hι : Fintype.card ι = 8192) (x : ι → κ → EReal) (hx : ∀ b k, IsReal (x b k)) (k : κ) :
    IsReal (varE x k) :=
  isReal_variance_8192 hι (fun b => x b k) (fun b => hx b k) (muE x k) rfl

/-- The batch variance of a real batch of 8192 rows is not negative. -/
theorem varE_nonneg (hι : Fintype.card ι = 8192) (x : ι → κ → EReal) (hx : ∀ b k, IsReal (x b k)) (k : κ) :
    0 ≤ varE x k :=
  variance_nonneg_8192 hι (fun b => x b k) (fun b => hx b k) (muE x k) rfl

/-- Every normalised entry of a real batch with real scale and shift is real. -/
theorem isReal_xnE (hι : Fintype.card ι = 8192) (x : ι → κ → EReal) (g be : κ → EReal)
    (hx : ∀ b k, IsReal (x b k)) (hg : ∀ k, IsReal (g k)) (hbe : ∀ k, IsReal (be k)) (r : ι) (k : κ) :
    IsReal (xnE x g be r k) :=
  isReal_normalised (hx r k) (isReal_muE x hx k)
    (isReal_rsqrt_add_eps (isReal_varE hι x hx k) (varE_nonneg hι x hx k)) (hg k) (hbe k)

/-- The first way of computing the result: mean and variance (as mean of squares minus squared mean)
    are taken first; the normalised row is multiplied with the sign pattern, and a second product,
    of the zero row `xn - xn` with the same pattern, is added before clipping. For a real batch
    with real scale and shift this is `G`: the second product is zero. -/
theorem kernel_entry_eq_G (hι : Fintype.card ι = 8192) (x : ι → κ → EReal) (w : ω → κ → EReal)
    (g be : κ → EReal) (hx : ∀ b k, IsReal (x b k)) (hg : ∀ k, IsReal (g k)) (hbe : ∀ k, IsReal (be k))
    (mean var : κ → EReal)
    (hmean : ∀ k, mean k = Ideal.div (∑ b, x b k) (Ideal.ofBits .f32 0x46000000#32))
    (hvar : ∀ k, var k
      = Ideal.div (∑ b, x b k * x b k) (Ideal.ofBits .f32 0x46000000#32) - mean k * mean k)
    (r : ι) (o : ω) :
    min (Ideal.ofBits .f32 0x3F800000#32) (max (Ideal.ofBits .f32 0xBF800000#32)
      ((∑ k, ((x r k - mean k) * Ideal.rsqrt (var k + Ideal.ofBits .f32 0x3727C5AC#32) * g k + be k)
            * wbin w o k)
        + ∑ k, (((x r k - mean k) * Ideal.rsqrt (var k + Ideal.ofBits .f32 0x3727C5AC#32) * g k + be k)
              - ((x r k - mean k) * Ideal.rsqrt (var k + Ideal.ofBits .f32 0x3727C5AC#32) * g k + be k))
            * wbin w o k))
      = G x w g be r o := by
  obtain rfl : mean = muE x := funext hmean
  obtain rfl : var = varE x := funext hvar
  exact congrArg (fun y => min (Ideal.ofBits .f32 0x3F800000#32) (max (Ideal.ofBits .f32 0xBF800000#32) y))
    (dot_add_dot_sub_self (fun k => xnE x g be r k) (fun k => wbin w o k)
      (fun k => isReal_xnE hι x g be hx hg hbe r k))

/-- The second way of computing the result: the variance is the mean of the squared deviations from
    a mean `mu'` of its own, over the batch size minus a zero `z`, kept only if that divisor exceeds
    a zero `z'` (else `nan`); the sign pattern is written `w + (s - w)`. For a real batch of 8192 rows
    and real weights this is `G`. -/
theorem reference_entry_eq_G (hι : Fintype.card ι = 8192) (x : ι → κ → EReal) (w : ω → κ → EReal)
    (g be : κ → EReal) (hx : ∀ b k, IsReal (x b k)) (hw : ∀ o k, IsReal (w o k))
    (mu mu' var : κ → EReal) (z z' nan : EReal) (hz : z = 0) (hz' : z' = 0)
    (hmu : ∀ k, mu k = Ideal.div (∑ b, x b k) (Ideal.ofBits .f32 0x46000000#32))
    (hmu' : ∀ k, mu' k = Ideal.div (∑ b, x b k) (Ideal.ofBits .f32 0x46000000#32))
    (hvar : ∀ k, var k
      = Scalar.select (Ideal.cmp .ogt (Ideal.ofBits .f32 0x46000000#32 - z) z')
          (Ideal.div (∑ b, (x b k - mu' k) * (x b k - mu' k)) (Ideal.ofBits .f32 0x46000000#32 - z)) nan)
    (r : ι) (o : ω) :
    min (Ideal.ofBits .f32 0x3F800000#32) (max (Ideal.ofBits .f32 0xBF800000#32)
      (∑ k, ((x r k - mu k) * Ideal.rsqrt (var k + Ideal.ofBits .f32 0x3727C5AC#32) * g k + be k)
            * (w o k + (wbin w o k - w o k))))
      = G x w g be r o := by
  have hvar' : ∀ k, var k = varE x k := fun k => by
    have e : mu' k = muE x k := hmu' k
    rw [hvar k, select_guard z z' hz hz', N_sub_zero z hz, e]
    exact variance_two_ways_8192 hι (fun b => x b k) (fun b => hx b k) (muE x k) rfl
  unfold G
  refine congrArg (fun y => min (Ideal.ofBits .f32 0x3F800000#32) (max (Ideal.ofBits .f32 0xBF800000#32) y))
    (Finset.sum_congr rfl fun k _ => ?_)
  rw [add_sub_cancel_real (hw o k) (isReal_wbin w o k), hvar' k, hmu k]
  rfl

end Result

section ResultVariables

variable {ι κ ω : Type} [Fintype ι] [Fintype κ]

/-- The first way, with every intermediate value a variable tied to its formula by a hypothesis:
    means, variances, the normalised row `xn`, the sign row `wb`, and the two products `y₁`, `y₂`. -/
theorem kernel_entry_eq_G_of_eqs (hι : Fintype.card ι = 8192) (x : ι → κ → EReal) (w : ω → κ → EReal)
    (g be : κ → EReal) (hx : ∀ b k, IsReal (x b k)) (hg : ∀ k, IsReal (g k)) (hbe : ∀ k, IsReal (be k))
    (r : ι) (o : ω) (mean var xn wb : κ → EReal) (y₁ y₂ : EReal)
    (hmean : ∀ k, mean k = Ideal.div (∑ b, x b k) (Ideal.ofBits .f32 0x46000000#32))
    (hvar : ∀ k, var k
      = Ideal.div (∑ b, x b k * x b k) (Ideal.ofBits .f32 0x46000000#32) - mean k * mean k)
    (hxn : ∀ k, xn k
      = (x r k - mean k) * Ideal.rsqrt (var k + Ideal.ofBits .f32 0x3727C5AC#32) * g k + be k)
    (hwb : ∀ k, wb k = wbin w o k)
    (hy₁ : y₁ = ∑ k, xn k * wb k) (hy₂ : y₂ = ∑ k, (xn k - xn k) * wb k) :
    min (Ideal.ofBits .f32 0x3F800000#32) (max (Ideal.ofBits .f32 0xBF800000#32) (y₁ + y₂))
      = G x w g be r o := by
  obtain rfl : xn = fun k =>
      (x r k - mean k) * Ideal.rsqrt (var k + Ideal.ofBits .f32 0x3727C5AC#32) * g k + be k := funext hxn
  obtain rfl : wb = fun k => wbin w o k := funext hwb
  subst hy₁ hy₂
  exact kernel_entry_eq_G hι x w g be hx hg hbe mean var hmean hvar r o

/-- The second way, with every intermediate value a variable tied to its formula by a hypothesis. -/
theorem reference_entry_eq_G_of_eqs (hι : Fintype.card ι = 8192) (x : ι → κ → EReal) (w : ω → κ → EReal)
    (g be : κ → EReal) (hx : ∀ b k, IsReal (x b k)) (hw : ∀ o k, IsReal (w o k))
    (r : ι) (o : ω) (mu mu' var xn wb : κ → EReal) (z z' nan y : EReal) (hz : z = 0) (hz' : z' = 0)
    (hmu : ∀ k, mu k = Ideal.div (∑ b, x b k) (Ideal.ofBits .f32 0x46000000#32))
    (hmu' : ∀ k, mu' k = Ideal.div (∑ b, x b k) (Ideal.ofBits .f32 0x46000000#32))
    (hvar : ∀ k, var k
      = Scalar.select (Ideal.cmp .ogt (Ideal.ofBits .f32 0x46000000#32 - z) z')
          (Ideal.div (∑ b, (x b k - mu' k) * (x b k - mu' k)) (Ideal.ofBits .f32 0x46000000#32 - z)) nan)
    (hxn : ∀ k, xn k
      = (x r k - mu k) * Ideal.rsqrt (var k + Ideal.ofBits .f32 0x3727C5AC#32) * g k + be k)
    (hwb : ∀ k, wb k = w o k + (wbin w o k - w o k))
    (hy : y = ∑ k, xn k * wb k) :
    min (Ideal.ofBits .f32 0x3F800000#32) (max (Ideal.ofBits .f32 0xBF800000#32) y)
      = G x w g be r o := by
  obtain rfl : xn = fun k =>
      (x r k - mu k) * Ideal.rsqrt (var k + Ideal.ofBits .f32 0x3727C5AC#32) * g k + be k := funext hxn
  obtain rfl : wb = fun k => w o k + (wbin w o k - w o k) := funext hwb
  subst hy
  exact reference_entry_eq_G hι x w g be hx hw mu mu' var z z' nan hz hz' hmu hmu' hvar r o

/-- Hence the two ways agree, entry by entry. -/
theorem kernel_entry_eq_reference_entry (hι : Fintype.card ι = 8192) (x : ι → κ → EReal)
    (w : ω → κ → EReal) (g be : κ → EReal) (hx : ∀ b k, IsReal (x b k)) (hw : ∀ o k, IsReal (w o k))
    (hg : ∀ k, IsReal (g k)) (hbe : ∀ k, IsReal (be k)) (r : ι) (o : ω)
    (mean var xn wb : κ → EReal) (y₁ y₂ : EReal)
    (hmean : ∀ k, mean k = Ideal.div (∑ b, x b k) (Ideal.ofBits .f32 0x46000000#32))
    (hvar : ∀ k, var k
      = Ideal.div (∑ b, x b k * x b k) (Ideal.ofBits .f32 0x46000000#32) - mean k * mean k)
    (hxn : ∀ k, xn k
      = (x r k - mean k) * Ideal.rsqrt (var k + Ideal.ofBits .f32 0x3727C5AC#32) * g k + be k)
    (hwb : ∀ k, wb k = wbin w o k)
    (hy₁ : y₁ = ∑ k, xn k * wb k) (hy₂ : y₂ = ∑ k, (xn k - xn k) * wb k)
    (mu mu' var' xn' wb' : κ → EReal) (z z' nan y : EReal) (hz : z = 0) (hz' : z' = 0)
    (hmu : ∀ k, mu k = Ideal.div (∑ b, x b k) (Ideal.ofBits .f32 0x46000000#32))
    (hmu' : ∀ k, mu' k = Ideal.div (∑ b, x b k) (Ideal.ofBits .f32 0x46000000#32))
    (hvar' : ∀ k, var' k
      = Scalar.select (Ideal.cmp .ogt (Ideal.ofBits .f32 0x46000000#32 - z) z')
          (Ideal.div (∑ b, (x b k - mu' k) * (x b k - mu' k)) (Ideal.ofBits .f32 0x46000000#32 - z)) nan)
    (hxn' : ∀ k, xn' k
      = (x r k - mu k) * Ideal.rsqrt (var' k + Ideal.ofBits .f32 0x3727C5AC#32) * g k + be k)
    (hwb' : ∀ k, wb' k = w o k + (wbin w o k - w o k))
    (hy : y = ∑ k, xn' k * wb' k) :
    min (Ideal.ofBits .f32 0x3F800000#32) (max (Ideal.ofBits .f32 0xBF800000#32) (y₁ + y₂))
      = min (Ideal.ofBits .f32 0x3F800000#32) (max (Ideal.ofBits .f32 0xBF800000#32) y) :=
  (kernel_entry_eq_G_of_eqs hι x w g be hx hg hbe r o mean var xn wb y₁ y₂ hmean hvar hxn hwb hy₁ hy₂).trans
    (reference_entry_eq_G_of_eqs hι x w g be hx hw r o mu mu' var' xn' wb' z z' nan y hz hz' hmu hmu' hvar'
      hxn' hwb' hy).symm

end ResultVariables

end Cert.Spec

end
-- ==== Proof.KI.LayerSpec.lean ====
/-
  The second pipeline's output array, entry by entry, against the specification.

  Row 1024·b + p, column o of the array is the body's arithmetic of tile `b` of `x` at (p, o); read over the extended
  reals that is the clamp of two sums over the features `k`: the normalised activation of THAT row of `x` times the
  binarised weight's row `o`, and the same with the activation replaced by its difference with itself.  When the
  mean and variance rows hold the batch statistics of `x` (column sum over 8192; mean of squares minus squared
  mean), the scale and shift rows are the given vectors laid out as 1×2048 rows, and `x`, scale and shift are real,
  the specification's law for this way of computing applies and the entry is the specification's `G`.
-/
import proofs.«127384_j52072183496926_2_alg».proof.Proof.KI.LayerValue
import proofs.«127384_j52072183496926_2_alg».proof.Proof.KI.LayerEntry
import proofs.«127384_j52072183496926_2_alg».proof.Proof.LibBatchNormSign

noncomputable section

open scoped BigOperators

namespace Cert.KernelIdeal.Layer

open Cert.KernelIdeal Cert.KernelIdeal.Gen
open Idealize.ShloMosaic Idealize.ShloMosaic.ValueIdx

/-! ## A vector laid out as a one-row matrix -/

/-- A vector of 2048 entries recast as a 1×2048 matrix reads, at (0, k), the vector at k. -/
theorem castRow_apply {F : FTy → Type} (v : FVec F S2048 .f32) (k : Fin 2048) :
    shapeCast S1x2048 v shapeCasts_S2048_S1x2048 (ix2 (0 : Fin 1) k) = v (ix1 k) :=
  shapeCast_a_1a_apply v shapeCasts_S2048_S1x2048 (0 : Fin 1) k

/-! ## The array at an entry, in rows of the whole `x` -/

/-- The normalised activation of row `r` of the whole `x`, feature `k`. -/
def xnRow (x : Vec Ideal S8192x2048 .f32) (mu va g2 b2 : Vec Ideal S1x2048 .f32) (r : Fin 8192) (k : Fin 2048) : EReal :=
  (x (ix2 r k) - mu (ix2 (0 : Fin 1) k)) * Ideal.rsqrt (va (ix2 (0 : Fin 1) k) + Ideal.ofBits .f32 0x3727C5AC#32)
    * g2 (ix2 (0 : Fin 1) k) + b2 (ix2 (0 : Fin 1) k)

/-- Inside tile `b` the activation of the tile's row `p` is that of row 1024·b + p of `x`. -/
theorem xn_tile (x : Vec Ideal S8192x2048 .f32) (mu va g2 b2 : Vec Ideal S1x2048 .f32) (b : Fin 8) (p : Fin 1024) (k : Fin 2048) :
    xn (tile x b) mu va g2 b2 p k = xnRow x mu va g2 b2 ⟨1024 * b.val + p.val, by omega⟩ k := rfl

/-- The output array at row 1024·b + p, column o. -/
theorem whole_entry (x : Vec Ideal S8192x2048 .f32) (mu va g2 b2 : Vec Ideal S1x2048 .f32) (w : Vec Ideal S2048x2048 .f32)
    (b : Fin 8) (p : Fin 1024) (o : Fin 2048) :
    whole x mu va g2 b2 w (ix2 (n0 := 8192) (n1 := 2048) ⟨1024 * b.val + p.val, by omega⟩ o)
      = min (Ideal.ofBits .f32 0x3F800000#32) (max (Ideal.ofBits .f32 0xBF800000#32)
          ((∑ k : Fin 2048, xnRow x mu va g2 b2 ⟨1024 * b.val + p.val, by omega⟩ k * wbin w o k)
            + ∑ k : Fin 2048, (xnRow x mu va g2 b2 ⟨1024 * b.val + p.val, by omega⟩ k
                - xnRow x mu va g2 b2 ⟨1024 * b.val + p.val, by omega⟩ k) * wbin w o k)) := by
  rw [whole_apply, pay_apply]
  simp only [xn_tile]

/-- The same at any row `r` of the array: `r` is row `r % 1024` of tile `r / 1024`. -/
theorem whole_entry_row (x : Vec Ideal S8192x2048 .f32) (mu va g2 b2 : Vec Ideal S1x2048 .f32) (w : Vec Ideal S2048x2048 .f32)
    (r : Fin 8192) (o : Fin 2048) :
    whole x mu va g2 b2 w (ix2 r o)
      = min (Ideal.ofBits .f32 0x3F800000#32) (max (Ideal.ofBits .f32 0xBF800000#32)
          ((∑ k : Fin 2048, xnRow x mu va g2 b2 r k * wbin w o k)
            + ∑ k : Fin 2048, (xnRow x mu va g2 b2 r k - xnRow x mu va g2 b2 r k) * wbin w o k)) := by
  have hr : r = ⟨1024 * (r.val / 1024) + r.val % 1024, by omega⟩ :=
    Fin.ext (by show r.val = 1024 * (r.val / 1024) + r.val % 1024; omega)
  have h := whole_entry x mu va g2 b2 w ⟨r.val / 1024, by omega⟩ ⟨r.val % 1024, Nat.mod_lt _ (by decide)⟩ o
  rw [← hr] at h
  exact h

/-! ## The array is the specification's function -/

/-- With the mean and variance rows at the batch statistics of `x`, the scale and shift rows at the given vectors,
    and `x`, scale, shift real, every entry of the output array is the specification's `G` of `x`, the weight,
    the scale and the shift. -/
theorem whole_eq_G (x : Vec Ideal S8192x2048 .f32) (mu va g2 b2 : Vec Ideal S1x2048 .f32) (w : Vec Ideal S2048x2048 .f32)
    (g be : FVec Ideal S2048 .f32)
    (hx : ∀ i, Cert.Spec.IsReal (x i)) (hg : ∀ i, Cert.Spec.IsReal (g i)) (hbe : ∀ i, Cert.Spec.IsReal (be i))
    (hmu : ∀ k : Fin 2048, mu (ix2 (0 : Fin 1) k)
      = Ideal.div (∑ r : Fin 8192, x (ix2 r k)) (Ideal.ofBits .f32 0x46000000#32))
    (hva : ∀ k : Fin 2048, va (ix2 (0 : Fin 1) k)
      = Ideal.div (∑ r : Fin 8192, x (ix2 r k) * x (ix2 r k)) (Ideal.ofBits .f32 0x46000000#32)
          - mu (ix2 (0 : Fin 1) k) * mu (ix2 (0 : Fin 1) k))
    (hg2 : ∀ k : Fin 2048, g2 (ix2 (0 : Fin 1) k) = g (ix1 k)) (hb2 : ∀ k : Fin 2048, b2 (ix2 (0 : Fin 1) k) = be (ix1 k))
    (r : Fin 8192) (o : Fin 2048) :
    whole x mu va g2 b2 w (ix2 r o)
      = Cert.Spec.G (fun r k => x (ix2 r k)) (fun o k => w (ix2 o k)) (fun k => g (ix1 k)) (fun k => be (ix1 k)) r o := by
  rw [whole_entry_row]
  exact Cert.Spec.kernel_entry_eq_G_of_eqs (ι := Fin 8192) (κ := Fin 2048) (ω := Fin 2048) (Fintype.card_fin 8192)
    (fun r k => x (ix2 r k)) (fun o k => w (ix2 o k)) (fun k => g (ix1 k)) (fun k => be (ix1 k))
    (fun b k => hx (ix2 b k)) (fun k => hg (ix1 k)) (fun k => hbe (ix1 k)) r o
    (fun k => mu (ix2 (0 : Fin 1) k)) (fun k => va (ix2 (0 : Fin 1) k))
    (fun k => xnRow x mu va g2 b2 r k) (fun k => wbin w o k) _ _
    hmu hva (fun k => by unfold xnRow; rw [hg2 k, hb2 k]) (fun k => rfl) rfl rfl

end Cert.KernelIdeal.Layer

end
-- ==== Proof.KI.StatsPieces.lean ====
/-
  What the batch-statistics body leaves, as terms of the body's arithmetic: each carried row after a point
  is the previous row (zero at the first batch tile) plus the block's column sums, and at the last batch tile
  the mean's and the variance's buffers are the quotient formulas of the two carried rows. These equations
  let the values be computed without opening a run.
-/
import proofs.«127384_j52072183496926_2_alg».proof.Proof.KI.Stats
import Idealize.ShloMosaic.Lib.Pipeline.Value

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-row access, however spelt. -/
theorem hz : (![0, 0] : Fin 2 → Nat) = fun _ => 0 := funext fun a => by fin_cases a <;> rfl

section Cases
variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole)

/-- First batch tile: the running sums are the block's column sums added to the zero row. -/
theorem sumFirst_eq (hc0 : isFirst i) (hc1 : ¬isLast i) (x0 : Vec F S1024x1024 .f32) :
    sumFirst c i arg2 harg2 arg3 harg3 arg4 harg4 arg5 harg5 arg6 harg6 hc0 hc1 x0 = k0_pay3 x0 (k0_pay1 (F := F)) := by
  unfold sumFirst
  rw [View.read_writes_eq_canon _ _ _ (coverSum_first c i arg2 harg2 arg3 harg3 arg4 harg4 arg5 harg5 arg6 harg6 hc0 hc1 x0)]
  unfold runFirst
  dsimp only
  try sl_unfold_words
  rw [View.canon_cons_unit_zero (S := S1x1024) hz, View.readCov_unit_zero (S := S1x1024) _ hz]
  simp only [View.readAt_eq_ld, harg2.read_unread, View.ld_unit_zero (S := S1024x1024) hz]

/-- … and the running sums of squares the column sums of the squared block added to the zero row. -/
theorem sqFirst_eq (hc0 : isFirst i) (hc1 : ¬isLast i) (x0 : Vec F S1024x1024 .f32) :
    sqFirst c i arg2 harg2 arg3 harg3 arg4 harg4 arg5 harg5 arg6 harg6 hc0 hc1 x0 = k0_pay4 x0 (k0_pay2 (F := F)) := by
  unfold sqFirst
  rw [View.read_writes_eq_canon _ _ _ (coverSq_first c i arg2 harg2 arg3 harg3 arg4 harg4 arg5 harg5 arg6 harg6 hc0 hc1 x0)]
  unfold runFirst
  dsimp only
  try sl_unfold_words
  rw [View.canon_cons_unit_zero (S := S1x1024) hz, View.readCov_unit_zero (S := S1x1024) _ hz]
  simp only [View.readAt_eq_ld, harg2.read_unread, View.ld_unit_zero (S := S1024x1024) hz]

/-- A middle point adds the block's column sums onto what the row held. -/
theorem sumMiddle_eq (hc0 : ¬isFirst i) (hc1 : ¬isLast i) (x0 : Vec F S1024x1024 .f32) (xs0 xs1 : Vec F S1x1024 .f32) :
    sumMiddle c i arg2 harg2 arg3 harg3 arg4 harg4 arg5 harg5 arg6 harg6 hc0 hc1 x0 xs0 xs1 = k0_pay3 x0 xs0 := by
  unfold sumMiddle
  rw [View.read_writes_eq_canon _ _ _ (coverSum_middle c i arg2 harg2 arg3 harg3 arg4 harg4 arg5 harg5 arg6 harg6 hc0 hc1 x0 xs0 xs1)]
  unfold runMiddle
  dsimp only
  try sl_unfold_words
  rw [View.canon_unit_zero (S := S1x1024) hz]
  simp only [View.readAt_eq_ld, harg2.read_unread, harg5.read_unread, View.ld_unit_zero (S := S1024x1024) hz, View.ld_unit_zero (S := S1x1024) hz]

theorem sqMiddle_eq (hc0 : ¬isFirst i) (hc1 : ¬isLast i) (x0 : Vec F S1024x1024 .f32) (xs0 xs1 : Vec F S1x1024 .f32) :
    sqMiddle c i arg2 harg2 arg3 harg3 arg4 harg4 arg5 harg5 arg6 harg6 hc0 hc1 x0 xs0 xs1 = k0_pay4 x0 xs1 := by
  unfold sqMiddle
  rw [View.read_writes_eq_canon _ _ _ (coverSq_middle c i arg2 harg2 arg3 harg3 arg4 harg4 arg5 harg5 arg6 harg6 hc0 hc1 x0 xs0 xs1)]
  unfold runMiddle
  dsimp only
  try sl_unfold_words
  rw [View.canon_unit_zero (S := S1x1024) hz]
  simp only [View.readAt_eq_ld, harg2.read_unread, harg6.read_unread, View.ld_unit_zero (S := S1024x1024) hz, View.ld_unit_zero (S := S1x1024) hz]

/-- The last batch tile adds in the same way, -/
theorem sumLast_eq (hc0 : ¬isFirst i) (hc1 : isLast i) (x0 : Vec F S1024x1024 .f32) (xs0 xs1 : Vec F S1x1024 .f32) :
    sumLast c i arg2 harg2 arg3 harg3 arg4 harg4 arg5 harg5 arg6 harg6 hc0 hc1 x0 xs0 xs1 = k0_pay3 x0 xs0 := by
  unfold sumLast
  rw [View.read_writes_eq_canon _ _ _ (coverSum_last c i arg2 harg2 arg3 harg3 arg4 harg4 arg5 harg5 arg6 harg6 hc0 hc1 x0 xs0 xs1)]
  unfold runLast
  dsimp only
  try sl_unfold_words
  rw [View.canon_unit_zero (S := S1x1024) hz]
  simp only [View.readAt_eq_ld, harg2.read_unread, harg5.read_unread, View.ld_unit_zero (S := S1024x1024) hz, View.ld_unit_zero (S := S1x1024) hz]

theorem sqLast_eq (hc0 : ¬isFirst i) (hc1 : isLast i) (x0 : Vec F S1024x1024 .f32) (xs0 xs1 : Vec F S1x1024 .f32) :
    sqLast c i arg2 harg2 arg3 harg3 arg4 harg4 arg5 harg5 arg6 harg6 hc0 hc1 x0 xs0 xs1 = k0_pay4 x0 xs1 := by
  unfold sqLast
  rw [View.read_writes_eq_canon _ _ _ (coverSq_last c i arg2 harg2 arg3 harg3 arg4 harg4 arg5 harg5 arg6 harg6 hc0 hc1 x0 xs0 xs1)]
  unfold runLast
  dsimp only
  try sl_unfold_words
  rw [View.canon_unit_zero (S := S1x1024) hz]
  simp only [View.readAt_eq_ld, harg2.read_unread, harg6.read_unread, View.ld_unit_zero (S := S1024x1024) hz, View.ld_unit_zero (S := S1x1024) hz]

/-- and then stores the mean: the finished column sums over the batch size, -/
theorem meanLast_eq (hc0 : ¬isFirst i) (hc1 : isLast i) (x0 : Vec F S1024x1024 .f32) (xs0 xs1 : Vec F S1x1024 .f32) :
    meanLast c i arg2 harg2 arg3 harg3 arg4 harg4 arg5 harg5 arg6 harg6 hc0 hc1 x0 xs0 xs1 = k0_pay5 (k0_pay3 x0 xs0) := by
  unfold meanLast
  rw [View.read_writes_eq_canon _ _ _ (coverMean_last c i arg2 harg2 arg3 harg3 arg4 harg4 arg5 harg5 arg6 harg6 hc0 hc1 x0 xs0 xs1)]
  unfold runLast
  dsimp only
  try sl_unfold_words
  rw [View.canon_unit_zero (S := S1x1024) hz]
  simp only [View.readCov_unit_zero (S := S1x1024) _ hz, View.readAt_eq_ld, harg2.read_unread, harg5.read_unread, View.ld_unit_zero (S := S1024x1024) hz, View.ld_unit_zero (S := S1x1024) hz]

/-- and the variance: the finished column sums of squares over the batch size, minus the squared mean. -/
theorem varLast_eq (hc0 : ¬isFirst i) (hc1 : isLast i) (x0 : Vec F S1024x1024 .f32) (xs0 xs1 : Vec F S1x1024 .f32) :
    varLast c i arg2 harg2 arg3 harg3 arg4 harg4 arg5 harg5 arg6 harg6 hc0 hc1 x0 xs0 xs1 = k0_pay6 (k0_pay3 x0 xs0) (k0_pay4 x0 xs1) := by
  unfold varLast
  rw [View.read_writes_eq_canon _ _ _ (coverVar_last c i arg2 harg2 arg3 harg3 arg4 harg4 arg5 harg5 arg6 harg6 hc0 hc1 x0 xs0 xs1)]
  unfold runLast
  dsimp only
  try sl_unfold_words
  rw [View.canon_unit_zero (S := S1x1024) hz]
  simp only [View.readCov_unit_zero (S := S1x1024) _ hz, View.readAt_eq_ld, harg2.read_unread, harg5.read_unread, harg6.read_unread, View.ld_unit_zero (S := S1024x1024) hz, View.ld_unit_zero (S := S1x1024) hz]

end Cases

section Entry
variable (V : (c : Dev nD) → (b : Ref sig .tc) → Buf (Elt F) ((c : Thread nD τ).loc b))

/-- After a point of the first batch tile the carried rows are the block's column sums (of the block, of its
    square) added to the zero row. -/
theorem scratch_first (c : Dev nD) (t : Fin cfg0.N) (h : t.val % 8 = 0) :
    (outsAt V c t.val t.isLt).2.2 = (k0_pay3 (iblk V c 0 t) (k0_pay1 (F := F)), k0_pay4 (iblk V c 0 t) (k0_pay2 (F := F))) := by
  rw [outsAt_first V c t h]
  unfold atFirst
  rw [(sumFirst_eq c (grid0.coords t) (mIn t) (hIn t) (mMean t) (hMean t) (mVar t) (hVar t) mSum (Memref.isWhole_whole _) mSq (Memref.isWhole_whole _) ((isFirst_iff t).mpr h) (not_isLast_of_first t h) (iblk V c 0 t)), (sqFirst_eq c (grid0.coords t) (mIn t) (hIn t) (mMean t) (hMean t) (mVar t) (hVar t) mSum (Memref.isWhole_whole _) mSq (Memref.isWhole_whole _) ((isFirst_iff t).mpr h) (not_isLast_of_first t h) (iblk V c 0 t))]

/-- After any other point they are the block's column sums added to what the point before left. -/
theorem scratch_next (c : Dev nD) (t : Fin cfg0.N) (h : t.val % 8 ≠ 0) :
    (outsAt V c t.val t.isLt).2.2 = (k0_pay3 (iblk V c 0 t) (outsAt V c (t.val - 1) (Nat.lt_of_le_of_lt (Nat.sub_le _ _) t.isLt)).2.2.1, k0_pay4 (iblk V c 0 t) (outsAt V c (t.val - 1) (Nat.lt_of_le_of_lt (Nat.sub_le _ _) t.isLt)).2.2.2) := by
  by_cases h1 : t.val % 8 = 7
  · rw [outsAt_last V c t h h1]
    unfold atLast
    rw [(sumLast_eq c (grid0.coords t) (mIn t) (hIn t) (mMean t) (hMean t) (mVar t) (hVar t) mSum (Memref.isWhole_whole _) mSq (Memref.isWhole_whole _) (not_isFirst_of t h) ((isLast_iff t).mpr h1) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2),
      (sqLast_eq c (grid0.coords t) (mIn t) (hIn t) (mMean t) (hMean t) (mVar t) (hVar t) mSum (Memref.isWhole_whole _) mSq (Memref.isWhole_whole _) (not_isFirst_of t h) ((isLast_iff t).mpr h1) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2)]
  · rw [outsAt_middle V c t h h1]
    unfold atMiddle
    rw [(sumMiddle_eq c (grid0.coords t) (mIn t) (hIn t) (mMean t) (hMean t) (mVar t) (hVar t) mSum (Memref.isWhole_whole _) mSq (Memref.isWhole_whole _) (not_isFirst_of t h) (not_isLast_of t h1) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2),
      (sqMiddle_eq c (grid0.coords t) (mIn t) (hIn t) (mMean t) (hMean t) (mVar t) (hVar t) mSum (Memref.isWhole_whole _) mSq (Memref.isWhole_whole _) (not_isFirst_of t h) (not_isLast_of t h1) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2)]

/-- After a point of the last batch tile the two output buffers hold the mean and the variance formed from
    the carried rows as that point leaves them. -/
theorem outs_last (c : Dev nD) (t : Fin cfg0.N) (h : t.val % 8 = 7) :
    (outsAt V c t.val t.isLt).1 = k0_pay5 (outsAt V c t.val t.isLt).2.2.1
      ∧ (outsAt V c t.val t.isLt).2.1 = k0_pay6 (outsAt V c t.val t.isLt).2.2.1 (outsAt V c t.val t.isLt).2.2.2 := by
  have h0 : ¬t.val % 8 = 0 := by omega
  rw [outsAt_last V c t h0 h]
  unfold atLast
  rw [(meanLast_eq c (grid0.coords t) (mIn t) (hIn t) (mMean t) (hMean t) (mVar t) (hVar t) mSum (Memref.isWhole_whole _) mSq (Memref.isWhole_whole _) (not_isFirst_of t h0) ((isLast_iff t).mpr h) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2),
    (varLast_eq c (grid0.coords t) (mIn t) (hIn t) (mMean t) (hMean t) (mVar t) (hVar t) mSum (Memref.isWhole_whole _) mSq (Memref.isWhole_whole _) (not_isFirst_of t h0) ((isLast_iff t).mpr h) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2),
    (sumLast_eq c (grid0.coords t) (mIn t) (hIn t) (mMean t) (hMean t) (mVar t) (hVar t) mSum (Memref.isWhole_whole _) mSq (Memref.isWhole_whole _) (not_isFirst_of t h0) ((isLast_iff t).mpr h) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2),
    (sqLast_eq c (grid0.coords t) (mIn t) (hIn t) (mMean t) (hMean t) (mVar t) (hVar t) mSum (Memref.isWhole_whole _) mSq (Memref.isWhole_whole _) (not_isFirst_of t h0) ((isLast_iff t).mpr h) (iblk V c 0 t) (outsAt V c (t.val - 1) (Nat.lt_of_le_of_lt (Nat.sub_le _ _) t.isLt)).2.2.1 (outsAt V c (t.val - 1) (Nat.lt_of_le_of_lt (Nat.sub_le _ _) t.isLt)).2.2.2)]
  exact ⟨rfl, rfl⟩

end Entry

end Cert.KernelIdeal.Stats

end
-- ==== Proof.KI.StatsArray.lean ====
/-
  The batch-statistics region's two output arrays after its last point, and its input blocks, in plain coordinates.

  The grid has 16 points; the point at position 8·f + b handles feature half `f` (columns 1024·f … 1024·f + 1023)
  and batch tile `b` (rows 1024·b … 1024·b + 1023).  The input block there is that 1024×1024 tile of `x`.  The two
  1×2048 output arrays (means, variances) are written back only at the last batch tile of each half, b = 7: point
  8·f + 7 writes columns 1024·f … of each.  So points 7 and 15 between them cover both arrays, and after the last
  point entry 1024·f + q of an output array is entry q of what point 8·f + 7 left in that output's staging buffer.
-/
import proofs.«127384_j52072183496926_2_alg».proof.Proof.KI.Stats
import Idealize.ShloMosaic.Lib.Pipeline.Value
import Idealize.ShloMosaic.Lib.ValueIdx

set_option maxRecDepth 16384

noncomputable section

namespace Cert.KernelIdeal.StatsArray

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-- The printed index maps, decided over the 16 points: at position `t` the input window sits at block
    (t mod 8, t div 8) and each output window at block (0, t div 8). -/
theorem idx_facts : ∀ t : Fin cfg0.N,
    win0_0.index t (0 : Fin 2) = t.val % 8 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8 :=
  (by decide +kernel : ∀ t : Fin grid0.N, _)

variable (V : (c : Dev nD) → (b : Ref sig .tc) → Buf (Elt F) ((c : Thread nD τ).loc b))

/-! ## The input blocks -/

/-- The input block at position 8·f + t, at row `p`, column `q` of the block, is `x` at row 1024·t + p, column
    1024·f + q. -/
theorem tile_entry (c : Dev nD) (f : Fin 2) (t : Fin 8) (p q : Fin 1024) :
    (Stats.iblk V c 0 ⟨8 * f.val + t.val, by have h : cfg0.N = 16 := N_0; omega⟩ : Vec F S1024x1024 .f32) (ix2 p q)
      = (V c main_arg0 : Vec F S8192x2048 .f32)
          (ix2 (n0 := 8192) (n1 := 2048) ⟨1024 * t.val + p.val, by omega⟩ ⟨1024 * f.val + q.val, by omega⟩) := by
  obtain ⟨e0, e1, -⟩ := idx_facts ⟨8 * f.val + t.val, by have h : cfg0.N = 16 := N_0; omega⟩
  unfold Stats.iblk
  rw [View.read_apply]
  show (V c main_arg0 : Vec F S8192x2048 .f32) _ = (V c main_arg0 : Vec F S8192x2048 .f32) _
  congr 1
  funext a
  apply Fin.ext
  match a with
  | ⟨0, _⟩ =>
    show win0_0.index _ (0 : Fin 2) * 1024 + 1 * p.val = 1024 * t.val + p.val
    rw [e0]; show (8 * f.val + t.val) % 8 * 1024 + 1 * p.val = 1024 * t.val + p.val; omega
  | ⟨1, _⟩ =>
    show win0_0.index _ (1 : Fin 2) * 1024 + 1 * q.val = 1024 * f.val + q.val
    rw [e1]; show (8 * f.val + t.val) / 8 * 1024 + 1 * q.val = 1024 * f.val + q.val; omega

/-! ## The two output arrays as functions of what the last batch tiles leave -/

/-- The mean array a run ends with: columns 1024·f … come from what point 8·f + 7 left in the mean's buffer. -/
def meanAll (c : Dev nD) : Vec F S1x2048 .f32 := fun i =>
  (Stats.outsAt V c (8 * ((i 1).val / 1024) + 7) (by have := idx2_lt1 i; have h : cfg0.N = 16 := N_0; omega)).1
    (ix2 (0 : Fin 1) (⟨(i 1).val % 1024, Nat.mod_lt _ (by decide)⟩ : Fin 1024))

/-- The variance array likewise. -/
def varAll (c : Dev nD) : Vec F S1x2048 .f32 := fun i =>
  (Stats.outsAt V c (8 * ((i 1).val / 1024) + 7) (by have := idx2_lt1 i; have h : cfg0.N = 16 := N_0; omega)).2.1
    (ix2 (0 : Fin 1) (⟨(i 1).val % 1024, Nat.mod_lt _ (by decide)⟩ : Fin 1024))

/-- What a position leaves does not depend on how the position is written. -/
theorem outsAt_congr (c : Dev nD) (n n' : ℕ) (hn : n < cfg0.N) (hn' : n' < cfg0.N) (h : n = n') :
    Stats.outsAt V c n hn = Stats.outsAt V c n' hn' := by
  subst h; rfl

/-- `meanAll` at an index known by the last-tile point `t` whose block holds it and its place `y` in that block. -/
theorem meanAll_at (c : Dev nD) (t : Fin cfg0.N) (ht : t.val % 8 = 7) (y : S1x1024.Idx) (i : S1x2048.Idx)
    (h1 : (i 1).val = 1024 * (t.val / 8) + (y 1).val) :
    meanAll V c i = (Stats.outsAt V c t.val t.isLt).1 y := by
  have hy0 := idx2_lt0 y
  have hy1 := idx2_lt1 y
  unfold meanAll
  rw [outsAt_congr V c _ t.val _ t.isLt (by omega)]
  refine congrArg _ (funext fun a => ?_)
  match a with
  | ⟨0, _⟩ => exact Fin.ext (by show (0 : ℕ) = (y 0).val; omega)
  | ⟨1, _⟩ => exact Fin.ext (by show (i 1).val % 1024 = (y 1).val; omega)

theorem varAll_at (c : Dev nD) (t : Fin cfg0.N) (ht : t.val % 8 = 7) (y : S1x1024.Idx) (i : S1x2048.Idx)
    (h1 : (i 1).val = 1024 * (t.val / 8) + (y 1).val) :
    varAll V c i = (Stats.outsAt V c t.val t.isLt).2.1 y := by
  have hy0 := idx2_lt0 y
  have hy1 := idx2_lt1 y
  unfold varAll
  rw [outsAt_congr V c _ t.val _ t.isLt (by omega)]
  refine congrArg _ (funext fun a => ?_)
  match a with
  | ⟨0, _⟩ => exact Fin.ext (by show (0 : ℕ) = (y 0).val; omega)
  | ⟨1, _⟩ => exact Fin.ext (by show (i 1).val % 1024 = (y 1).val; omega)

/-! ## What the flushing points write back -/

/-- A point that writes the mean back writes block (0, f) of `meanAll`. -/
theorem flushed_mean (c : Dev nD) (t : Fin cfg0.N) (hf : (cfg0.win 1).flush t = true) :
    (Stats.dat V c).flushed 1 t = ((cfg0.win 1).blk t).view.read (Elt F) (meanAll V c) := by
  have ht : t.val % 8 = 7 := (flush0_1 t).mp hf
  obtain ⟨-, -, e0, e1, -⟩ := idx_facts t
  show (cfg0.win 1).cut (grid0.coords t) ((Stats.dat V c).after 1 t) = _
  rw [Stats.after_1]
  funext y
  rw [View.read_apply]
  refine (meanAll_at V c t ht y _ ?_).symm
  show win0_1.index t (1 : Fin 2) * 1024 + 1 * (y 1).val = 1024 * (t.val / 8) + (y 1).val
  rw [e1]; omega

theorem flushed_var (c : Dev nD) (t : Fin cfg0.N) (hf : (cfg0.win 2).flush t = true) :
    (Stats.dat V c).flushed 2 t = ((cfg0.win 2).blk t).view.read (Elt F) (varAll V c) := by
  have ht : t.val % 8 = 7 := (flush0_2 t).mp hf
  obtain ⟨-, -, -, -, e0, e1⟩ := idx_facts t
  show (cfg0.win 2).cut (grid0.coords t) ((Stats.dat V c).after 2 t) = _
  rw [Stats.after_2]
  funext y
  rw [View.read_apply]
  refine (varAll_at V c t ht y _ ?_).symm
  show win0_2.index t (1 : Fin 2) * 1024 + 1 * (y 1).val = 1024 * (t.val / 8) + (y 1).val
  rw [e1]; omega

/-! ## The two flushing points cover each array -/

theorem mem_blk_mean (t : Fin cfg0.N) (i : S1x2048.Idx) :
    i ∈ ((cfg0.win 1).blk t).view.set ↔ ∀ a : Fin 2, win0_1.index t a * S1x1024.size a ≤ (i a).val ∧ (i a).val < win0_1.index t a * S1x1024.size a + S1x1024.size a := by
  show i ∈ ((View.whole main_v0_0).slice (win0_1.rect t)).set ↔ _
  rw [View.set_slice_whole, Rect.mem_set_unit]
  exact Iff.rfl

theorem mem_blk_var (t : Fin cfg0.N) (i : S1x2048.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v0_1).slice (win0_2.rect t)).set ↔ _
  rw [View.set_slice_whole, Rect.mem_set_unit]
  exact Iff.rfl

/-- Column `j` of the mean array lies in the block written back by point 8·(j div 1024) + 7. -/
theorem cover_mean (i : S1x2048.Idx) :
    ∃ t : Fin cfg0.N, (cfg0.win 1).flush t = true ∧ i ∈ ((cfg0.win 1).blk t).view.set := by
  have hi0 := idx2_lt0 i
  have hi1 := idx2_lt1 i
  have hN : cfg0.N = 16 := N_0
  refine ⟨⟨8 * ((i 1).val / 1024) + 7, by omega⟩, (flush0_1 _).mpr (by show (8 * ((i 1).val / 1024) + 7) % 8 = 7; omega), ?_⟩
  obtain ⟨-, -, e0, e1, -⟩ := idx_facts ⟨8 * ((i 1).val / 1024) + 7, by omega⟩
  rw [mem_blk_mean]
  intro a
  match a with
  | ⟨0, _⟩ =>
    show win0_1.index _ (0 : Fin 2) * 1 ≤ (i 0).val ∧ (i 0).val < win0_1.index _ (0 : Fin 2) * 1 + 1
    rw [e0]; omega
  | ⟨1, _⟩ =>
    show win0_1.index _ (1 : Fin 2) * 1024 ≤ (i 1).val ∧ (i 1).val < win0_1.index _ (1 : Fin 2) * 1024 + 1024
    rw [e1]
    show (8 * ((i 1).val / 1024) + 7) / 8 * 1024 ≤ (i 1).val ∧ (i 1).val < (8 * ((i 1).val / 1024) + 7) / 8 * 1024 + 1024
    omega

theorem cover_var (i : S1x2048.Idx) :
    ∃ t : Fin cfg0.N, (cfg0.win 2).flush t = true ∧ i ∈ ((cfg0.win 2).blk t).view.set := by
  have hi0 := idx2_lt0 i
  have hi1 := idx2_lt1 i
  have hN : cfg0.N = 16 := N_0
  refine ⟨⟨8 * ((i 1).val / 1024) + 7, by omega⟩, (flush0_2 _).mpr (by show (8 * ((i 1).val / 1024) + 7) % 8 = 7; omega), ?_⟩
  obtain ⟨-, -, -, -, e0, e1⟩ := idx_facts ⟨8 * ((i 1).val / 1024) + 7, by omega⟩
  rw [mem_blk_var]
  intro a
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 1024 ≤ (i 1).val ∧ (i 1).val < win0_2.index _ (1 : Fin 2) * 1024 + 1024
    rw [e1]
    show (8 * ((i 1).val / 1024) + 7) / 8 * 1024 ≤ (i 1).val ∧ (i 1).val < (8 * ((i 1).val / 1024) + 7) / 8 * 1024 + 1024
    omega

/-! ## The arrays after the last point -/

/-- The mean array after the last point. -/
theorem arrAt_mean_all (c : Dev nD) : (Stats.dat V c).arrAt 1 cfg0.N = meanAll V c :=
  (Stats.dat V c).arrAt_eq_of_cover 1 _ (flushed_mean V c) cover_mean

/-- The variance array after the last point. -/
theorem arrAt_var_all (c : Dev nD) : (Stats.dat V c).arrAt 2 cfg0.N = varAll V c :=
  (Stats.dat V c).arrAt_eq_of_cover 2 _ (flushed_var V c) cover_var

/-- Entry 1024·f + q of the mean array is entry q of what point 8·f + 7 left in the mean's buffer. -/
theorem arrAt_mean (c : Dev nD) (f : Fin 2) (q : Fin 1024) :
    ((Stats.dat V c).arrAt 1 cfg0.N : Vec F S1x2048 .f32) (ix2 (0 : Fin 1) (⟨1024 * f.val + q.val, by omega⟩ : Fin 2048))
      = (Stats.outsAt V c (8 * f.val + 7) (by have h : cfg0.N = 16 := N_0; omega)).1 (ix2 (0 : Fin 1) q) := by
  rw [arrAt_mean_all]
  exact meanAll_at V c ⟨8 * f.val + 7, by have h : cfg0.N = 16 := N_0; omega⟩
    (by show (8 * f.val + 7) % 8 = 7; omega) (ix2 (0 : Fin 1) q) _
    (by show 1024 * f.val + q.val = 1024 * ((8 * f.val + 7) / 8) + q.val; omega)

/-- Entry 1024·f + q of the variance array is entry q of what point 8·f + 7 left in the variance's buffer. -/
theorem arrAt_var (c : Dev nD) (f : Fin 2) (q : Fin 1024) :
    ((Stats.dat V c).arrAt 2 cfg0.N : Vec F S1x2048 .f32) (ix2 (0 : Fin 1) (⟨1024 * f.val + q.val, by omega⟩ : Fin 2048))
      = (Stats.outsAt V c (8 * f.val + 7) (by have h : cfg0.N = 16 := N_0; omega)).2.1 (ix2 (0 : Fin 1) q) := by
  rw [arrAt_var_all]
  exact varAll_at V c ⟨8 * f.val + 7, by have h : cfg0.N = 16 := N_0; omega⟩
    (by show (8 * f.val + 7) % 8 = 7; omega) (ix2 (0 : Fin 1) q) _
    (by show 1024 * f.val + q.val = 1024 * ((8 * f.val + 7) / 8) + q.val; omega)

end Cert.KernelIdeal.StatsArray

end
-- ==== Proof.KI.StatsEntry.lean ====
import proofs.«127384_j52072183496926_2_alg».proof.Proof.Gen.KernelIdeal.Skeleton
import proofs.«127384_j52072183496926_2_alg».proof.Proof.LibBatchNormSign
import Idealize.ShloMosaic.Lib.ValueIdx
import Idealize.ShloMosaic.Lib.ValueLayout
import Idealize.ShloMosaic.Lib.Pipeline.Value
import Idealize.ShloMosaic.PureOps.Ideal.Laws

/-!
# The batch statistics, one feature at a time, over the extended reals

The first kernel walks down a column of the batch in eight tiles of 1024 rows. Two running rows,
one for the sums and one for the sums of squares, start at zero; each tile adds its column sums to
the first and the column sums of its squares to the second. After the last tile the mean is the
first row over 8192 and the variance is the second row over 8192 minus the square of the mean.

Read at one feature `q` of a tile, each of these steps is a formula in plain coordinates; and the
eight steps together give the sum over all 8192 rows of the column.
-/

noncomputable section

open scoped BigOperators

namespace Cert.KernelIdeal.StatsEntry

open Cert.KernelIdeal Cert.KernelIdeal.Gen
open Idealize.ShloMosaic Idealize.ShloMosaic.ValueIdx

/-! ## One tile -/

/-- The sum down the rows of a tile, at feature `q`: the sum of the tile's 1024 entries in column `q`. -/
theorem lane_sum (x : FVec Ideal S1024x1024 .f32) (q : Fin 1024) :
    multiReduction (F := Ideal) .add [0] S1024 x 0x00000000#32 reduces_S1024x1024_S1024 (.inl rfl) rfl (ix1 q)
      = ∑ p : Fin 1024, x (ix2 p q) := by
  refine (Ideal.multiReduction_add_single x 0x00000000#32 reduces_S1024x1024_S1024 (.inl rfl) rfl (ix1 q)).trans ?_
  refine Finset.sum_congr rfl fun p _ => congrArg x (funext fun a => Fin.ext (by
    match a with
    | ⟨0, _⟩ => rfl
    | ⟨1, _⟩ => rfl))

/-- The row the running sums start from is the zero word at every feature. -/
theorem pay1_apply (q : Fin 1024) : k0_pay1 (F := Ideal) (ix2 (0 : Fin 1) q) = Ideal.ofBits .f32 0x00000000#32 := by
  show shapeCast S1x1024 (broadcast S1x1024 (Scalar.ofBits (F := Ideal) .f32 0x00000000#32)) shapeCasts_S1x1024_S1x1024
    (ix2 (0 : Fin 1) q) = _
  rw [shapeCast_self]
  rfl

/-- The row the running sums of squares start from is the zero word at every feature. -/
theorem pay2_apply (q : Fin 1024) : k0_pay2 (F := Ideal) (ix2 (0 : Fin 1) q) = Ideal.ofBits .f32 0x00000000#32 := by
  show shapeCast S1x1024 (broadcast S1x1024 (Scalar.ofBits (F := Ideal) .f32 0x00000000#32)) shapeCasts_S1x1024_S1x1024
    (ix2 (0 : Fin 1) q) = _
  rw [shapeCast_self]
  rfl

/-- One step of the running sums: the row so far plus the tile's column sum. -/
theorem pay3_apply (x : Vec Ideal S1024x1024 .f32) (s : Vec Ideal S1x1024 .f32) (q : Fin 1024) :
    k0_pay3 (F := Ideal) x s (ix2 (0 : Fin 1) q) = s (ix2 (0 : Fin 1) q) + ∑ p : Fin 1024, x (ix2 p q) := by
  show shapeCast S1x1024 (addf s (shapeCast S1x1024
      (multiReduction (F := Ideal) .add [0] S1024 x 0x00000000#32 reduces_S1024x1024_S1024 (.inl rfl) rfl)
      shapeCasts_S1024_S1x1024)) shapeCasts_S1x1024_S1x1024 (ix2 (0 : Fin 1) q) = _
  rw [shapeCast_self]
  show s (ix2 (0 : Fin 1) q) + shapeCast S1x1024
      (multiReduction (F := Ideal) .add [0] S1024 x 0x00000000#32 reduces_S1024x1024_S1024 (.inl rfl) rfl)
      shapeCasts_S1024_S1x1024 (ix2 (0 : Fin 1) q) = _
  rw [shapeCast_a_1a_apply, lane_sum]

/-- One step of the running sums of squares: the row so far plus the column sum of the tile's squares. -/
theorem pay4_apply (x : Vec Ideal S1024x1024 .f32) (s2 : Vec Ideal S1x1024 .f32) (q : Fin 1024) :
    k0_pay4 (F := Ideal) x s2 (ix2 (0 : Fin 1) q)
      = s2 (ix2 (0 : Fin 1) q) + ∑ p : Fin 1024, x (ix2 p q) * x (ix2 p q) := by
  show shapeCast S1x1024 (addf s2 (shapeCast S1x1024
      (multiReduction (F := Ideal) .add [0] S1024 (mulf x x) 0x00000000#32 reduces_S1024x1024_S1024 (.inl rfl) rfl)
      shapeCasts_S1024_S1x1024)) shapeCasts_S1x1024_S1x1024 (ix2 (0 : Fin 1) q) = _
  rw [shapeCast_self]
  show s2 (ix2 (0 : Fin 1) q) + shapeCast S1x1024
      (multiReduction (F := Ideal) .add [0] S1024 (mulf x x) 0x00000000#32 reduces_S1024x1024_S1024 (.inl rfl) rfl)
      shapeCasts_S1024_S1x1024 (ix2 (0 : Fin 1) q) = _
  rw [shapeCast_a_1a_apply, lane_sum]
  rfl

/-- The mean: the row of sums over the word of 8192. -/
theorem pay5_apply (s : Vec Ideal S1x1024 .f32) (q : Fin 1024) :
    k0_pay5 (F := Ideal) s (ix2 (0 : Fin 1) q)
      = Ideal.div (s (ix2 (0 : Fin 1) q)) (Ideal.ofBits .f32 0x46000000#32) := rfl

/-- The variance: the row of sums of squares over the word of 8192, minus the square of the mean. -/
theorem pay6_apply (s s2 : Vec Ideal S1x1024 .f32) (q : Fin 1024) :
    k0_pay6 (F := Ideal) s s2 (ix2 (0 : Fin 1) q)
      = Ideal.div (s2 (ix2 (0 : Fin 1) q)) (Ideal.ofBits .f32 0x46000000#32)
        - Ideal.div (s (ix2 (0 : Fin 1) q)) (Ideal.ofBits .f32 0x46000000#32)
          * Ideal.div (s (ix2 (0 : Fin 1) q)) (Ideal.ofBits .f32 0x46000000#32) := rfl

/-! ## Eight tiles -/

/-- A running row that starts at the zero word plus step 0's contribution and adds step `t + 1`'s
    contribution at step `t + 1` holds, after step 7, the sum of the eight contributions. -/
theorem total_of_steps (c : Fin 8 → EReal) (a : ℕ → EReal)
    (h0 : a 0 = Ideal.ofBits .f32 0x00000000#32 + c 0)
    (hs : ∀ t (ht : t + 1 < 8), a (t + 1) = a t + c ⟨t + 1, ht⟩) : a 7 = ∑ t : Fin 8, c t := by
  have key := Cert.Spec.acc_eq_sum 8 (Ideal.ofBits .f32 0x00000000#32)
    (fun t => if ht : t < 8 then c ⟨t, ht⟩ else 0) a
    (by rw [h0]; rfl) (fun t ht => by rw [hs t ht, dif_pos ht]) 7 (by norm_num)
  rw [key, Cert.Spec.zero_word_add, Finset.sum_range]
  exact Finset.sum_congr rfl fun t _ => by rw [dif_pos t.isLt]

/-- After the eighth tile the running sums hold, at feature `q`, the sum over the eight tiles of each
    tile's column `q`. -/
theorem sums_total (X : Fin 8 → Vec Ideal S1024x1024 .f32) (S : ℕ → Vec Ideal S1x1024 .f32)
    (hS0 : S 0 = k0_pay3 (F := Ideal) (X 0) (k0_pay1 (F := Ideal)))
    (hS : ∀ t (ht : t + 1 < 8), S (t + 1) = k0_pay3 (F := Ideal) (X ⟨t + 1, ht⟩) (S t)) (q : Fin 1024) :
    S 7 (ix2 (0 : Fin 1) q) = ∑ t : Fin 8, ∑ p : Fin 1024, X t (ix2 p q) :=
  total_of_steps (fun t => ∑ p : Fin 1024, X t (ix2 p q)) (fun t => S t (ix2 (0 : Fin 1) q))
    (by show S 0 (ix2 (0 : Fin 1) q) = _; rw [hS0, pay3_apply, pay1_apply])
    (fun t ht => by show S (t + 1) (ix2 (0 : Fin 1) q) = _; rw [hS t ht, pay3_apply])

/-- After the eighth tile the running sums of squares hold, at feature `q`, the sum over the eight tiles
    of the squares in each tile's column `q`. -/
theorem squares_total (X : Fin 8 → Vec Ideal S1024x1024 .f32) (Q : ℕ → Vec Ideal S1x1024 .f32)
    (hQ0 : Q 0 = k0_pay4 (F := Ideal) (X 0) (k0_pay2 (F := Ideal)))
    (hQ : ∀ t (ht : t + 1 < 8), Q (t + 1) = k0_pay4 (F := Ideal) (X ⟨t + 1, ht⟩) (Q t)) (q : Fin 1024) :
    Q 7 (ix2 (0 : Fin 1) q) = ∑ t : Fin 8, ∑ p : Fin 1024, X t (ix2 p q) * X t (ix2 p q) :=
  total_of_steps (fun t => ∑ p : Fin 1024, X t (ix2 p q) * X t (ix2 p q)) (fun t => Q t (ix2 (0 : Fin 1) q))
    (by show Q 0 (ix2 (0 : Fin 1) q) = _; rw [hQ0, pay4_apply, pay2_apply])
    (fun t ht => by show Q (t + 1) (ix2 (0 : Fin 1) q) = _; rw [hQ t ht, pay4_apply])

/-! ## The eight tiles are one column of the batch -/

/-- When tile `t`'s column `q` is rows `1024 t, …, 1024 t + 1023` of column `j` of the batch, the running
    sums end at the sum of the whole column `j`. -/
theorem sums_column (x8 : Vec Ideal S8192x2048 .f32) (j : Fin 2048) (q : Fin 1024)
    (e : Fin 8 → Fin 1024 → Fin 8192) (he : ∀ t p, (e t p).val = 1024 * t.val + p.val)
    (X : Fin 8 → Vec Ideal S1024x1024 .f32) (hX : ∀ t p, X t (ix2 p q) = x8 (ix2 (e t p) j))
    (S : ℕ → Vec Ideal S1x1024 .f32)
    (hS0 : S 0 = k0_pay3 (F := Ideal) (X 0) (k0_pay1 (F := Ideal)))
    (hS : ∀ t (ht : t + 1 < 8), S (t + 1) = k0_pay3 (F := Ideal) (X ⟨t + 1, ht⟩) (S t)) :
    S 7 (ix2 (0 : Fin 1) q) = ∑ r : Fin 8192, x8 (ix2 r j) := by
  rw [sums_total X S hS0 hS q]
  simp only [hX]
  exact Cert.Spec.sum_tiles_8_1024 (fun r => x8 (ix2 r j)) e he

/-- Likewise the running sums of squares end at the sum of the squares of the whole column `j`. -/
theorem squares_column (x8 : Vec Ideal S8192x2048 .f32) (j : Fin 2048) (q : Fin 1024)
    (e : Fin 8 → Fin 1024 → Fin 8192) (he : ∀ t p, (e t p).val = 1024 * t.val + p.val)
    (X : Fin 8 → Vec Ideal S1024x1024 .f32) (hX : ∀ t p, X t (ix2 p q) = x8 (ix2 (e t p) j))
    (Q : ℕ → Vec Ideal S1x1024 .f32)
    (hQ0 : Q 0 = k0_pay4 (F := Ideal) (X 0) (k0_pay2 (F := Ideal)))
    (hQ : ∀ t (ht : t + 1 < 8), Q (t + 1) = k0_pay4 (F := Ideal) (X ⟨t + 1, ht⟩) (Q t)) :
    Q 7 (ix2 (0 : Fin 1) q) = ∑ r : Fin 8192, x8 (ix2 r j) * x8 (ix2 r j) := by
  rw [squares_total X Q hQ0 hQ q]
  simp only [hX]
  exact Cert.Spec.sum_tiles_8_1024 (fun r => x8 (ix2 r j) * x8 (ix2 r j)) e he

/-- So the mean the kernel stores for feature `j` is the column sum over the word of 8192. -/
theorem mean_column (x8 : Vec Ideal S8192x2048 .f32) (j : Fin 2048) (q : Fin 1024)
    (e : Fin 8 → Fin 1024 → Fin 8192) (he : ∀ t p, (e t p).val = 1024 * t.val + p.val)
    (X : Fin 8 → Vec Ideal S1024x1024 .f32) (hX : ∀ t p, X t (ix2 p q) = x8 (ix2 (e t p) j))
    (S : ℕ → Vec Ideal S1x1024 .f32)
    (hS0 : S 0 = k0_pay3 (F := Ideal) (X 0) (k0_pay1 (F := Ideal)))
    (hS : ∀ t (ht : t + 1 < 8), S (t + 1) = k0_pay3 (F := Ideal) (X ⟨t + 1, ht⟩) (S t)) :
    k0_pay5 (F := Ideal) (S 7) (ix2 (0 : Fin 1) q)
      = Ideal.div (∑ r : Fin 8192, x8 (ix2 r j)) (Ideal.ofBits .f32 0x46000000#32) := by
  rw [pay5_apply, sums_column x8 j q e he X hX S hS0 hS]

/-- And the variance it stores is the column sum of squares over the word of 8192, minus the square
    of that mean. -/
theorem var_column (x8 : Vec Ideal S8192x2048 .f32) (j : Fin 2048) (q : Fin 1024)
    (e : Fin 8 → Fin 1024 → Fin 8192) (he : ∀ t p, (e t p).val = 1024 * t.val + p.val)
    (X : Fin 8 → Vec Ideal S1024x1024 .f32) (hX : ∀ t p, X t (ix2 p q) = x8 (ix2 (e t p) j))
    (S Q : ℕ → Vec Ideal S1x1024 .f32)
    (hS0 : S 0 = k0_pay3 (F := Ideal) (X 0) (k0_pay1 (F := Ideal)))
    (hS : ∀ t (ht : t + 1 < 8), S (t + 1) = k0_pay3 (F := Ideal) (X ⟨t + 1, ht⟩) (S t))
    (hQ0 : Q 0 = k0_pay4 (F := Ideal) (X 0) (k0_pay2 (F := Ideal)))
    (hQ : ∀ t (ht : t + 1 < 8), Q (t + 1) = k0_pay4 (F := Ideal) (X ⟨t + 1, ht⟩) (Q t)) :
    k0_pay6 (F := Ideal) (S 7) (Q 7) (ix2 (0 : Fin 1) q)
      = Ideal.div (∑ r : Fin 8192, x8 (ix2 r j) * x8 (ix2 r j)) (Ideal.ofBits .f32 0x46000000#32)
        - Ideal.div (∑ r : Fin 8192, x8 (ix2 r j)) (Ideal.ofBits .f32 0x46000000#32)
          * Ideal.div (∑ r : Fin 8192, x8 (ix2 r j)) (Ideal.ofBits .f32 0x46000000#32) := by
  rw [pay6_apply, sums_column x8 j q e he X hX S hS0 hS, squares_column x8 j q e he X hX Q hQ0 hQ]

end Cert.KernelIdeal.StatsEntry

end
-- ==== Proof.KI.StatsValue.lean ====
import proofs.«127384_j52072183496926_2_alg».proof.Proof.KI.Stats
import proofs.«127384_j52072183496926_2_alg».proof.Proof.KI.StatsArray
import proofs.«127384_j52072183496926_2_alg».proof.Proof.KI.StatsEntry

/-!
# The two arrays the first kernel leaves: the batch mean and the batch variance

Feature `j = 1024 f + q` belongs to feature half `f`. The eight grid points `8 f, …, 8 f + 7` walk down
column `j` of the batch, tile by tile, carrying a row of running sums and a row of running sums of
squares; the last of them writes the mean and the variance of the column. Given how one point's
carried rows arise from the previous point's (three facts, taken here as hypotheses), entry `j` of the
mean array is the sum of column `j` over 8192, and entry `j` of the variance array is the sum of the
squares of column `j` over 8192 minus the square of that mean.
-/

noncomputable section

open scoped BigOperators

namespace Cert.KernelIdeal.StatsValue

open Cert.KernelIdeal Cert.KernelIdeal.Gen
open Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- The batch, as the first kernel finds it. -/
abbrev batch : Vec Ideal S8192x2048 .f32 := V c main_arg0

/-- The mean array after the first kernel's last point. -/
abbrev meanArr : Vec Ideal S1x2048 .f32 := (Stats.dat (F := Ideal) V c).arrAt 1 cfg0.N

/-- The variance array after the first kernel's last point. -/
abbrev varArr : Vec Ideal S1x2048 .f32 := (Stats.dat (F := Ideal) V c).arrAt 2 cfg0.N

/-- Position `8 f + t` of the grid is one of its 16 points when `t < 8`. -/
theorem pos_lt (f : Fin 2) (t : ℕ) (ht : t < 8) : 8 * f.val + t < cfg0.N := by
  have hN : cfg0.N = 16 := N_0
  omega

/-- The tile of the batch that point `8 f + t` reads. -/
def tile (f : Fin 2) (t : Fin 8) : Vec Ideal S1024x1024 .f32 :=
  Stats.iblk V c 0 ⟨8 * f.val + t.val, pos_lt f t.val t.isLt⟩

/-- The row of running sums that point `8 f + t` leaves (for `t < 8`; any row beyond). -/
def sumsRow (f : Fin 2) (t : ℕ) : Vec Ideal S1x1024 .f32 :=
  if h : t < 8 then (Stats.outsAt V c (8 * f.val + t) (pos_lt f t h)).2.2.1 else k0_pay1 (F := Ideal)

/-- The row of running sums of squares that point `8 f + t` leaves (for `t < 8`; any row beyond). -/
def squaresRow (f : Fin 2) (t : ℕ) : Vec Ideal S1x1024 .f32 :=
  if h : t < 8 then (Stats.outsAt V c (8 * f.val + t) (pos_lt f t h)).2.2.2 else k0_pay2 (F := Ideal)

section Steps

variable
  (hfirst : ∀ (t : Fin cfg0.N), t.val % 8 = 0 →
    (Stats.outsAt V c t.val t.isLt).2.2
      = (k0_pay3 (Stats.iblk V c 0 t) (k0_pay1 (F := Ideal)), k0_pay4 (Stats.iblk V c 0 t) (k0_pay2 (F := Ideal))))
  (hnext : ∀ (t : Fin cfg0.N), t.val % 8 ≠ 0 →
    (Stats.outsAt V c t.val t.isLt).2.2
      = (k0_pay3 (Stats.iblk V c 0 t)
            (Stats.outsAt V c (t.val - 1) (Nat.lt_of_le_of_lt (Nat.sub_le _ _) t.isLt)).2.2.1,
         k0_pay4 (Stats.iblk V c 0 t)
            (Stats.outsAt V c (t.val - 1) (Nat.lt_of_le_of_lt (Nat.sub_le _ _) t.isLt)).2.2.2))
  (hlast : ∀ (t : Fin cfg0.N), t.val % 8 = 7 →
    (Stats.outsAt V c t.val t.isLt).1 = k0_pay5 (Stats.outsAt V c t.val t.isLt).2.2.1
      ∧ (Stats.outsAt V c t.val t.isLt).2.1
          = k0_pay6 (Stats.outsAt V c t.val t.isLt).2.2.1 (Stats.outsAt V c t.val t.isLt).2.2.2)

include hfirst in
/-- The first point of a feature half starts both rows from the zero row. -/
theorem rows_zero (f : Fin 2) :
    sumsRow V c f 0 = k0_pay3 (F := Ideal) (tile V c f 0) (k0_pay1 (F := Ideal))
      ∧ squaresRow V c f 0 = k0_pay4 (F := Ideal) (tile V c f 0) (k0_pay2 (F := Ideal)) := by
  have h := hfirst ⟨8 * f.val + 0, pos_lt f 0 (by norm_num)⟩ (by show (8 * f.val + 0) % 8 = 0; omega)
  have h1 : (Stats.outsAt V c (8 * f.val + 0) (pos_lt f 0 (by norm_num))).2.2
      = (k0_pay3 (F := Ideal) (tile V c f 0) (k0_pay1 (F := Ideal)),
         k0_pay4 (F := Ideal) (tile V c f 0) (k0_pay2 (F := Ideal))) := h
  unfold sumsRow squaresRow
  rw [dif_pos (by norm_num : (0 : ℕ) < 8), dif_pos (by norm_num : (0 : ℕ) < 8)]
  exact ⟨congrArg Prod.fst h1, congrArg Prod.snd h1⟩

include hnext in
/-- Every later point of the half adds its tile to the rows the point before left. -/
theorem rows_succ (f : Fin 2) (t : ℕ) (ht : t + 1 < 8) :
    sumsRow V c f (t + 1) = k0_pay3 (F := Ideal) (tile V c f ⟨t + 1, ht⟩) (sumsRow V c f t)
      ∧ squaresRow V c f (t + 1) = k0_pay4 (F := Ideal) (tile V c f ⟨t + 1, ht⟩) (squaresRow V c f t) := by
  have ht' : t < 8 := Nat.lt_of_succ_lt ht
  have h := hnext ⟨8 * f.val + (t + 1), pos_lt f (t + 1) ht⟩ (by show (8 * f.val + (t + 1)) % 8 ≠ 0; omega)
  have e := StatsArray.outsAt_congr V c (8 * f.val + (t + 1) - 1) (8 * f.val + t)
    (Nat.lt_of_le_of_lt (Nat.sub_le _ _) (pos_lt f (t + 1) ht)) (pos_lt f t ht') (by omega)
  have h1 : (Stats.outsAt V c (8 * f.val + (t + 1)) (pos_lt f (t + 1) ht)).2.2
      = (k0_pay3 (F := Ideal) (tile V c f ⟨t + 1, ht⟩)
            (Stats.outsAt V c (8 * f.val + (t + 1) - 1)
              (Nat.lt_of_le_of_lt (Nat.sub_le _ _) (pos_lt f (t + 1) ht))).2.2.1,
         k0_pay4 (F := Ideal) (tile V c f ⟨t + 1, ht⟩)
            (Stats.outsAt V c (8 * f.val + (t + 1) - 1)
              (Nat.lt_of_le_of_lt (Nat.sub_le _ _) (pos_lt f (t + 1) ht))).2.2.2) := h
  rw [e] at h1
  unfold sumsRow squaresRow
  rw [dif_pos ht, dif_pos ht, dif_pos ht', dif_pos ht']
  exact ⟨congrArg Prod.fst h1, congrArg Prod.snd h1⟩

end Steps

/-- Row `p` of tile `t` of feature half `f` is row `1024 t + p` of the batch. -/
def batchRow (t : Fin 8) (p : Fin 1024) : Fin 8192 := ⟨1024 * t.val + p.val, by omega⟩

/-- Feature `q` of feature half `f` is feature `1024 f + q` of the batch. -/
def feature (f : Fin 2) (q : Fin 1024) : Fin 2048 := ⟨1024 * f.val + q.val, by omega⟩

/-- A tile's entry is the batch's entry at the row and feature it stands for. -/
theorem tile_apply (f : Fin 2) (t : Fin 8) (p q : Fin 1024) :
    tile V c f t (ix2 p q) = batch V c (ix2 (batchRow t p) (feature f q)) :=
  StatsArray.tile_entry V c f t p q

section Arrays

variable
  (hfirst : ∀ (t : Fin cfg0.N), t.val % 8 = 0 →
    (Stats.outsAt V c t.val t.isLt).2.2
      = (k0_pay3 (Stats.iblk V c 0 t) (k0_pay1 (F := Ideal)), k0_pay4 (Stats.iblk V c 0 t) (k0_pay2 (F := Ideal))))
  (hnext : ∀ (t : Fin cfg0.N), t.val % 8 ≠ 0 →
    (Stats.outsAt V c t.val t.isLt).2.2
      = (k0_pay3 (Stats.iblk V c 0 t)
            (Stats.outsAt V c (t.val - 1) (Nat.lt_of_le_of_lt (Nat.sub_le _ _) t.isLt)).2.2.1,
         k0_pay4 (Stats.iblk V c 0 t)
            (Stats.outsAt V c (t.val - 1) (Nat.lt_of_le_of_lt (Nat.sub_le _ _) t.isLt)).2.2.2))
  (hlast : ∀ (t : Fin cfg0.N), t.val % 8 = 7 →
    (Stats.outsAt V c t.val t.isLt).1 = k0_pay5 (Stats.outsAt V c t.val t.isLt).2.2.1
      ∧ (Stats.outsAt V c t.val t.isLt).2.1
          = k0_pay6 (Stats.outsAt V c t.val t.isLt).2.2.1 (Stats.outsAt V c t.val t.isLt).2.2.2)

include hfirst hnext hlast in
/-- The mean array at feature `1024 f + q`: the sum of that column of the batch, over the word of 8192. -/
theorem mean_at (f : Fin 2) (q : Fin 1024) :
    meanArr V c (ix2 (0 : Fin 1) (feature f q))
      = Ideal.div (∑ r : Fin 8192, batch V c (ix2 r (feature f q)))
          (Ideal.ofBits .f32 0x46000000#32) := by
  have hl := hlast ⟨8 * f.val + 7, pos_lt f 7 (by norm_num)⟩ (by show (8 * f.val + 7) % 8 = 7; omega)
  have hl1 : (Stats.outsAt V c (8 * f.val + 7) (pos_lt f 7 (by norm_num))).1
      = k0_pay5 (F := Ideal) (sumsRow V c f 7) := by
    unfold sumsRow; rw [dif_pos (by norm_num : (7 : ℕ) < 8)]; exact hl.1
  refine (StatsArray.arrAt_mean V c f q).trans ?_
  rw [hl1]
  exact StatsEntry.mean_column (batch V c) (feature f q) q batchRow (fun t p => rfl)
    (tile V c f) (fun t p => tile_apply V c f t p q) (sumsRow V c f)
    (rows_zero V c hfirst f).1 (fun t ht => (rows_succ V c hnext f t ht).1)

include hfirst hnext hlast in
/-- The variance array at feature `1024 f + q`: the sum of the squares of that column over the word of
    8192, minus the square of the mean array's entry there. -/
theorem var_at (f : Fin 2) (q : Fin 1024) :
    varArr V c (ix2 (0 : Fin 1) (feature f q))
      = Ideal.div (∑ r : Fin 8192, batch V c (ix2 r (feature f q))
              * batch V c (ix2 r (feature f q)))
          (Ideal.ofBits .f32 0x46000000#32)
        - meanArr V c (ix2 (0 : Fin 1) (feature f q))
          * meanArr V c (ix2 (0 : Fin 1) (feature f q)) := by
  have hl := hlast ⟨8 * f.val + 7, pos_lt f 7 (by norm_num)⟩ (by show (8 * f.val + 7) % 8 = 7; omega)
  have hl2 : (Stats.outsAt V c (8 * f.val + 7) (pos_lt f 7 (by norm_num))).2.1
      = k0_pay6 (F := Ideal) (sumsRow V c f 7) (squaresRow V c f 7) := by
    unfold sumsRow squaresRow
    rw [dif_pos (by norm_num : (7 : ℕ) < 8), dif_pos (by norm_num : (7 : ℕ) < 8)]; exact hl.2
  rw [mean_at V c hfirst hnext hlast f q]
  refine (StatsArray.arrAt_var V c f q).trans ?_
  rw [hl2]
  exact StatsEntry.var_column (batch V c) (feature f q) q batchRow (fun t p => rfl)
    (tile V c f) (fun t p => tile_apply V c f t p q) (sumsRow V c f) (squaresRow V c f)
    (rows_zero V c hfirst f).1 (fun t ht => (rows_succ V c hnext f t ht).1)
    (rows_zero V c hfirst f).2 (fun t ht => (rows_succ V c hnext f t ht).2)

/-- Every feature is `1024 f + q` for its half `f` and its place `q` in the half. -/
theorem feature_split (j : Fin 2048) :
    j = feature ⟨j.val / 1024, by omega⟩ ⟨j.val % 1024, Nat.mod_lt _ (by norm_num)⟩ :=
  Fin.ext (by show j.val = 1024 * (j.val / 1024) + j.val % 1024; omega)

include hfirst hnext hlast in
/-- The mean array at any feature `j`. -/
theorem mean_apply (j : Fin 2048) :
    meanArr V c (ix2 (0 : Fin 1) j)
      = Ideal.div (∑ r : Fin 8192, batch V c (ix2 r j))
          (Ideal.ofBits .f32 0x46000000#32) := by
  rw [feature_split j]
  exact mean_at V c hfirst hnext hlast _ _

include hfirst hnext hlast in
/-- The variance array at any feature `j`. -/
theorem var_apply (j : Fin 2048) :
    varArr V c (ix2 (0 : Fin 1) j)
      = Ideal.div (∑ r : Fin 8192, batch V c (ix2 r j)
              * batch V c (ix2 r j))
          (Ideal.ofBits .f32 0x46000000#32)
        - meanArr V c (ix2 (0 : Fin 1) j)
          * meanArr V c (ix2 (0 : Fin 1) j) := by
  rw [feature_split j]
  exact var_at V c hfirst hnext hlast _ _

end Arrays

end Cert.KernelIdeal.StatsValue

end
-- ==== Proof.RefRun.lean ====
import proofs.«127384_j52072183496926_2_alg».proof.Proof.Gen.ReferenceIdeal
import Idealize.ShloMosaic.Lib.StableHlo.Run

/-!
# The reference program's run, with its three calls opened

The reference computes, from `x : f32[8192,2048]`, `w : f32[2048,2048]`, `g b : f32[2048]`:
the column mean of `x`; the column variance of `x` (the mean of the squared deviations, guarded by a
comparison of the divisor against zero that selects a NaN constant otherwise); the normalized rows
`xn = (x - mean) * rsqrt (var + eps) * g + b`; the binarized weight written `w + (sign - w)` with
`sign = select (w ≥ 0) 1 (-1)`; the product of `xn` with the binarized weight contracted along the
second axis of both; and the clip of that product to `[-1, 1]`.

Each of these is named below as a pure function of the argument arrays, one built on the other, and
`run` states that every weakly fair execution of the program ends with the result buffer at `out`
of the arguments' launch contents, the arguments unchanged.
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- The column mean: the sum over the 8192 rows (from zero), divided by 8192. -/
def mean (x : FVec F S8192x2048 .f32) : FVec F S2048 .f32 :=
  Host.divf (Host.reduceAdd x (constant S_ .f32 0x00000000#32) reducesTo_S8192x2048_S2048_d0 h_S_)
    (broadcastInDim S2048 ![] bcast_S_S2048 (constant S_ .f32 0x46000000#32))

/-- The variance's divisor: 8192 minus the integer 0 converted to a float (the degrees-of-freedom correction, here none). -/
def count : FVec F S_ .f32 :=
  subf (constant S_ .f32 0x46000000#32) (sitofp .f32 (constantI S_ 32 0#32))

/-- The deviations from the column mean, the mean recomputed as a row `[1,2048]` and broadcast down the rows. -/
def centered (x : FVec F S8192x2048 .f32) : FVec F S8192x2048 .f32 :=
  subf x (broadcastInDim S8192x2048 ![0, 1] bcast_S1x2048_S8192x2048_0_1
    (Host.divf
      (broadcastInDim S1x2048 ![1] bcast_S2048_S1x2048_1
        (Host.reduceAdd x (constant S_ .f32 0x00000000#32) reducesTo_S8192x2048_S2048_d0 h_S_))
      (broadcastInDim S1x2048 ![] bcast_S_S1x2048 (constant S_ .f32 0x46000000#32))))

/-- The column variance: where the divisor is positive, the sum of squared deviations over the divisor; elsewhere the NaN constant. -/
def var (x : FVec F S8192x2048 .f32) : FVec F S2048 .f32 :=
  select (broadcastInDim S2048 ![] bcast_S_S2048 (cmpf .ogt (count (F := F)) (constant S_ .f32 0x00000000#32)))
    (Host.divf
      (Host.reduceAdd (mulf (centered x) (centered x)) (constant S_ .f32 0x00000000#32) reducesTo_S8192x2048_S2048_d0 h_S_)
      (broadcastInDim S2048 ![] bcast_S_S2048 (count (F := F))))
    (broadcastInDim S2048 ![] bcast_S_S2048 (constant S_ .f32 0x7FC00000#32))

/-- A `[2048]` vector repeated down the 8192 rows (through the row shape `[1,2048]`). -/
def rows (v : FVec F S2048 .f32) : FVec F S8192x2048 .f32 :=
  broadcastInDim S8192x2048 ![0, 1] bcast_S1x2048_S8192x2048_0_1 (broadcastInDim S1x2048 ![1] bcast_S2048_S1x2048_1 v)

/-- The normalized rows: `(x - mean) * rsqrt (var + eps) * g + b`, each column statistic repeated down the rows. -/
def xn (x : FVec F S8192x2048 .f32) (g b : FVec F S2048 .f32) : FVec F S8192x2048 .f32 :=
  addf
    (mulf
      (mulf (subf x (rows (mean x)))
        (rows (Host.rsqrt (addf (var x) (broadcastInDim S2048 ![] bcast_S_S2048 (constant S_ .f32 0x3727C5AC#32))))))
      (rows g))
    (rows b)

/-- The binarized weight, as the program writes it: `w + (sign - w)`, `sign` being 1 where `w ≥ 0` and -1 elsewhere. -/
def wb (w : FVec F S2048x2048 .f32) : FVec F S2048x2048 .f32 :=
  addf w
    (subf
      (select (cmpf .oge w (broadcastInDim S2048x2048 ![] bcast_S_S2048x2048 (constant S_ .f32 0x00000000#32)))
        (broadcastInDim S2048x2048 ![] bcast_S_S2048x2048 (constant S_ .f32 0x3F800000#32))
        (broadcastInDim S2048x2048 ![] bcast_S_S2048x2048 (constant S_ .f32 0xBF800000#32)))
      w)

/-- The result: the product of the normalized rows with the binarized weight (contracting the second axis of both), clipped to `[-1, 1]`. -/
def out (x : FVec F S8192x2048 .f32) (w : FVec F S2048x2048 .f32) (g b : FVec F S2048 .f32) : FVec F S8192x2048 .f32 :=
  minimumf (broadcastInDim S8192x2048 ![] bcast_S_S8192x2048 (constant S_ .f32 0x3F800000#32))
    (maximumf (broadcastInDim S8192x2048 ![] bcast_S_S8192x2048 (constant S_ .f32 0xBF800000#32))
      (Host.dotGeneral dot_S8192x2048_S2048x2048_S8192x2048_1_1_0_0_n_n none (xn x g b) (wb w)))

/-! ## The program as a list of operations -/

/-- The program's 64 operations in order, each call replaced by the callee's operations over that call's buffers:
    six of its own; the variance function's nineteen and, nested in it, the three of the guarded select; twenty-one of
    its own; the three of the sign select; six of its own; the six of the clip. -/
abbrev ops : List (HloOp τ sig (Elt F)) :=
  [ nullary main_cst (constant S_ .f32 0x00000000#32),
    binary main_arg0 main_cst main_v0 ((fun x v => Host.reduceAdd x v reducesTo_S8192x2048_S2048_d0 h_S_) : (⟨S8192x2048, .f32⟩ : BufTy).Contents (Elt F) → (⟨S_, .f32⟩ : BufTy).Contents (Elt F) → (⟨S2048, .f32⟩ : BufTy).Contents (Elt F)),
    nullary main_cst_0 (constant S_ .f32 0x46000000#32),
    unary main_cst_0 main_v1 (broadcastInDim S2048 ![] bcast_S_S2048 : (⟨S_, .f32⟩ : BufTy).Contents (Elt F) → (⟨S2048, .f32⟩ : BufTy).Contents (Elt F)),
    binary main_v0 main_v1 main_v2 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    TRef.nullary main_call0.cst (constant S_ .f32 0x00000000#32),
    TRef.binary (TRef.of (T := ⟨S8192x2048, .f32⟩) main_arg0) main_call0.cst main_call0.v0 (fun x v => Host.reduceAdd x v reducesTo_S8192x2048_S2048_d0 h_S_),
    TRef.unary main_call0.v0 main_call0.v1 (broadcastInDim S1x2048 ![1] bcast_S2048_S1x2048_1),
    TRef.nullary main_call0.cst_0 (constant S_ .f32 0x46000000#32),
    TRef.unary main_call0.cst_0 main_call0.v2 (broadcastInDim S1x2048 ![] bcast_S_S1x2048),
    TRef.binary main_call0.v1 main_call0.v2 main_call0.v3 Host.divf,
    TRef.unary main_call0.v3 main_call0.v4 (broadcastInDim S8192x2048 ![0, 1] bcast_S1x2048_S8192x2048_0_1),
    TRef.binary (TRef.of (T := ⟨S8192x2048, .f32⟩) main_arg0) main_call0.v4 main_call0.v5 subf,
    TRef.binary main_call0.v5 main_call0.v5 main_call0.v6 mulf,
    TRef.unary (TRef.of (T := ⟨S_, .i32⟩) main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8192x2048_S2048_d0 h_S_),
    TRef.unary main_call0.v8 main_call0.v10 (broadcastInDim S2048 ![] bcast_S_S2048),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S2048 ![] bcast_S_S2048),
    TRef.ternary main_call0.v12 main_call0.v11 main_call0.call0.v1 main_call0.call0.v2 (fun p a b => select (broadcastInDim S2048 ![] bcast_S_S2048 p) a b),
    unary main_v2 main_v4 (broadcastInDim S1x2048 ![1] bcast_S2048_S1x2048_1 : (⟨S2048, .f32⟩ : BufTy).Contents (Elt F) → (⟨S1x2048, .f32⟩ : BufTy).Contents (Elt F)),
    unary main_v4 main_v5 (broadcastInDim S8192x2048 ![0, 1] bcast_S1x2048_S8192x2048_0_1 : (⟨S1x2048, .f32⟩ : BufTy).Contents (Elt F) → (⟨S8192x2048, .f32⟩ : BufTy).Contents (Elt F)),
    binary main_arg0 main_v5 main_v6 (subf : (⟨S8192x2048, .f32⟩ : BufTy).Contents (Elt F) → (⟨S8192x2048, .f32⟩ : BufTy).Contents (Elt F) → (⟨S8192x2048, .f32⟩ : BufTy).Contents (Elt F)),
    nullary main_cst_1 (constant S_ .f32 0x3727C5AC#32),
    unary main_cst_1 main_v7 (broadcastInDim S2048 ![] bcast_S_S2048 : (⟨S_, .f32⟩ : BufTy).Contents (Elt F) → (⟨S2048, .f32⟩ : BufTy).Contents (Elt F)),
    binary main_v3 main_v7 main_v8 (addf : (⟨S2048, .f32⟩ : BufTy).Contents (Elt F) → (⟨S2048, .f32⟩ : BufTy).Contents (Elt F) → (⟨S2048, .f32⟩ : BufTy).Contents (Elt F)),
    unary main_v8 main_v9 (Host.rsqrt : (⟨S2048, .f32⟩ : BufTy).Contents (Elt F) → (⟨S2048, .f32⟩ : BufTy).Contents (Elt F)),
    unary main_v9 main_v10 (broadcastInDim S1x2048 ![1] bcast_S2048_S1x2048_1 : (⟨S2048, .f32⟩ : BufTy).Contents (Elt F) → (⟨S1x2048, .f32⟩ : BufTy).Contents (Elt F)),
    unary main_v10 main_v11 (broadcastInDim S8192x2048 ![0, 1] bcast_S1x2048_S8192x2048_0_1 : (⟨S1x2048, .f32⟩ : BufTy).Contents (Elt F) → (⟨S8192x2048, .f32⟩ : BufTy).Contents (Elt F)),
    binary main_v6 main_v11 main_v12 (mulf : (⟨S8192x2048, .f32⟩ : BufTy).Contents (Elt F) → (⟨S8192x2048, .f32⟩ : BufTy).Contents (Elt F) → (⟨S8192x2048, .f32⟩ : BufTy).Contents (Elt F)),
    unary main_arg2 main_v13 (broadcastInDim S1x2048 ![1] bcast_S2048_S1x2048_1 : (⟨S2048, .f32⟩ : BufTy).Contents (Elt F) → (⟨S1x2048, .f32⟩ : BufTy).Contents (Elt F)),
    unary main_v13 main_v14 (broadcastInDim S8192x2048 ![0, 1] bcast_S1x2048_S8192x2048_0_1 : (⟨S1x2048, .f32⟩ : BufTy).Contents (Elt F) → (⟨S8192x2048, .f32⟩ : BufTy).Contents (Elt F)),
    binary main_v12 main_v14 main_v15 (mulf : (⟨S8192x2048, .f32⟩ : BufTy).Contents (Elt F) → (⟨S8192x2048, .f32⟩ : BufTy).Contents (Elt F) → (⟨S8192x2048, .f32⟩ : BufTy).Contents (Elt F)),
    unary main_arg3 main_v16 (broadcastInDim S1x2048 ![1] bcast_S2048_S1x2048_1 : (⟨S2048, .f32⟩ : BufTy).Contents (Elt F) → (⟨S1x2048, .f32⟩ : BufTy).Contents (Elt F)),
    unary main_v16 main_v17 (broadcastInDim S8192x2048 ![0, 1] bcast_S1x2048_S8192x2048_0_1 : (⟨S1x2048, .f32⟩ : BufTy).Contents (Elt F) → (⟨S8192x2048, .f32⟩ : BufTy).Contents (Elt F)),
    binary main_v15 main_v17 main_v18 (addf : (⟨S8192x2048, .f32⟩ : BufTy).Contents (Elt F) → (⟨S8192x2048, .f32⟩ : BufTy).Contents (Elt F) → (⟨S8192x2048, .f32⟩ : BufTy).Contents (Elt F)),
    nullary main_cst_2 (constant S_ .f32 0x00000000#32),
    unary main_cst_2 main_v19 (broadcastInDim S2048x2048 ![] bcast_S_S2048x2048 : (⟨S_, .f32⟩ : BufTy).Contents (Elt F) → (⟨S2048x2048, .f32⟩ : BufTy).Contents (Elt F)),
    binary main_arg1 main_v19 main_v20 (cmpf .oge : (⟨S2048x2048, .f32⟩ : BufTy).Contents (Elt F) → (⟨S2048x2048, .f32⟩ : BufTy).Contents (Elt F) → (⟨S2048x2048, .i1⟩ : BufTy).Contents (Elt F)),
    nullary main_cst_3 (constant S_ .f32 0x3F800000#32),
    nullary main_cst_4 (constant S_ .f32 0xBF800000#32),
    TRef.unary (TRef.of (T := ⟨S_, .f32⟩) main_cst_3) main_call1.v0 (broadcastInDim S2048x2048 ![] bcast_S_S2048x2048),
    TRef.unary (TRef.of (T := ⟨S_, .f32⟩) main_cst_4) main_call1.v1 (broadcastInDim S2048x2048 ![] bcast_S_S2048x2048),
    TRef.ternary (TRef.of (T := ⟨S2048x2048, .i1⟩) main_v20) main_call1.v0 main_call1.v1 main_call1.v2 select,
    unary main_v21 main_v22 (id : (⟨S2048x2048, .f32⟩ : BufTy).Contents (Elt F) → (⟨S2048x2048, .f32⟩ : BufTy).Contents (Elt F)),
    binary main_v22 main_arg1 main_v23 (subf : (⟨S2048x2048, .f32⟩ : BufTy).Contents (Elt F) → (⟨S2048x2048, .f32⟩ : BufTy).Contents (Elt F) → (⟨S2048x2048, .f32⟩ : BufTy).Contents (Elt F)),
    binary main_arg1 main_v23 main_v24 (addf : (⟨S2048x2048, .f32⟩ : BufTy).Contents (Elt F) → (⟨S2048x2048, .f32⟩ : BufTy).Contents (Elt F) → (⟨S2048x2048, .f32⟩ : BufTy).Contents (Elt F)),
    binary main_v18 main_v24 main_v25 ((fun l r => Host.dotGeneral dot_S8192x2048_S2048x2048_S8192x2048_1_1_0_0_n_n none l r) : (⟨S8192x2048, .f32⟩ : BufTy).Contents (Elt F) → (⟨S2048x2048, .f32⟩ : BufTy).Contents (Elt F) → (⟨S8192x2048, .f32⟩ : BufTy).Contents (Elt F)),
    nullary main_cst_5 (constant S_ .f32 0xBF800000#32),
    nullary main_cst_6 (constant S_ .f32 0x3F800000#32),
    TRef.unary (TRef.of (T := ⟨S_, .f32⟩) main_cst_5) main_call2.v0 id,
    TRef.unary main_call2.v0 main_call2.v1 (broadcastInDim S8192x2048 ![] bcast_S_S8192x2048),
    TRef.binary main_call2.v1 (TRef.of (T := ⟨S8192x2048, .f32⟩) main_v25) main_call2.v2 maximumf,
    TRef.unary (TRef.of (T := ⟨S_, .f32⟩) main_cst_6) main_call2.v3 id,
    TRef.unary main_call2.v3 main_call2.v4 (broadcastInDim S8192x2048 ![] bcast_S_S8192x2048),
    TRef.binary main_call2.v4 main_call2.v2 main_call2.v5 minimumf ]

/-- The program is that straight line: the callees' bodies unfolded at their calls, both sides are one chain of
    steps once sequencing is reassociated. -/
theorem main_eq (c : Dev nD) : main (F := F) c = seq ops := by
  simp only [main, fn_var.body, fn_where.body, fn_where_0.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    nullary_bufs_sub .., unary_bufs_sub .., unary_bufs_sub .., ternary_bufs_sub .., unary_bufs_sub .., binary_bufs_sub ..,
    binary_bufs_sub .., binary_bufs_sub .., nullary_bufs_sub .., nullary_bufs_sub .., unary_bufs_sub .., unary_bufs_sub ..,
    binary_bufs_sub .., unary_bufs_sub .., unary_bufs_sub .., binary_bufs_sub ..⟩

/-! ## What the buffers hold after the line -/

set_option maxHeartbeats 4000000 in
/-- The result buffer after the line: each operation's result read at its own buffer, the rest passed over; what is
    left differs from `out` by the identity transports around the callees' operations only. -/
theorem out_eq (V : Valuation τ sig (Elt F)) :
    after ops V (main_v26 : DevRef τ sig)
      = out (V (main_arg0 : DevRef τ sig)) (V (main_arg1 : DevRef τ sig)) (V (main_arg2 : DevRef τ sig)) (V (main_arg3 : DevRef τ sig)) := by
  after_results_simp
  rfl

set_option maxHeartbeats 4000000 in
/-- No operation writes an argument. -/
theorem arg0_eq (V : Valuation τ sig (Elt F)) : after ops V (main_arg0 : DevRef τ sig) = V (main_arg0 : DevRef τ sig) := by
  after_results_simp
set_option maxHeartbeats 4000000 in
theorem arg1_eq (V : Valuation τ sig (Elt F)) : after ops V (main_arg1 : DevRef τ sig) = V (main_arg1 : DevRef τ sig) := by
  after_results_simp
set_option maxHeartbeats 4000000 in
theorem arg2_eq (V : Valuation τ sig (Elt F)) : after ops V (main_arg2 : DevRef τ sig) = V (main_arg2 : DevRef τ sig) := by
  after_results_simp
set_option maxHeartbeats 4000000 in
theorem arg3_eq (V : Valuation τ sig (Elt F)) : after ops V (main_arg3 : DevRef τ sig) = V (main_arg3 : DevRef τ sig) := by
  after_results_simp

/-! ## The run -/

/-- On every device, for any float values, from any memory with zero counters: every weakly fair execution of the
    program terminates with the result at `out` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v26) = out (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v26).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Hand

end
-- ==== Proof.RefRead.lean ====
import proofs.«127384_j52072183496926_2_alg».proof.Proof.RefRun
import Idealize.ShloMosaic.Lib.IdealHost

/-!
# The reference's result read at an entry, over the extended reals

Each stage of the reference — column mean, column variance, normalized rows, binarized weight, clipped product —
read at one index, at the instance where a float is an extended real and every operation is exact. Indices are
built from literal coordinates: `r : Fin 8192` a row of `x`, `j k : Fin 2048` a column of `x` (a feature), `o : Fin 2048`
a row of the weight (an output feature).
-/

noncomputable section

open scoped BigOperators

namespace Cert.ReferenceIdeal.Hand

open Cert.ReferenceIdeal Cert.ReferenceIdeal.Gen Idealize.ShloMosaic Idealize.ShloMosaic.ValueIdx

/-! ## Broadcasts at an index -/

/-- A scalar broadcast to any of the program's shapes reads the scalar. -/
theorem scalar_apply {T : Shape} {α : Type} (h : S_.BroadcastsInDim T ![]) (x : S_.Idx → α) (i : T.Idx) :
    broadcastInDim T ![] h x i = x ix0 :=
  broadcastInDim_scalar_apply h x i

/-- A feature vector repeated down the rows reads, at row `r` and column `k`, its entry `k`. -/
theorem rows_apply {F : FTy → Type} (v : FVec F S2048 .f32) (r : Fin 8192) (k : Fin 2048) :
    rows v (ix2 r k) = v (ix1 k) := by
  unfold rows broadcastInDim
  exact congrArg v (funext fun a => by match a with | ⟨0, _⟩ => rfl)

/-! ## The sums -/

/-- A column sum from zero: the zero word's value plus the sum of the column's 8192 entries. -/
theorem colsum_apply (y : FVec Ideal S8192x2048 .f32) (j : Fin 2048) :
    Host.reduceAdd y (constant (F := Ideal) S_ .f32 0x00000000#32) reducesTo_S8192x2048_S2048_d0 h_S_ (ix1 j)
      = Ideal.ofBits .f32 0x00000000#32 + ∑ r : Fin 8192, y (ix2 r j) := by
  rw [hostReduceAdd_apply, Ideal.hostReduceAdd_single reducesTo_S8192x2048_S2048_d0 (by decide)]
  refine congrArg₂ (· + ·) rfl (Finset.sum_congr rfl fun r _ => ?_)
  exact congrArg y (funext fun a => Fin.ext (by match a with | ⟨0, _⟩ => rfl | ⟨1, _⟩ => rfl))

/-! ## Mean and variance -/

/-- The column mean at feature `j`. -/
theorem mean_apply (x : FVec Ideal S8192x2048 .f32) (j : Fin 2048) :
    mean x (ix1 j)
      = Ideal.div (Ideal.ofBits .f32 0x00000000#32 + ∑ r : Fin 8192, x (ix2 r j)) (Ideal.ofBits .f32 0x46000000#32) := by
  unfold mean
  rw [hostDivf_apply, colsum_apply, scalar_apply]
  rfl

/-- The deviation at row `r`, feature `j`: the entry minus the column mean (the mean the variance function recomputes
    is the same quotient). -/
theorem centered_apply (x : FVec Ideal S8192x2048 .f32) (r : Fin 8192) (j : Fin 2048) :
    centered x (ix2 r j) = x (ix2 r j) - mean x (ix1 j) := by
  rw [mean_apply]
  unfold centered
  rw [subf_apply]
  refine congrArg (x (ix2 r j) - ·) ?_
  unfold broadcastInDim
  rw [hostDivf_apply]
  refine congrArg₂ Ideal.div ?_ rfl
  exact (congrArg _ (funext fun a => by match a with | ⟨0, _⟩ => rfl)).trans (colsum_apply x j)

/-! ## The divisor and the variance -/

/-- The word `0x46000000` is 8192. -/
theorem ofBits_8192 : Ideal.ofBits .f32 0x46000000#32 = ((8192 : ℝ) : EReal) := by
  simp [Ideal.ofBits, Ideal.ieee, -EReal.coe_mul]; norm_num

/-- The variance's divisor is 8192: 8192 minus the integer zero. -/
theorem count_apply : count (F := Ideal) ix0 = Ideal.ofBits .f32 0x46000000#32 := by
  show Ideal.ofBits .f32 0x46000000#32 - (((0#32 : BitVec 32).toInt : ℝ) : EReal) = _
  rw [show (0#32 : BitVec 32).toInt = 0 by decide]
  simp

/-- The divisor is positive, so the guard of the variance selects the quotient. -/
theorem guard_apply : FloatOps.cmpf (F := Ideal) (φ := .f32) .ogt (count (F := Ideal) ix0) (Ideal.ofBits .f32 0x00000000#32) = 1#1 := by
  rw [count_apply, Ideal.cmpf_def, Ideal.ofBits_zero_f32, ofBits_8192]
  have h : (0 : EReal) < ((8192 : ℝ) : EReal) := EReal.coe_pos.mpr (by norm_num)
  simp [Ideal.cmp, h]

/-- The column variance at feature `j`: the sum of the squared deviations from the column mean, over 8192. -/
theorem var_apply (x : FVec Ideal S8192x2048 .f32) (j : Fin 2048) :
    var x (ix1 j)
      = Ideal.div (Ideal.ofBits .f32 0x00000000#32
            + ∑ r : Fin 8192, (x (ix2 r j) - mean x (ix1 j)) * (x (ix2 r j) - mean x (ix1 j)))
          (Ideal.ofBits .f32 0x46000000#32) := by
  unfold var
  rw [select_apply, scalar_apply, cmpf_apply]
  rw [show (constant (F := Ideal) S_ .f32 0x00000000#32) ix0 = Ideal.ofBits .f32 0x00000000#32 from rfl, guard_apply, select_one,
    hostDivf_apply, colsum_apply, scalar_apply, count_apply]
  refine congrArg₂ Ideal.div (congrArg₂ (· + ·) rfl (Finset.sum_congr rfl fun r _ => ?_)) rfl
  rw [mulf_apply, centered_apply]

/-! ## The normalized rows and the binarized weight -/

/-- The normalized entry at row `r`, feature `k`. -/
theorem xn_apply (x : FVec Ideal S8192x2048 .f32) (g b : FVec Ideal S2048 .f32) (r : Fin 8192) (k : Fin 2048) :
    xn x g b (ix2 r k)
      = (x (ix2 r k) - mean x (ix1 k)) * Ideal.rsqrt (var x (ix1 k) + Ideal.ofBits .f32 0x3727C5AC#32) * g (ix1 k) + b (ix1 k) := by
  unfold xn
  rw [addf_apply, mulf_apply, mulf_apply, subf_apply, rows_apply, rows_apply, rows_apply, rows_apply]
  rfl

/-- The binarized weight at output feature `o`, feature `k`, as the program writes it. -/
theorem wb_apply (w : FVec Ideal S2048x2048 .f32) (o k : Fin 2048) :
    wb w (ix2 o k)
      = w (ix2 o k)
        + (Scalar.select (Ideal.cmp .oge (w (ix2 o k)) (Ideal.ofBits .f32 0x00000000#32))
              (Ideal.ofBits .f32 0x3F800000#32) (Ideal.ofBits .f32 0xBF800000#32)
            - w (ix2 o k)) := by
  unfold wb
  rw [addf_apply, subf_apply, select_apply, cmpf_apply, scalar_apply, scalar_apply, scalar_apply]
  rfl

/-! ## The product and the result -/

/-- The product's dimension numbers: the second axis of both operands contracted, no batch axis. -/
abbrev dims : DotDims S8192x2048 S2048x2048 S8192x2048 := dot_S8192x2048_S2048x2048_S8192x2048_1_1_0_0_n_n

theorem lhs_row (i : S8192x2048.Idx) (q : dims.contr.Idx) : (dims.lhsIdx i q 0).val = (i 0).val := by
  unfold DotDims.lhsIdx
  rw [dif_neg (show ¬(0 : Fin S8192x2048.rank) ∈ dims.lhsBatch by decide),
    dif_pos (show (0 : Fin S8192x2048.rank) ∈ dims.lhsNonContracting by decide)]
  rfl
theorem lhs_col (i : S8192x2048.Idx) (q : dims.contr.Idx) : (dims.lhsIdx i q 1).val = (q ⟨0, by decide⟩).val :=
  dims.lhsIdx_val_of_single rfl i q
theorem rhs_row (i : S8192x2048.Idx) (q : dims.contr.Idx) : (dims.rhsIdx i q 0).val = (i 1).val := by
  unfold DotDims.rhsIdx
  rw [dif_neg (show ¬(0 : Fin S2048x2048.rank) ∈ dims.rhsBatch by decide),
    dif_pos (show (0 : Fin S2048x2048.rank) ∈ dims.rhsNonContracting by decide)]
  rfl
theorem rhs_col (i : S8192x2048.Idx) (q : dims.contr.Idx) : (dims.rhsIdx i q 1).val = (q ⟨0, by decide⟩).val :=
  dims.rhsIdx_val_of_single rfl i q

/-- The product at row `r`, output feature `o`: the sum over the 2048 features of the left operand's row entry times the
    right operand's row-`o` entry. -/
theorem dot_apply (l : FVec Ideal S8192x2048 .f32) (m : FVec Ideal S2048x2048 .f32) (r : Fin 8192) (o : Fin 2048) :
    Host.dotGeneral dims none l m (ix2 r o) = ∑ k : Fin 2048, l (ix2 r k) * m (ix2 o k) := by
  simp only [Host.dotGeneral]
  rw [Ideal.dotGeneral_apply, ← Equiv.sum_comp (contrEquiv1 dims 2048 rfl rfl).symm]
  refine Finset.sum_congr rfl fun k _ => ?_
  have hk := contrEquiv1_symm_val dims 2048 rfl rfl k
  have el : dims.lhsIdx (ix2 r o) ((contrEquiv1 dims 2048 rfl rfl).symm k) = ix2 r k := funext fun a => Fin.ext (by
    match a with
    | ⟨0, _⟩ => exact lhs_row _ _
    | ⟨1, _⟩ => exact (lhs_col _ _).trans hk)
  have er : dims.rhsIdx (ix2 r o) ((contrEquiv1 dims 2048 rfl rfl).symm k) = ix2 o k := funext fun a => Fin.ext (by
    match a with
    | ⟨0, _⟩ => exact rhs_row _ _
    | ⟨1, _⟩ => exact (rhs_col _ _).trans hk)
  rw [el, er]

/-- The result at row `r`, output feature `o`: the product of the normalized row with the binarized weight's row `o`,
    clipped between the values of the words `0xBF800000` and `0x3F800000`. -/
theorem out_apply (x : FVec Ideal S8192x2048 .f32) (w : FVec Ideal S2048x2048 .f32) (g b : FVec Ideal S2048 .f32)
    (r : Fin 8192) (o : Fin 2048) :
    out x w g b (ix2 r o)
      = min (Ideal.ofBits .f32 0x3F800000#32)
          (max (Ideal.ofBits .f32 0xBF800000#32) (∑ k : Fin 2048, xn x g b (ix2 r k) * wb w (ix2 o k))) := by
  unfold out
  rw [minimumf_apply, maximumf_apply, scalar_apply, scalar_apply, dot_apply]
  rfl

end Cert.ReferenceIdeal.Hand

end
-- ==== Proof.RefValue.lean ====
import proofs.«127384_j52072183496926_2_alg».proof.Proof.RefRead
import proofs.«127384_j52072183496926_2_alg».proof.Proof.LibBatchNormSign

/-!
# The reference's result is the specification, entry by entry

The reference takes the variance as the mean of the squared deviations from the mean and writes
the sign pattern of a weight `w` as `w + (s - w)`. For real inputs both are what the specification
`Cert.Spec.G` says: the variance is the mean of the squares minus the square of the mean, and
`w + (s - w) = s`. Read at row `r` and output feature `o`, the reference's result is `G` there.
-/

noncomputable section

open scoped BigOperators

namespace Cert.ReferenceIdeal.Hand

open Cert.ReferenceIdeal Cert.ReferenceIdeal.Gen Idealize.ShloMosaic Idealize.ShloMosaic.ValueIdx

/-- Two arrays over a rank-2 index set that agree at every pair of coordinates are equal: every index
    is the pair of its coordinates. -/
theorem ext_ix2 {n0 n1 : Nat} {α : Type} (f g : (⟨2, ![n0, n1]⟩ : Shape).Idx → α)
    (h : ∀ (r : Fin n0) (o : Fin n1), f (ix2 r o) = g (ix2 r o)) : f = g :=
  funext fun j => (congrArg f (eq_ix2 j)).trans ((h (j 0) (j 1)).trans (congrArg g (eq_ix2 j)).symm)

/-- For a real batch and real weights, the reference's result at row `r`, output feature `o` is the
    specification's entry there. -/
theorem out_eq_G (x : FVec Ideal S8192x2048 .f32) (w : FVec Ideal S2048x2048 .f32) (g b : FVec Ideal S2048 .f32)
    (hx : ∀ i, Cert.Spec.IsReal (x i)) (hw : ∀ i, Cert.Spec.IsReal (w i)) (r : Fin 8192) (o : Fin 2048) :
    out x w g b (ix2 r o)
      = Cert.Spec.G (fun r k => x (ix2 r k)) (fun o k => w (ix2 o k)) (fun k => g (ix1 k)) (fun k => b (ix1 k)) r o := by
  rw [out_apply]
  exact Cert.Spec.reference_entry_eq_G_of_eqs (ι := Fin 8192) (κ := Fin 2048) (ω := Fin 2048) (Fintype.card_fin 8192)
    (fun r k => x (ix2 r k)) (fun o k => w (ix2 o k)) (fun k => g (ix1 k)) (fun k => b (ix1 k))
    (fun r k => hx (ix2 r k)) (fun o k => hw (ix2 o k)) r o
    (fun k => mean x (ix1 k)) (fun k => mean x (ix1 k)) (fun k => var x (ix1 k))
    (fun k => xn x g b (ix2 r k)) (fun k => wb w (ix2 o k)) 0 0 0 _ rfl rfl
    (fun k => by beta_reduce; rw [mean_apply, Cert.Spec.zero_word_add])
    (fun k => by beta_reduce; rw [mean_apply, Cert.Spec.zero_word_add])
    (fun k => by
      beta_reduce
      rw [Cert.Spec.select_guard 0 0 rfl rfl, Cert.Spec.N_sub_zero 0 rfl, var_apply, Cert.Spec.zero_word_add])
    (fun k => xn_apply x g b r k) (fun k => wb_apply w o k) rfl

/-- Hence the reference's whole result array is the specification read at the coordinates of each index. -/
theorem out_eq_G_array (x : FVec Ideal S8192x2048 .f32) (w : FVec Ideal S2048x2048 .f32) (g b : FVec Ideal S2048 .f32)
    (hx : ∀ i, Cert.Spec.IsReal (x i)) (hw : ∀ i, Cert.Spec.IsReal (w i)) :
    out x w g b
      = fun j => Cert.Spec.G (fun r k => x (ix2 r k)) (fun o k => w (ix2 o k)) (fun k => g (ix1 k))
          (fun k => b (ix1 k)) (j 0) (j 1) :=
  ext_ix2 _ _ fun r o => out_eq_G x w g b hx hw r o

end Cert.ReferenceIdeal.Hand

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«127384_j52072183496926_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«127384_j52072183496926_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.Finite.lean ====
import proofs.«127384_j52072183496926_2_alg».proof.Pre_finite_inputs
import proofs.«127384_j52072183496926_2_alg».proof.Proof.Gen.Pre_finite_inputs
import proofs.«127384_j52072183496926_2_alg».proof.Proof.LibBatchNormSign
import proofs.«127384_j52072183496926_2_alg».proof.Proof.LibFinite

/-!
# Every input entry is a real number

The precondition tests each of the four input arrays entry by entry — is the absolute value below
plus infinity? — and joins all the answers by "and". If the joint answer is "true", each single
answer is, and an extended real whose absolute value is below plus infinity is a real number.
-/

noncomputable section

namespace Cert.Spec

open Idealize.ShloMosaic Idealize.ShloMosaic.ValueIdx

/-- If the precondition's test answers "true" on the batch `x`, the weights `w`, the scale `g` and the
    shift `b`, then every entry of the four arrays is real. -/
theorem fn_real (x : FVec Ideal Cert.Pre_finite_inputs.S8192x2048 .f32)
    (w : FVec Ideal Cert.Pre_finite_inputs.S2048x2048 .f32)
    (g b : FVec Ideal Cert.Pre_finite_inputs.S2048 .f32)
    (h : Cert.Pre_finite_inputs.fn (F := Ideal) x w g b = fun _ => 1#1) :
    (∀ i, IsReal (x i)) ∧ (∀ i, IsReal (w i)) ∧ (∀ i, IsReal (g i)) ∧ (∀ i, IsReal (b i)) := by
  have h0 := congrFun h ix0
  dsimp only [Cert.Pre_finite_inputs.fn, Cert.Pre_finite_inputs.fn_part1] at h0
  change IntOp.andi (IntOp.andi (IntOp.andi _ _) _) _ = 1#1 at h0
  obtain ⟨h123, h4⟩ := IntOp.andi_eq_one.1 h0
  obtain ⟨h12, h3⟩ := IntOp.andi_eq_one.1 h123
  obtain ⟨h1, h2⟩ := IntOp.andi_eq_one.1 h12
  exact ⟨Cert.Gcn.finite_of_all x _ _ _ h1, Cert.Gcn.finite_of_all w _ _ _ h2,
    Cert.Gcn.finite_of_all g _ _ _ h3, Cert.Gcn.finite_of_all b _ _ _ h4⟩

end Cert.Spec

end
-- ==== Proof.KI.Value.lean ====
/-
  The value of the kernel's result against the reference's, entry by entry.

  Under the precondition every entry of the four arguments is a real. The reference's result at row r and output
  feature o is then the specification G: the clipped product of the normalised row with the sign row of the weight.
  The kernel's result is the second region's output array: block by block the body's payload of the row tile, the
  mean and variance rows the first region left, the two recast vectors and the weight. The mean row holds, at
  feature j, the sum over all 8192 rows divided by 8192 — eight tiles of 1024 rows accumulated in the running row —
  and the variance row the mean of squares minus the squared mean; with these the payload at (r, o) is G as well.
-/
import proofs.«127384_j52072183496926_2_alg».proof.Defs
import proofs.«127384_j52072183496926_2_alg».proof.Proof.Gen.Pre_finite_inputs
import proofs.«127384_j52072183496926_2_alg».proof.Proof.KI.Halves
import proofs.«127384_j52072183496926_2_alg».proof.Proof.KI.Reshaped
import proofs.«127384_j52072183496926_2_alg».proof.Proof.KI.LayerSpec
import proofs.«127384_j52072183496926_2_alg».proof.Proof.KI.StatsPieces
import proofs.«127384_j52072183496926_2_alg».proof.Proof.KI.StatsValue
import proofs.«127384_j52072183496926_2_alg».proof.Proof.RefValue
import proofs.«127384_j52072183496926_2_alg».proof.Proof.Finite

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen

/-- Under the precondition the reference's result of the four arguments is the second region's output array. -/
theorem value_eq (m : (ℓ : Loc nD τ sig) → Buf (Elt Ideal) ℓ) (hpre : Cert.Pre_KernelIdeal m) (c : Dev nD) :
    Cert.ReferenceIdeal.Hand.out (F := Ideal)
        (m ((c.tc : Thread nD τ).loc main_arg0)) (m ((c.tc : Thread nD τ).loc main_arg1))
        (m ((c.tc : Thread nD τ).loc main_arg2)) (m ((c.tc : Thread nD τ).loc main_arg3))
      = ((layer (F := Ideal)).dat (V2 (stats (F := Ideal)) m) c).arrAt 6 cfg1.N := by
  obtain ⟨hx, hw, hg, hb⟩ := Cert.Spec.fn_real _ _ _ _ (hpre c)
  refine ((Layer.arrAt_out (V2 (stats (F := Ideal)) m) c).trans ?_).symm
  refine Cert.ReferenceIdeal.Hand.ext_ix2 _ _ fun r o => ?_
  rw [Cert.ReferenceIdeal.Hand.out_eq_G _ _ _ _ hx hw r o]
  rw [V2_main_arg0, V2_main_arg1, V2_main_v1, V2_main_v2, V2_main_v0_0, V2_main_v0_1]
  exact Layer.whole_eq_G _ _ _ _ _ _ _ _ hx hg hb
    (fun k => StatsValue.mean_apply (V0 m) c (Stats.scratch_first (V0 m) c) (Stats.scratch_next (V0 m) c) (Stats.outs_last (V0 m) c) k)
    (fun k => StatsValue.var_apply (V0 m) c (Stats.scratch_first (V0 m) c) (Stats.scratch_next (V0 m) c) (Stats.outs_last (V0 m) c) k)
    (fun k => Layer.castRow_apply (F := Ideal) (m ((c.tc : Thread nD τ).loc main_arg2) : FVec Ideal S2048 .f32) k)
    (fun k => Layer.castRow_apply (F := Ideal) (m ((c.tc : Thread nD τ).loc main_arg3) : FVec Ideal S2048 .f32) k) r o

end Cert.KernelIdeal.Whole

end
-- ==== Proof.lean ====
/-
  The certificate's five claims.

  The kernel's program is two pipelined regions with two reshapes between them. The first region sweeps the
  batch in eight tiles per feature half, keeping two running rows — the column sums of x and of x² — and at the
  last tile stores mean = Σx/8192 and var = Σx²/8192 − mean². The second normalises each tile of rows,
  xn = (x − mean)·(var + ε)^(−1/2)·γ + β, multiplies by the sign matrix of the weight, adds the product of
  xn − xn with the same matrix, and clips to [−1, 1].

  Frames. Each region's body is run at a symbolic grid point; the regions and the reshapes are chained, and the
  arguments are read back off the last boundary's contents: no reshape and no write-back touches them. The same
  text serves the word-level program and the idealized one. The reference is a straight line of host operations.

  Preserves. The one rewrite of the ideal pass — widening back a value just narrowed — is the identity on the
  extended reals, and the stated rounding on words.

  Algebraic. On the extended reals, for finite inputs: a sum over eight tiles of 1024 rows is the sum over all
  8192 rows; Σ(x − μ)²/n = Σx²/n − μ² for reals, and this common value is a nonnegative real, so (var + ε)^(−1/2)
  and hence xn are reals; then xn − xn = 0 and the second product vanishes; and w + (s − w) = s for a real w,
  so the reference's weight is the sign matrix too. Both results are the same clipped product, entry by entry.
-/
import proofs.«127384_j52072183496926_2_alg».proof.Defs
import proofs.«127384_j52072183496926_2_alg».proof.Proof.Gen.Kernel
import proofs.«127384_j52072183496926_2_alg».proof.Proof.Gen.KernelIdeal
import proofs.«127384_j52072183496926_2_alg».proof.Proof.Gen.ReferenceIdeal
import proofs.«127384_j52072183496926_2_alg».proof.Proof.Gen.Pre_finite_inputs
import proofs.«127384_j52072183496926_2_alg».proof.Proof.K.Halves
import proofs.«127384_j52072183496926_2_alg».proof.Proof.KI.Halves
import proofs.«127384_j52072183496926_2_alg».proof.Proof.KI.Value
import proofs.«127384_j52072183496926_2_alg».proof.Proof.RefRun
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ =>
  Cert.Kernel.Whole.frame Cert.Kernel.Whole.stats Cert.Kernel.Whole.layer m ρ

/-- So does the idealized program. -/
theorem frame_kernelIdeal : Cert.frame_KernelIdeal := fun m ρ _ =>
  Cert.KernelIdeal.Whole.frame Cert.KernelIdeal.Whole.stats Cert.KernelIdeal.Whole.layer m ρ

/-- And the reference: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- Narrowing to bf16 and widening back is the identity on the extended reals. -/
theorem preserves : Cert.preserves_Kernel_KernelIdeal :=
  IdealRules.truncf_extf.statement Cert.KernelIdeal.S1024x2048 .f32 .bf16

open Cert.KernelIdeal.Whole in
/-- Both programs end with the same result: the kernel's is the second region's output array, the reference's its
    composed term of the arguments, and under finiteness the two are equal. -/
theorem algebraic : Cert.algebraic_KernelIdeal_ReferenceIdeal := by
  intro m ρ m' ρ' hpre hagree
  refine ⟨fun c => ((layer (F := Ideal)).dat (V2 (stats (F := Ideal)) m) c).arrAt 6 Cert.KernelIdeal.cfg1.N,
    run_out (stats (F := Ideal)) (layer (F := Ideal)) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  exact value_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
